-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S8x128 : Shape := ⟨2, ![8, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S3x8x3 : Shape := ⟨3, ![3, 8, 3]⟩
abbrev S8x32 : Shape := ⟨2, ![8, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S3x8x3 : S_.BroadcastsInDim S3x8x3 (![] : Fin 0 → Fin S3x8x3.rank)
  reducesTo_S3x8x3_S_d0_1_2 : S3x8x3.ReducesTo [0, 1, 2] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S32x2 .f32) (main_v50 : FVec F S32x2 .f32) : IVec S_ 1 :=
  let main_v51 : IVec S32x2 1 := cmpf .olt main_v49 main_v50
  let main_c_19 : IVec S_ 1 := constantI S_ 1 1#1
  let main_v52 : IVec S_ 1 := (fun x v => Host.reduce IntOp.andi x v reducesTo_S32x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S3x8x3 .f32) (main_arg8 : FVec F S8x32 .f32) (main_arg9 : FVec F S32 .f32) (main_arg10 : FVec F S32x2 .f32) (main_arg11 : FVec F S2 .f32) (main_v33 : IVec S_ 1) : IVec S_ 1 :=
  let main_v34 : FVec F S3x8x3 .f32 := Host.absf main_arg7
  let main_cst_12 : FVec F S_ .f32 := constant S_ .f32 0x7F800000#32
  let main_v35 : FVec F S3x8x3 .f32 := broadcastInDim S3x8x3 ![] bcast_S_S3x8x3 main_cst_12
  let main_v36 : IVec S3x8x3 1 := cmpf .olt main_v34 main_v35
  let main_c_13 : IVec S_ 1 := constantI S_ 1 1#1
  let main_v37 : IVec S_ 1 := (fun x v => Host.reduce IntOp.andi x v reducesTo_S3x8x3_S_d0_1_2 h_S_) main_v36 main_c_13
  let main_v38 : IVec S_ 1 := andi main_v33 main_v37
  let main_v39 : FVec F S8x32 .f32 := Host.absf main_arg8
  let main_cst_14 : FVec F S_ .f32 := constant S_ .f32 0x7F800000#32
  let main_v40 : FVec F S8x32 .f32 := broadcastInDim S8x32 ![] bcast_S_S8x32 main_cst_14
  let main_v41 : IVec S8x32 1 := cmpf .olt main_v39 main_v40
  let main_c_15 : IVec S_ 1 := constantI S_ 1 1#1
  let main_v42 : IVec S_ 1 := (fun x v => Host.reduce IntOp.andi x v reducesTo_S8x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x2 .f32 := Host.absf main_arg10
  let main_cst_18 : FVec F S_ .f32 := constant S_ .f32 0x7F800000#32
  let main_v50 : FVec F S32x2 .f32 := broadcastInDim S32x2 ![] bcast_S_S32x2 main_cst_18
  fn_part3 (F := F) main_arg11 main_v48 main_v49 main_v50

def fn_part1 {F : FTy → Type} [FloatOps F] (main_arg4 : FVec F S64 .f32) (main_arg5 : FVec F S64x8 .f32) (main_arg6 : FVec F S8 .f32) (main_arg7 : FVec F S3x8x3 .f32) (main_arg8 : FVec F S8x32 .f32) (main_arg9 : FVec F S32 .f32) (main_arg10 : FVec F S32x2 .f32) (main_arg11 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg5
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1048576x8 .f32) (main_arg1 : FVec F S8x128 .f32) (main_arg2 : FVec F S128 .f32) (main_arg3 : FVec F S128x64 .f32) (main_arg4 : FVec F S64 .f32) (main_arg5 : FVec F S64x8 .f32) (main_arg6 : FVec F S8 .f32) (main_arg7 : FVec F S3x8x3 .f32) (main_arg8 : FVec F S8x32 .f32) (main_arg9 : FVec F S32 .f32) (main_arg10 : FVec F S32x2 .f32) (main_arg11 : FVec F S2 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_v13 main_v16
-- ==== Kernel.lean ====
abbrev S1048576x8 : Shape := ⟨2, ![1048576, 8]⟩
abbrev S8x128 : Shape := ⟨2, ![8, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S3x8x3 : Shape := ⟨3, ![3, 8, 3]⟩
abbrev S8x32 : Shape := ⟨2, ![8, 32]⟩
abbrev S32 : Shape := ⟨1, ![32]⟩
abbrev S32x2 : Shape := ⟨2, ![32, 2]⟩
abbrev S2 : Shape := ⟨1, ![2]⟩
abbrev S1048576x2 : Shape := ⟨2, ![1048576, 2]⟩
abbrev S4096x8 : Shape := ⟨2, ![4096, 8]⟩
abbrev S4096x2 : Shape := ⟨2, ![4096, 2]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S1x8 : Shape := ⟨2, ![1, 8]⟩
abbrev S1x8x3 : Shape := ⟨3, ![1, 8, 3]⟩
abbrev S8x3 : Shape := ⟨2, ![8, 3]⟩
abbrev S8x1 : Shape := ⟨2, ![8, 1]⟩
abbrev S4096x32 : Shape := ⟨2, ![4096, 32]⟩
abbrev S1x32 : Shape := ⟨2, ![1, 32]⟩
abbrev S1x2 : Shape := ⟨2, ![1, 2]⟩
abbrev S4096 : Shape := ⟨1, ![4096]⟩
abbrev S4096x1 : Shape := ⟨2, ![4096, 1]⟩

abbrev nBuf : Space → Nat
  | .hbm => 13
  | .vmem => 15
  | .smem => 0
  | _ => 0

abbrev bufTy : (tb : Table) → Fin (tcTables nBuf tb) → BufTy
  | .hbm, ⟨0, _⟩ => ⟨S1048576x8, .f32⟩
  | .hbm, ⟨1, _⟩ => ⟨S8x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S3x8x3, .f32⟩
  | .hbm, ⟨8, _⟩ => ⟨S8x32, .f32⟩
  | .hbm, ⟨9, _⟩ => ⟨S32, .f32⟩
  | .hbm, ⟨10, _⟩ => ⟨S32x2, .f32⟩
  | .hbm, ⟨11, _⟩ => ⟨S2, .f32⟩
  | .hbm, ⟨12, _⟩ => ⟨S1048576x2, .f32⟩
  | .local _ .vmem, ⟨0, _⟩ => ⟨S4096x8, .f32⟩
  | .local _ .vmem, ⟨1, _⟩ => ⟨S4096x8, .f32⟩
  | .local _ .vmem, ⟨2, _⟩ => ⟨S8x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S64x8, .f32⟩
  | .local _ .vmem, ⟨7, _⟩ => ⟨S8, .f32⟩
  | .local _ .vmem, ⟨8, _⟩ => ⟨S3x8x3, .f32⟩
  | .local _ .vmem, ⟨9, _⟩ => ⟨S8x32, .f32⟩
  | .local _ .vmem, ⟨10, _⟩ => ⟨S32, .f32⟩
  | .local _ .vmem, ⟨11, _⟩ => ⟨S32x2, .f32⟩
  | .local _ .vmem, ⟨12, _⟩ => ⟨S2, .f32⟩
  | .local _ .vmem, ⟨13, _⟩ => ⟨S4096x2, .f32⟩
  | .local _ .vmem, ⟨14, _⟩ => ⟨S4096x2, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x8x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  inb_S8x128_S8x128_0_0 : ∀ a, (![0, 0] : Fin 2 → Nat) a + S8x128.size a ≤ S8x128.size a
  h_S8x128 : 0 < S8x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  inb_S3x8x3_S1x8x3_0_0_0 : ∀ a, (![0, 0, 0] : Fin 3 → Nat) a + S1x8x3.size a ≤ S3x8x3.size a
  h_S1x8x3 : 0 < S1x8x3.numel
  shapeCasts_S1x8x3_S8x3 : S1x8x3.ShapeCasts S8x3
  slices_S8x3_o0_0_S8x1 : S8x3.Slices ![0, 0] S8x1
  shapeCasts_S8x1_S8 : S8x1.ShapeCasts S8
  slices_S8x3_o0_1_S8x1 : S8x3.Slices ![0, 1] S8x1
  slices_S8x3_o0_2_S8x1 : S8x3.Slices ![0, 2] S8x1
  rotates_S4096x8_d1 : S4096x8.Rotates 1 none
  iota_S4096x8_d1_w32 : S4096x8.Iotas .tc 32 [1]
  natLt_1_32 : 1 < 32
  inb_S3x8x3_S1x8x3_1_0_0 : ∀ a, (![1, 0, 0] : Fin 3 → Nat) a + S1x8x3.size a ≤ S3x8x3.size a
  inb_S3x8x3_S1x8x3_2_0_0 : ∀ a, (![2, 0, 0] : Fin 3 → Nat) a + S1x8x3.size a ≤ S3x8x3.size a
  inb_S8x32_S8x32_0_0 : ∀ a, (![0, 0] : Fin 2 → Nat) a + S8x32.size a ≤ S8x32.size a
  h_S8x32 : 0 < S8x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  reduces_S4096x2_S4096 : S4096x2.Reduces [1] S4096
  shapeCasts_S4096_S4096x1 : S4096.ShapeCasts S4096x1
  broadcasts_S4096x1_S4096x2 : S4096x1.Broadcasts S4096x2
  inb_S4096x2_S4096x2_0_0 : ∀ a, (![0, 0] : Fin 2 → Nat) a + S4096x2.size a ≤ S4096x2.size a
  h_S4096x2 : 0 < S4096x2.numel
  dot_S4096x8_S8x128_S4096x128_1_0_0_1_n_n_wf : DotDims.WF S4096x8 S8x128 S4096x128 [1] [0] [0] [1] [] []
  dot_S4096x128_S128x64_S4096x64_1_0_0_1_n_n_wf : DotDims.WF S4096x128 S128x64 S4096x64 [1] [0] [0] [1] [] []
  dot_S4096x64_S64x8_S4096x8_1_0_0_1_n_n_wf : DotDims.WF S4096x64 S64x8 S4096x8 [1] [0] [0] [1] [] []
  dot_S4096x8_S8x32_S4096x32_1_0_0_1_n_n_wf : DotDims.WF S4096x8 S8x32 S4096x32 [1] [0] [0] [1] [] []
  dot_S4096x32_S32x2_S4096x2_1_0_0_1_n_n_wf : DotDims.WF S4096x32 S32x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S1048576x8.size a
  hwx0_0 : ∀ i : grid0.Coords, EltTy.bits .f32 = 32 ∨ (Rect.block (s := S1048576x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S64x8.size a
  hwx0_5 : ∀ i : grid0.Coords, EltTy.bits .f32 = 32 ∨ (Rect.block (s := S64x8) S64x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x8x3.size a ≤ S3x8x3.size a
  hwx0_7 : ∀ i : grid0.Coords, EltTy.bits .f32 = 32 ∨ (Rect.block (s := S3x8x3) S3x8x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x32.size a ≤ S8x32.size a
  hwx0_8 : ∀ i : grid0.Coords, EltTy.bits .f32 = 32 ∨ (Rect.block (s := S8x32) S8x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x2.size a ≤ S32x2.size a
  hwx0_10 : ∀ i : grid0.Coords, EltTy.bits .f32 = 32 ∨ (Rect.block (s := S32x2) S32x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2.size a ≤ S2.size a
  hwx0_11 : ∀ i : grid0.Coords, EltTy.bits .f32 = 32 ∨ (Rect.block (s := S2) S2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x2.size a ≤ S1048576x2.size a
  hwx0_12 : ∀ i : grid0.Coords, EltTy.bits .f32 = 32 ∨ (Rect.block (s := S1048576x2) S4096x2.size (cc0_transform_12 i) (hinb0_12 i)).WholeWords (EltTy.packing .f32)

variable [Facts₀]

def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf
def dot_S4096x8_S8x32_S4096x32_1_0_0_1_n_n : DotDims S4096x8 S8x32 S4096x32 where
  lhsContracting := [1]
  rhsContracting := [0]
  lhsNonContracting := [0]
  rhsNonContracting := [1]
  lhsBatch := []
  rhsBatch := []
  wf := dot_S4096x8_S8x32_S4096x32_1_0_0_1_n_n_wf
def dot_S4096x32_S32x2_S4096x2_1_0_0_1_n_n : DotDims S4096x32 S32x2 S4096x2 where
  lhsContracting := [1]
  rhsContracting := [0]
  lhsNonContracting := [0]
  rhsNonContracting := [1]
  lhsBatch := []
  rhsBatch := []
  wf := dot_S4096x32_S32x2_S4096x2_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x8x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S4096x2.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S8x128 : Shape := ⟨2, ![8, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S3x8x3 : Shape := ⟨3, ![3, 8, 3]⟩
abbrev S8x32 : Shape := ⟨2, ![8, 32]⟩
abbrev S32 : Shape := ⟨1, ![32]⟩
abbrev S32x2 : Shape := ⟨2, ![32, 2]⟩
abbrev S2 : Shape := ⟨1, ![2]⟩
abbrev S1048576x128 : Shape := ⟨2, ![1048576, 128]⟩
abbrev S1x128 : Shape := ⟨2, ![1, 128]⟩
abbrev S_ : Shape := ⟨0, ![]⟩
abbrev S1048576x64 : Shape := ⟨2, ![1048576, 64]⟩
abbrev S1x64 : Shape := ⟨2, ![1, 64]⟩
abbrev S1x8 : Shape := ⟨2, ![1, 8]⟩
abbrev S1x8x3 : Shape := ⟨3, ![1, 8, 3]⟩
abbrev S8x3 : Shape := ⟨2, ![8, 3]⟩
abbrev S8x1 : Shape := ⟨2, ![8, 1]⟩
abbrev S1048576x7 : Shape := ⟨2, ![1048576, 7]⟩
abbrev S7x1 : Shape := ⟨2, ![7, 1]⟩
abbrev S7 : Shape := ⟨1, ![7]⟩
abbrev S1x7 : Shape := ⟨2, ![1, 7]⟩
abbrev S1048576x1 : Shape := ⟨2, ![1048576, 1]⟩
abbrev S1048576x32 : Shape := ⟨2, ![1048576, 32]⟩
abbrev S1x32 : Shape := ⟨2, ![1, 32]⟩
abbrev S1048576x2 : Shape := ⟨2, ![1048576, 2]⟩
abbrev S1x2 : Shape := ⟨2, ![1, 2]⟩
abbrev S1048576 : Shape := ⟨1, ![1048576]⟩

abbrev nBuf : Space → Nat
  | .hbm => 152
  | .vmem => 0
  | .smem => 0
  | _ => 0

abbrev hbmTy0_0 (i : Nat) : BufTy := match i % 128 with
  | 0 => ⟨S1048576x8, .f32⟩
  | 1 => ⟨S8x128, .f32⟩
  | 2 => ⟨S128, .f32⟩
  | 3 => ⟨S128x64, .f32⟩
  | 4 => ⟨S64, .f32⟩
  | 5 => ⟨S64x8, .f32⟩
  | 6 => ⟨S8, .f32⟩
  | 7 => ⟨S3x8x3, .f32⟩
  | 8 => ⟨S8x32, .f32⟩
  | 9 => ⟨S32, .f32⟩
  | 10 => ⟨S32x2, .f32⟩
  | 11 => ⟨S2, .f32⟩
  | 12 => ⟨S1048576x128, .f32⟩
  | 13 => ⟨S1x128, .f32⟩
  | 14 => ⟨S1048576x128, .f32⟩
  | 15 => ⟨S1048576x128, .f32⟩
  | 16 => ⟨S_, .f32⟩
  | 17 => ⟨S1048576x128, .f32⟩
  | 18 => ⟨S1048576x128, .f32⟩
  | 19 => ⟨S1048576x64, .f32⟩
  | 20 => ⟨S1x64, .f32⟩
  | 21 => ⟨S1048576x64, .f32⟩
  | 22 => ⟨S1048576x64, .f32⟩
  | 23 => ⟨S_, .f32⟩
  | 24 => ⟨S1048576x64, .f32⟩
  | 25 => ⟨S1048576x64, .f32⟩
  | 26 => ⟨S1048576x8, .f32⟩
  | 27 => ⟨S1x8, .f32⟩
  | 28 => ⟨S1048576x8, .f32⟩
  | 29 => ⟨S1048576x8, .f32⟩
  | 30 => ⟨S1048576x8, .f32⟩
  | 31 => ⟨S_, .f32⟩
  | 32 => ⟨S1048576x8, .f32⟩
  | 33 => ⟨S1048576x8, .f32⟩
  | 34 => ⟨S1x8x3, .f32⟩
  | 35 => ⟨S8x3, .f32⟩
  | 36 => ⟨S8x1, .f32⟩
  | 37 => ⟨S8, .f32⟩
  | 38 => ⟨S1x8, .f32⟩
  | 39 => ⟨S1048576x8, .f32⟩
  | 40 => ⟨S1048576x8, .f32⟩
  | 41 => ⟨S1048576x8, .f32⟩
  | 42 => ⟨S8x1, .f32⟩
  | 43 => ⟨S8, .f32⟩
  | 44 => ⟨S1x8, .f32⟩
  | 45 => ⟨S1048576x8, .f32⟩
  | 46 => ⟨S1048576x8, .f32⟩
  | 47 => ⟨S1048576x8, .f32⟩
  | 48 => ⟨S1048576x7, .f32⟩
  | 49 => ⟨S1048576x7, .f32⟩
  | 50 => ⟨S1048576x7, .f32⟩
  | 51 => ⟨S1048576x7, .f32⟩
  | 52 => ⟨S1048576x7, .f32⟩
  | 53 => ⟨S7x1, .f32⟩
  | 54 => ⟨S7, .f32⟩
  | 55 => ⟨S1x7, .f32⟩
  | 56 => ⟨S1048576x7, .f32⟩
  | 57 => ⟨S1048576x7, .f32⟩
  | 58 => ⟨S_, .f32⟩
  | 59 => ⟨S1048576x7, .f32⟩
  | 60 => ⟨S1048576x7, .f32⟩
  | 61 => ⟨S1048576x7, .f32⟩
  | 62 => ⟨S1048576x7, .f32⟩
  | 63 => ⟨S1048576x1, .f32⟩
  | 64 => ⟨S1048576x8, .f32⟩
  | 65 => ⟨S1x8x3, .f32⟩
  | 66 => ⟨S8x3, .f32⟩
  | 67 => ⟨S8x1, .f32⟩
  | 68 => ⟨S8, .f32⟩
  | 69 => ⟨S1x8, .f32⟩
  | 70 => ⟨S1048576x8, .f32⟩
  | 71 => ⟨S1048576x8, .f32⟩
  | 72 => ⟨S1048576x8, .f32⟩
  | 73 => ⟨S8x1, .f32⟩
  | 74 => ⟨S8, .f32⟩
  | 75 => ⟨S1x8, .f32⟩
  | 76 => ⟨S1048576x8, .f32⟩
  | 77 => ⟨S1048576x8, .f32⟩
  | 78 => ⟨S1048576x8, .f32⟩
  | 79 => ⟨S1048576x7, .f32⟩
  | 80 => ⟨S1048576x7, .f32⟩
  | 81 => ⟨S1048576x7, .f32⟩
  | 82 => ⟨S1048576x7, .f32⟩
  | 83 => ⟨S1048576x7, .f32⟩
  | 84 => ⟨S7x1, .f32⟩
  | 85 => ⟨S7, .f32⟩
  | 86 => ⟨S1x7, .f32⟩
  | 87 => ⟨S1048576x7, .f32⟩
  | 88 => ⟨S1048576x7, .f32⟩
  | 89 => ⟨S_, .f32⟩
  | 90 => ⟨S1048576x7, .f32⟩
  | 91 => ⟨S1048576x7, .f32⟩
  | 92 => ⟨S1048576x7, .f32⟩
  | 93 => ⟨S1048576x7, .f32⟩
  | 94 => ⟨S1048576x1, .f32⟩
  | 95 => ⟨S1048576x8, .f32⟩
  | 96 => ⟨S1x8x3, .f32⟩
  | 97 => ⟨S8x3, .f32⟩
  | 98 => ⟨S8x1, .f32⟩
  | 99 => ⟨S8, .f32⟩
  | 100 => ⟨S1x8, .f32⟩
  | 101 => ⟨S1048576x8, .f32⟩
  | 102 => ⟨S1048576x8, .f32⟩
  | 103 => ⟨S1048576x8, .f32⟩
  | 104 => ⟨S8x1, .f32⟩
  | 105 => ⟨S8, .f32⟩
  | 106 => ⟨S1x8, .f32⟩
  | 107 => ⟨S1048576x8, .f32⟩
  | 108 => ⟨S1048576x8, .f32⟩
  | 109 => ⟨S1048576x8, .f32⟩
  | 110 => ⟨S1048576x7, .f32⟩
  | 111 => ⟨S1048576x7, .f32⟩
  | 112 => ⟨S1048576x7, .f32⟩
  | 113 => ⟨S1048576x7, .f32⟩
  | 114 => ⟨S1048576x7, .f32⟩
  | 115 => ⟨S7x1, .f32⟩
  | 116 => ⟨S7, .f32⟩
  | 117 => ⟨S1x7, .f32⟩
  | 118 => ⟨S1048576x7, .f32⟩
  | 119 => ⟨S1048576x7, .f32⟩
  | 120 => ⟨S_, .f32⟩
  | 121 => ⟨S1048576x7, .f32⟩
  | 122 => ⟨S1048576x7, .f32⟩
  | 123 => ⟨S1048576x7, .f32⟩
  | 124 => ⟨S1048576x7, .f32⟩
  | 125 => ⟨S1048576x1, .f32⟩
  | 126 => ⟨S1048576x8, .f32⟩
  | 127 => ⟨S1048576x32, .f32⟩
  | _ => ⟨S1048576x8, .f32⟩

abbrev hbmTy0_1 (i : Nat) : BufTy := match i % 128 with
  | 0 => ⟨S1x32, .f32⟩
  | 1 => ⟨S1048576x32, .f32⟩
  | 2 => ⟨S1048576x32, .f32⟩
  | 3 => ⟨S_, .f32⟩
  | 4 => ⟨S1048576x32, .f32⟩
  | 5 => ⟨S1048576x32, .f32⟩
  | 6 => ⟨S1048576x2, .f32⟩
  | 7 => ⟨S1x2, .f32⟩
  | 8 => ⟨S1048576x2, .f32⟩
  | 9 => ⟨S1048576x2, .f32⟩
  | 10 => ⟨S_, .f32⟩
  | 11 => ⟨S1048576, .f32⟩
  | 12 => ⟨S_, .f32⟩
  | 13 => ⟨S1048576, .f32⟩
  | 14 => ⟨S1048576, .f32⟩
  | 15 => ⟨S1048576x1, .f32⟩
  | 16 => ⟨S1048576x2, .f32⟩
  | 17 => ⟨S1048576x2, .f32⟩
  | 18 => ⟨S1048576x2, .f32⟩
  | 19 => ⟨S_, .f32⟩
  | 20 => ⟨S1048576, .f32⟩
  | 21 => ⟨S1048576x1, .f32⟩
  | 22 => ⟨S1048576x2, .f32⟩
  | 23 => ⟨S1048576x2, .f32⟩
  | _ => ⟨S1048576x8, .f32⟩

abbrev hbmTy (i : Nat) : BufTy := match i / 128 with
  | 0 => hbmTy0_0 i
  | 1 => hbmTy0_1 i
  | _ => ⟨S1048576x8, .f32⟩

abbrev bufTy : (tb : Table) → Fin (tcTables nBuf tb) → BufTy
  | .hbm, ⟨i, _⟩ => hbmTy i
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_1 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_2 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_call2_cst : Ref sig .tc := ⟨.hbm, 131, rfl⟩
abbrev main_call2_v0 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_3 : Ref sig .tc := ⟨.hbm, 138, rfl⟩
abbrev main_v116 : Ref sig .tc := ⟨.hbm, 139, rfl⟩
abbrev main_cst_4 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_5 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  slices_S3x8x3_S1x8x3_0_0_0 : S3x8x3.Slices ![0, 0, 0] S1x8x3
  shapeCasts_S1x8x3_S8x3 : S1x8x3.ShapeCasts S8x3
  slices_S8x3_S8x1_0_0 : S8x3.Slices ![0, 0] S8x1
  shapeCasts_S8x1_S8 : S8x1.ShapeCasts S8
  slices_S8x3_S8x1_0_1 : S8x3.Slices ![0, 1] S8x1
  slices_S1048576x8_S1048576x7_0_0 : S1048576x8.Slices ![0, 0] S1048576x7
  slices_S1048576x8_S1048576x7_0_1 : S1048576x8.Slices ![0, 1] S1048576x7
  slices_S8x3_S7x1_0_2 : S8x3.Slices ![0, 2] S7x1
  shapeCasts_S7x1_S7 : S7x1.ShapeCasts S7
  bcast_S7_S1x7_1 : S7.BroadcastsInDim S1x7 (![1] : Fin 1 → Fin S1x7.rank)
  bcast_S1x7_S1048576x7_0_1 : S1x7.BroadcastsInDim S1048576x7 (![0, 1] : Fin 2 → Fin S1048576x7.rank)
  bcast_S_S1048576x7 : S_.BroadcastsInDim S1048576x7 (![] : Fin 0 → Fin S1048576x7.rank)
  slices_S1048576x8_S1048576x1_0_7 : S1048576x8.Slices ![0, 7] S1048576x1
  concatenates_S1048576x7_S1048576x1_S1048576x8_d1 : Shape.Concatenates [S1048576x7, S1048576x1] S1048576x8 1
  slices_S3x8x3_S1x8x3_1_0_0 : S3x8x3.Slices ![1, 0, 0] S1x8x3
  slices_S3x8x3_S1x8x3_2_0_0 : S3x8x3.Slices ![2, 0, 0] S1x8x3
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  reducesTo_S1048576x2_S1048576_d1 : S1048576x2.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x2_0_1 : S1048576x1.BroadcastsInDim S1048576x2 (![0, 1] : Fin 2 → Fin S1048576x2.rank)
  dot_S1048576x8_S8x128_S1048576x128_1_0_0_1_n_n_wf : DotDims.WF S1048576x8 S8x128 S1048576x128 [1] [0] [0] [1] [] []
  dot_S1048576x128_S128x64_S1048576x64_1_0_0_1_n_n_wf : DotDims.WF S1048576x128 S128x64 S1048576x64 [1] [0] [0] [1] [] []
  dot_S1048576x64_S64x8_S1048576x8_1_0_0_1_n_n_wf : DotDims.WF S1048576x64 S64x8 S1048576x8 [1] [0] [0] [1] [] []
  dot_S1048576x8_S8x32_S1048576x32_1_0_0_1_n_n_wf : DotDims.WF S1048576x8 S8x32 S1048576x32 [1] [0] [0] [1] [] []
  dot_S1048576x32_S32x2_S1048576x2_1_0_0_1_n_n_wf : DotDims.WF S1048576x32 S32x2 S1048576x2 [1] [0] [0] [1] [] []

variable [Facts₀]

def dot_S1048576x8_S8x128_S1048576x128_1_0_0_1_n_n : DotDims S1048576x8 S8x128 S1048576x128 where
  lhsContracting := [1]
  rhsContracting := [0]
  lhsNonContracting := [0]
  rhsNonContracting := [1]
  lhsBatch := []
  rhsBatch := []
  wf := dot_S1048576x8_S8x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x8_S1048576x8_1_0_0_1_n_n : DotDims S1048576x64 S64x8 S1048576x8 where
  lhsContracting := [1]
  rhsContracting := [0]
  lhsNonContracting := [0]
  rhsNonContracting := [1]
  lhsBatch := []
  rhsBatch := []
  wf := dot_S1048576x64_S64x8_S1048576x8_1_0_0_1_n_n_wf
def dot_S1048576x8_S8x32_S1048576x32_1_0_0_1_n_n : DotDims S1048576x8 S8x32 S1048576x32 where
  lhsContracting := [1]
  rhsContracting := [0]
  lhsNonContracting := [0]
  rhsNonContracting := [1]
  lhsBatch := []
  rhsBatch := []
  wf := dot_S1048576x8_S8x32_S1048576x32_1_0_0_1_n_n_wf
def dot_S1048576x32_S32x2_S1048576x2_1_0_0_1_n_n : DotDims S1048576x32 S32x2 S1048576x2 where
  lhsContracting := [1]
  rhsContracting := [0]
  lhsNonContracting := [0]
  rhsNonContracting := [1]
  lhsBatch := []
  rhsBatch := []
  wf := dot_S1048576x32_S32x2_S1048576x2_1_0_0_1_n_n_wf

class Facts : Prop extends Facts₀ where

variable [Facts]
-- ==== Proof.RefRun.lean ====
/-
  The reference program's run, read back stretch by stretch.

  @main is a straight line of 140 host operations.  Its result's composed term of the arguments, written out, repeats each
  circuit layer's rotated state four times, three layers deep; so the line is cut here into five stretches — the classical
  front (up to the state before the first circuit layer), the three circuit layers, the output head — and each stretch
  is read from ARBITRARY contents `W`: what it leaves in its last buffer is the corresponding one-operation stages of
  Proof/RefRead.lean composed, provided its input buffer held the stage before it; and it writes none of the arguments
  the later stretches read.  (A circuit layer ends in a concatenation, whose operands sit inside a dependent pair where `simp`
  does not rewrite: those three stretches are read by the rewriting form of the result tactic.)  Chained over the launch contents this gives: every weakly fair execution of @main
  terminates with the result buffer at the last stage, `Read.val_main_v126`, of the launch contents of the arguments, the
  arguments unchanged.
-/
import proofs.«113502_j9234179686801_1_alg».proof.Proof.Gen.ReferenceIdeal
import proofs.«113502_j9234179686801_1_alg».proof.Proof.RefRead
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 140 operations, in order (a called function's operations stand in its call's place, spelt `TRef.…`). -/
abbrev ops : List (HloOp τ sig (Elt F)) :=
  [ binary main_arg0 main_arg1 main_v0 ((fun l r => Host.dotGeneral dot_S1048576x8_S8x128_S1048576x128_1_0_0_1_n_n none l r) : (⟨S1048576x8, .f32⟩ : BufTy).Contents (Elt F) → (⟨S8x128, .f32⟩ : BufTy).Contents (Elt F) → (⟨S1048576x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S1048576x128 ![0, 1] bcast_S1x128_S1048576x128_0_1 : (⟨S1x128, .f32⟩ : BufTy).Contents (Elt F) → (⟨S1048576x128, .f32⟩ : BufTy).Contents (Elt F)),
    binary main_v0 main_v2 main_v3 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1048576x128, .f32⟩) main_call0_v0) (broadcastInDim S1048576x128 ![] bcast_S_S1048576x128),
    TRef.binary (TRef.of (T := ⟨S1048576x128, .f32⟩) main_v3) (TRef.of (T := ⟨S1048576x128, .f32⟩) main_call0_v0) (TRef.of (T := ⟨S1048576x128, .f32⟩) main_v4) maximumf,
    binary main_v4 main_arg3 main_v5 ((fun l r => Host.dotGeneral dot_S1048576x128_S128x64_S1048576x64_1_0_0_1_n_n none l r) : (⟨S1048576x128, .f32⟩ : BufTy).Contents (Elt F) → (⟨S128x64, .f32⟩ : BufTy).Contents (Elt F) → (⟨S1048576x64, .f32⟩ : BufTy).Contents (Elt F)),
    unary main_arg4 main_v6 (broadcastInDim S1x64 ![1] bcast_S64_S1x64_1 : (⟨S64, .f32⟩ : BufTy).Contents (Elt F) → (⟨S1x64, .f32⟩ : BufTy).Contents (Elt F)),
    unary main_v6 main_v7 (broadcastInDim S1048576x64 ![0, 1] bcast_S1x64_S1048576x64_0_1 : (⟨S1x64, .f32⟩ : BufTy).Contents (Elt F) → (⟨S1048576x64, .f32⟩ : BufTy).Contents (Elt F)),
    binary main_v5 main_v7 main_v8 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1048576x64, .f32⟩) main_call1_v0) (broadcastInDim S1048576x64 ![] bcast_S_S1048576x64),
    TRef.binary (TRef.of (T := ⟨S1048576x64, .f32⟩) main_v8) (TRef.of (T := ⟨S1048576x64, .f32⟩) main_call1_v0) (TRef.of (T := ⟨S1048576x64, .f32⟩) main_v9) maximumf,
    binary main_v9 main_arg5 main_v10 ((fun l r => Host.dotGeneral dot_S1048576x64_S64x8_S1048576x8_1_0_0_1_n_n none l r) : (⟨S1048576x64, .f32⟩ : BufTy).Contents (Elt F) → (⟨S64x8, .f32⟩ : BufTy).Contents (Elt F) → (⟨S1048576x8, .f32⟩ : BufTy).Contents (Elt F)),
    unary main_arg6 main_v11 (broadcastInDim S1x8 ![1] bcast_S8_S1x8_1 : (⟨S8, .f32⟩ : BufTy).Contents (Elt F) → (⟨S1x8, .f32⟩ : BufTy).Contents (Elt F)),
    unary main_v11 main_v12 (broadcastInDim S1048576x8 ![0, 1] bcast_S1x8_S1048576x8_0_1 : (⟨S1x8, .f32⟩ : BufTy).Contents (Elt F) → (⟨S1048576x8, .f32⟩ : BufTy).Contents (Elt F)),
    binary main_v10 main_v12 main_v13 (addf : (⟨S1048576x8, .f32⟩ : BufTy).Contents (Elt F) → (⟨S1048576x8, .f32⟩ : BufTy).Contents (Elt F) → (⟨S1048576x8, .f32⟩ : BufTy).Contents (Elt F)),
    unary main_v13 main_v14 (Host.tanh : (⟨S1048576x8, .f32⟩ : BufTy).Contents (Elt F) → (⟨S1048576x8, .f32⟩ : BufTy).Contents (Elt F)),
    nullary main_cst (constant S_ .f32 0x40490FDB#32),
    unary main_cst main_v15 (broadcastInDim S1048576x8 ![] bcast_S_S1048576x8 : (⟨S_, .f32⟩ : BufTy).Contents (Elt F) → (⟨S1048576x8, .f32⟩ : BufTy).Contents (Elt F)),
    binary main_v14 main_v15 main_v16 (mulf : (⟨S1048576x8, .f32⟩ : BufTy).Contents (Elt F) → (⟨S1048576x8, .f32⟩ : BufTy).Contents (Elt F) → (⟨S1048576x8, .f32⟩ : BufTy).Contents (Elt F)),
    unary main_arg7 main_v17 ((extractStridedSlice S1x8x3 ![0, 0, 0] · slices_S3x8x3_S1x8x3_0_0_0) : (⟨S3x8x3, .f32⟩ : BufTy).Contents (Elt F) → (⟨S1x8x3, .f32⟩ : BufTy).Contents (Elt F)),
    reshape main_v17 main_v18 rfl shapeCasts_S1x8x3_S8x3,
    unary main_v18 main_v19 ((extractStridedSlice S8x1 ![0, 0] · slices_S8x3_S8x1_0_0) : (⟨S8x3, .f32⟩ : BufTy).Contents (Elt F) → (⟨S8x1, .f32⟩ : BufTy).Contents (Elt F)),
    reshape main_v19 main_v20 rfl shapeCasts_S8x1_S8,
    unary main_v20 main_v21 (broadcastInDim S1x8 ![1] bcast_S8_S1x8_1 : (⟨S8, .f32⟩ : BufTy).Contents (Elt F) → (⟨S1x8, .f32⟩ : BufTy).Contents (Elt F)),
    unary main_v21 main_v22 (broadcastInDim S1048576x8 ![0, 1] bcast_S1x8_S1048576x8_0_1 : (⟨S1x8, .f32⟩ : BufTy).Contents (Elt F) → (⟨S1048576x8, .f32⟩ : BufTy).Contents (Elt F)),
    binary main_v16 main_v22 main_v23 (addf : (⟨S1048576x8, .f32⟩ : BufTy).Contents (Elt F) → (⟨S1048576x8, .f32⟩ : BufTy).Contents (Elt F) → (⟨S1048576x8, .f32⟩ : BufTy).Contents (Elt F)),
    unary main_v23 main_v24 (Host.sin : (⟨S1048576x8, .f32⟩ : BufTy).Contents (Elt F) → (⟨S1048576x8, .f32⟩ : BufTy).Contents (Elt F)),
    unary main_v18 main_v25 ((extractStridedSlice S8x1 ![0, 1] · slices_S8x3_S8x1_0_1) : (⟨S8x3, .f32⟩ : BufTy).Contents (Elt F) → (⟨S8x1, .f32⟩ : BufTy).Contents (Elt F)),
    reshape main_v25 main_v26 rfl shapeCasts_S8x1_S8,
    unary main_v26 main_v27 (broadcastInDim S1x8 ![1] bcast_S8_S1x8_1 : (⟨S8, .f32⟩ : BufTy).Contents (Elt F) → (⟨S1x8, .f32⟩ : BufTy).Contents (Elt F)),
    unary main_v27 main_v28 (broadcastInDim S1048576x8 ![0, 1] bcast_S1x8_S1048576x8_0_1 : (⟨S1x8, .f32⟩ : BufTy).Contents (Elt F) → (⟨S1048576x8, .f32⟩ : BufTy).Contents (Elt F)),
    binary main_v24 main_v28 main_v29 (addf : (⟨S1048576x8, .f32⟩ : BufTy).Contents (Elt F) → (⟨S1048576x8, .f32⟩ : BufTy).Contents (Elt F) → (⟨S1048576x8, .f32⟩ : BufTy).Contents (Elt F)),
    unary main_v29 main_v30 (Host.cos : (⟨S1048576x8, .f32⟩ : BufTy).Contents (Elt F) → (⟨S1048576x8, .f32⟩ : BufTy).Contents (Elt F)),
    unary main_v30 main_v31 ((extractStridedSlice S1048576x7 ![0, 0] · slices_S1048576x8_S1048576x7_0_0) : (⟨S1048576x8, .f32⟩ : BufTy).Contents (Elt F) → (⟨S1048576x7, .f32⟩ : BufTy).Contents (Elt F)),
    unary main_v31 main_v32 (Host.sin : (⟨S1048576x7, .f32⟩ : BufTy).Contents (Elt F) → (⟨S1048576x7, .f32⟩ : BufTy).Contents (Elt F)),
    unary main_v30 main_v33 ((extractStridedSlice S1048576x7 ![0, 1] · slices_S1048576x8_S1048576x7_0_1) : (⟨S1048576x8, .f32⟩ : BufTy).Contents (Elt F) → (⟨S1048576x7, .f32⟩ : BufTy).Contents (Elt F)),
    unary main_v33 main_v34 (Host.cos : (⟨S1048576x7, .f32⟩ : BufTy).Contents (Elt F) → (⟨S1048576x7, .f32⟩ : BufTy).Contents (Elt F)),
    binary main_v32 main_v34 main_v35 (mulf : (⟨S1048576x7, .f32⟩ : BufTy).Contents (Elt F) → (⟨S1048576x7, .f32⟩ : BufTy).Contents (Elt F) → (⟨S1048576x7, .f32⟩ : BufTy).Contents (Elt F)),
    unary main_v18 main_v36 ((extractStridedSlice S7x1 ![0, 2] · slices_S8x3_S7x1_0_2) : (⟨S8x3, .f32⟩ : BufTy).Contents (Elt F) → (⟨S7x1, .f32⟩ : BufTy).Contents (Elt F)),
    reshape main_v36 main_v37 rfl shapeCasts_S7x1_S7,
    unary main_v37 main_v38 (broadcastInDim S1x7 ![1] bcast_S7_S1x7_1 : (⟨S7, .f32⟩ : BufTy).Contents (Elt F) → (⟨S1x7, .f32⟩ : BufTy).Contents (Elt F)),
    unary main_v38 main_v39 (broadcastInDim S1048576x7 ![0, 1] bcast_S1x7_S1048576x7_0_1 : (⟨S1x7, .f32⟩ : BufTy).Contents (Elt F) → (⟨S1048576x7, .f32⟩ : BufTy).Contents (Elt F)),
    binary main_v35 main_v39 main_v40 (mulf : (⟨S1048576x7, .f32⟩ : BufTy).Contents (Elt F) → (⟨S1048576x7, .f32⟩ : BufTy).Contents (Elt F) → (⟨S1048576x7, .f32⟩ : BufTy).Contents (Elt F)),
    nullary main_cst_0 (constant S_ .f32 0x3DCCCCCD#32),
    unary main_cst_0 main_v41 (broadcastInDim S1048576x7 ![] bcast_S_S1048576x7 : (⟨S_, .f32⟩ : BufTy).Contents (Elt F) → (⟨S1048576x7, .f32⟩ : BufTy).Contents (Elt F)),
    binary main_v40 main_v41 main_v42 (mulf : (⟨S1048576x7, .f32⟩ : BufTy).Contents (Elt F) → (⟨S1048576x7, .f32⟩ : BufTy).Contents (Elt F) → (⟨S1048576x7, .f32⟩ : BufTy).Contents (Elt F)),
    unary main_v30 main_v43 ((extractStridedSlice S1048576x7 ![0, 0] · slices_S1048576x8_S1048576x7_0_0) : (⟨S1048576x8, .f32⟩ : BufTy).Contents (Elt F) → (⟨S1048576x7, .f32⟩ : BufTy).Contents (Elt F)),
    binary main_v43 main_v42 main_v44 (addf : (⟨S1048576x7, .f32⟩ : BufTy).Contents (Elt F) → (⟨S1048576x7, .f32⟩ : BufTy).Contents (Elt F) → (⟨S1048576x7, .f32⟩ : BufTy).Contents (Elt F)),
    unary main_v30 main_v45 ((extractStridedSlice S1048576x1 ![0, 7] · slices_S1048576x8_S1048576x1_0_7) : (⟨S1048576x8, .f32⟩ : BufTy).Contents (Elt F) → (⟨S1048576x1, .f32⟩ : BufTy).Contents (Elt F)),
    binary main_v44 main_v45 main_v46 ((fun a b => concatenate S1048576x8 1 [⟨S1048576x7, a⟩, ⟨S1048576x1, b⟩] concatenates_S1048576x7_S1048576x1_S1048576x8_d1) : (⟨S1048576x7, .f32⟩ : BufTy).Contents (Elt F) → (⟨S1048576x1, .f32⟩ : BufTy).Contents (Elt F) → (⟨S1048576x8, .f32⟩ : BufTy).Contents (Elt F)),
    unary main_arg7 main_v47 ((extractStridedSlice S1x8x3 ![1, 0, 0] · slices_S3x8x3_S1x8x3_1_0_0) : (⟨S3x8x3, .f32⟩ : BufTy).Contents (Elt F) → (⟨S1x8x3, .f32⟩ : BufTy).Contents (Elt F)),
    reshape main_v47 main_v48 rfl shapeCasts_S1x8x3_S8x3,
    unary main_v48 main_v49 ((extractStridedSlice S8x1 ![0, 0] · slices_S8x3_S8x1_0_0) : (⟨S8x3, .f32⟩ : BufTy).Contents (Elt F) → (⟨S8x1, .f32⟩ : BufTy).Contents (Elt F)),
    reshape main_v49 main_v50 rfl shapeCasts_S8x1_S8,
    unary main_v50 main_v51 (broadcastInDim S1x8 ![1] bcast_S8_S1x8_1 : (⟨S8, .f32⟩ : BufTy).Contents (Elt F) → (⟨S1x8, .f32⟩ : BufTy).Contents (Elt F)),
    unary main_v51 main_v52 (broadcastInDim S1048576x8 ![0, 1] bcast_S1x8_S1048576x8_0_1 : (⟨S1x8, .f32⟩ : BufTy).Contents (Elt F) → (⟨S1048576x8, .f32⟩ : BufTy).Contents (Elt F)),
    binary main_v46 main_v52 main_v53 (addf : (⟨S1048576x8, .f32⟩ : BufTy).Contents (Elt F) → (⟨S1048576x8, .f32⟩ : BufTy).Contents (Elt F) → (⟨S1048576x8, .f32⟩ : BufTy).Contents (Elt F)),
    unary main_v53 main_v54 (Host.sin : (⟨S1048576x8, .f32⟩ : BufTy).Contents (Elt F) → (⟨S1048576x8, .f32⟩ : BufTy).Contents (Elt F)),
    unary main_v48 main_v55 ((extractStridedSlice S8x1 ![0, 1] · slices_S8x3_S8x1_0_1) : (⟨S8x3, .f32⟩ : BufTy).Contents (Elt F) → (⟨S8x1, .f32⟩ : BufTy).Contents (Elt F)),
    reshape main_v55 main_v56 rfl shapeCasts_S8x1_S8,
    unary main_v56 main_v57 (broadcastInDim S1x8 ![1] bcast_S8_S1x8_1 : (⟨S8, .f32⟩ : BufTy).Contents (Elt F) → (⟨S1x8, .f32⟩ : BufTy).Contents (Elt F)),
    unary main_v57 main_v58 (broadcastInDim S1048576x8 ![0, 1] bcast_S1x8_S1048576x8_0_1 : (⟨S1x8, .f32⟩ : BufTy).Contents (Elt F) → (⟨S1048576x8, .f32⟩ : BufTy).Contents (Elt F)),
    binary main_v54 main_v58 main_v59 (addf : (⟨S1048576x8, .f32⟩ : BufTy).Contents (Elt F) → (⟨S1048576x8, .f32⟩ : BufTy).Contents (Elt F) → (⟨S1048576x8, .f32⟩ : BufTy).Contents (Elt F)),
    unary main_v59 main_v60 (Host.cos : (⟨S1048576x8, .f32⟩ : BufTy).Contents (Elt F) → (⟨S1048576x8, .f32⟩ : BufTy).Contents (Elt F)),
    unary main_v60 main_v61 ((extractStridedSlice S1048576x7 ![0, 0] · slices_S1048576x8_S1048576x7_0_0) : (⟨S1048576x8, .f32⟩ : BufTy).Contents (Elt F) → (⟨S1048576x7, .f32⟩ : BufTy).Contents (Elt F)),
    unary main_v61 main_v62 (Host.sin : (⟨S1048576x7, .f32⟩ : BufTy).Contents (Elt F) → (⟨S1048576x7, .f32⟩ : BufTy).Contents (Elt F)),
    unary main_v60 main_v63 ((extractStridedSlice S1048576x7 ![0, 1] · slices_S1048576x8_S1048576x7_0_1) : (⟨S1048576x8, .f32⟩ : BufTy).Contents (Elt F) → (⟨S1048576x7, .f32⟩ : BufTy).Contents (Elt F)),
    unary main_v63 main_v64 (Host.cos : (⟨S1048576x7, .f32⟩ : BufTy).Contents (Elt F) → (⟨S1048576x7, .f32⟩ : BufTy).Contents (Elt F)),
    binary main_v62 main_v64 main_v65 (mulf : (⟨S1048576x7, .f32⟩ : BufTy).Contents (Elt F) → (⟨S1048576x7, .f32⟩ : BufTy).Contents (Elt F) → (⟨S1048576x7, .f32⟩ : BufTy).Contents (Elt F)),
    unary main_v48 main_v66 ((extractStridedSlice S7x1 ![0, 2] · slices_S8x3_S7x1_0_2) : (⟨S8x3, .f32⟩ : BufTy).Contents (Elt F) → (⟨S7x1, .f32⟩ : BufTy).Contents (Elt F)),
    reshape main_v66 main_v67 rfl shapeCasts_S7x1_S7,
    unary main_v67 main_v68 (broadcastInDim S1x7 ![1] bcast_S7_S1x7_1 : (⟨S7, .f32⟩ : BufTy).Contents (Elt F) → (⟨S1x7, .f32⟩ : BufTy).Contents (Elt F)),
    unary main_v68 main_v69 (broadcastInDim S1048576x7 ![0, 1] bcast_S1x7_S1048576x7_0_1 : (⟨S1x7, .f32⟩ : BufTy).Contents (Elt F) → (⟨S1048576x7, .f32⟩ : BufTy).Contents (Elt F)),
    binary main_v65 main_v69 main_v70 (mulf : (⟨S1048576x7, .f32⟩ : BufTy).Contents (Elt F) → (⟨S1048576x7, .f32⟩ : BufTy).Contents (Elt F) → (⟨S1048576x7, .f32⟩ : BufTy).Contents (Elt F)),
    nullary main_cst_1 (constant S_ .f32 0x3DCCCCCD#32),
    unary main_cst_1 main_v71 (broadcastInDim S1048576x7 ![] bcast_S_S1048576x7 : (⟨S_, .f32⟩ : BufTy).Contents (Elt F) → (⟨S1048576x7, .f32⟩ : BufTy).Contents (Elt F)),
    binary main_v70 main_v71 main_v72 (mulf : (⟨S1048576x7, .f32⟩ : BufTy).Contents (Elt F) → (⟨S1048576x7, .f32⟩ : BufTy).Contents (Elt F) → (⟨S1048576x7, .f32⟩ : BufTy).Contents (Elt F)),
    unary main_v60 main_v73 ((extractStridedSlice S1048576x7 ![0, 0] · slices_S1048576x8_S1048576x7_0_0) : (⟨S1048576x8, .f32⟩ : BufTy).Contents (Elt F) → (⟨S1048576x7, .f32⟩ : BufTy).Contents (Elt F)),
    binary main_v73 main_v72 main_v74 (addf : (⟨S1048576x7, .f32⟩ : BufTy).Contents (Elt F) → (⟨S1048576x7, .f32⟩ : BufTy).Contents (Elt F) → (⟨S1048576x7, .f32⟩ : BufTy).Contents (Elt F)),
    unary main_v60 main_v75 ((extractStridedSlice S1048576x1 ![0, 7] · slices_S1048576x8_S1048576x1_0_7) : (⟨S1048576x8, .f32⟩ : BufTy).Contents (Elt F) → (⟨S1048576x1, .f32⟩ : BufTy).Contents (Elt F)),
    binary main_v74 main_v75 main_v76 ((fun a b => concatenate S1048576x8 1 [⟨S1048576x7, a⟩, ⟨S1048576x1, b⟩] concatenates_S1048576x7_S1048576x1_S1048576x8_d1) : (⟨S1048576x7, .f32⟩ : BufTy).Contents (Elt F) → (⟨S1048576x1, .f32⟩ : BufTy).Contents (Elt F) → (⟨S1048576x8, .f32⟩ : BufTy).Contents (Elt F)),
    unary main_arg7 main_v77 ((extractStridedSlice S1x8x3 ![2, 0, 0] · slices_S3x8x3_S1x8x3_2_0_0) : (⟨S3x8x3, .f32⟩ : BufTy).Contents (Elt F) → (⟨S1x8x3, .f32⟩ : BufTy).Contents (Elt F)),
    reshape main_v77 main_v78 rfl shapeCasts_S1x8x3_S8x3,
    unary main_v78 main_v79 ((extractStridedSlice S8x1 ![0, 0] · slices_S8x3_S8x1_0_0) : (⟨S8x3, .f32⟩ : BufTy).Contents (Elt F) → (⟨S8x1, .f32⟩ : BufTy).Contents (Elt F)),
    reshape main_v79 main_v80 rfl shapeCasts_S8x1_S8,
    unary main_v80 main_v81 (broadcastInDim S1x8 ![1] bcast_S8_S1x8_1 : (⟨S8, .f32⟩ : BufTy).Contents (Elt F) → (⟨S1x8, .f32⟩ : BufTy).Contents (Elt F)),
    unary main_v81 main_v82 (broadcastInDim S1048576x8 ![0, 1] bcast_S1x8_S1048576x8_0_1 : (⟨S1x8, .f32⟩ : BufTy).Contents (Elt F) → (⟨S1048576x8, .f32⟩ : BufTy).Contents (Elt F)),
    binary main_v76 main_v82 main_v83 (addf : (⟨S1048576x8, .f32⟩ : BufTy).Contents (Elt F) → (⟨S1048576x8, .f32⟩ : BufTy).Contents (Elt F) → (⟨S1048576x8, .f32⟩ : BufTy).Contents (Elt F)),
    unary main_v83 main_v84 (Host.sin : (⟨S1048576x8, .f32⟩ : BufTy).Contents (Elt F) → (⟨S1048576x8, .f32⟩ : BufTy).Contents (Elt F)),
    unary main_v78 main_v85 ((extractStridedSlice S8x1 ![0, 1] · slices_S8x3_S8x1_0_1) : (⟨S8x3, .f32⟩ : BufTy).Contents (Elt F) → (⟨S8x1, .f32⟩ : BufTy).Contents (Elt F)),
    reshape main_v85 main_v86 rfl shapeCasts_S8x1_S8,
    unary main_v86 main_v87 (broadcastInDim S1x8 ![1] bcast_S8_S1x8_1 : (⟨S8, .f32⟩ : BufTy).Contents (Elt F) → (⟨S1x8, .f32⟩ : BufTy).Contents (Elt F)),
    unary main_v87 main_v88 (broadcastInDim S1048576x8 ![0, 1] bcast_S1x8_S1048576x8_0_1 : (⟨S1x8, .f32⟩ : BufTy).Contents (Elt F) → (⟨S1048576x8, .f32⟩ : BufTy).Contents (Elt F)),
    binary main_v84 main_v88 main_v89 (addf : (⟨S1048576x8, .f32⟩ : BufTy).Contents (Elt F) → (⟨S1048576x8, .f32⟩ : BufTy).Contents (Elt F) → (⟨S1048576x8, .f32⟩ : BufTy).Contents (Elt F)),
    unary main_v89 main_v90 (Host.cos : (⟨S1048576x8, .f32⟩ : BufTy).Contents (Elt F) → (⟨S1048576x8, .f32⟩ : BufTy).Contents (Elt F)),
    unary main_v90 main_v91 ((extractStridedSlice S1048576x7 ![0, 0] · slices_S1048576x8_S1048576x7_0_0) : (⟨S1048576x8, .f32⟩ : BufTy).Contents (Elt F) → (⟨S1048576x7, .f32⟩ : BufTy).Contents (Elt F)),
    unary main_v91 main_v92 (Host.sin : (⟨S1048576x7, .f32⟩ : BufTy).Contents (Elt F) → (⟨S1048576x7, .f32⟩ : BufTy).Contents (Elt F)),
    unary main_v90 main_v93 ((extractStridedSlice S1048576x7 ![0, 1] · slices_S1048576x8_S1048576x7_0_1) : (⟨S1048576x8, .f32⟩ : BufTy).Contents (Elt F) → (⟨S1048576x7, .f32⟩ : BufTy).Contents (Elt F)),
    unary main_v93 main_v94 (Host.cos : (⟨S1048576x7, .f32⟩ : BufTy).Contents (Elt F) → (⟨S1048576x7, .f32⟩ : BufTy).Contents (Elt F)),
    binary main_v92 main_v94 main_v95 (mulf : (⟨S1048576x7, .f32⟩ : BufTy).Contents (Elt F) → (⟨S1048576x7, .f32⟩ : BufTy).Contents (Elt F) → (⟨S1048576x7, .f32⟩ : BufTy).Contents (Elt F)),
    unary main_v78 main_v96 ((extractStridedSlice S7x1 ![0, 2] · slices_S8x3_S7x1_0_2) : (⟨S8x3, .f32⟩ : BufTy).Contents (Elt F) → (⟨S7x1, .f32⟩ : BufTy).Contents (Elt F)),
    reshape main_v96 main_v97 rfl shapeCasts_S7x1_S7,
    unary main_v97 main_v98 (broadcastInDim S1x7 ![1] bcast_S7_S1x7_1 : (⟨S7, .f32⟩ : BufTy).Contents (Elt F) → (⟨S1x7, .f32⟩ : BufTy).Contents (Elt F)),
    unary main_v98 main_v99 (broadcastInDim S1048576x7 ![0, 1] bcast_S1x7_S1048576x7_0_1 : (⟨S1x7, .f32⟩ : BufTy).Contents (Elt F) → (⟨S1048576x7, .f32⟩ : BufTy).Contents (Elt F)),
    binary main_v95 main_v99 main_v100 (mulf : (⟨S1048576x7, .f32⟩ : BufTy).Contents (Elt F) → (⟨S1048576x7, .f32⟩ : BufTy).Contents (Elt F) → (⟨S1048576x7, .f32⟩ : BufTy).Contents (Elt F)),
    nullary main_cst_2 (constant S_ .f32 0x3DCCCCCD#32),
    unary main_cst_2 main_v101 (broadcastInDim S1048576x7 ![] bcast_S_S1048576x7 : (⟨S_, .f32⟩ : BufTy).Contents (Elt F) → (⟨S1048576x7, .f32⟩ : BufTy).Contents (Elt F)),
    binary main_v100 main_v101 main_v102 (mulf : (⟨S1048576x7, .f32⟩ : BufTy).Contents (Elt F) → (⟨S1048576x7, .f32⟩ : BufTy).Contents (Elt F) → (⟨S1048576x7, .f32⟩ : BufTy).Contents (Elt F)),
    unary main_v90 main_v103 ((extractStridedSlice S1048576x7 ![0, 0] · slices_S1048576x8_S1048576x7_0_0) : (⟨S1048576x8, .f32⟩ : BufTy).Contents (Elt F) → (⟨S1048576x7, .f32⟩ : BufTy).Contents (Elt F)),
    binary main_v103 main_v102 main_v104 (addf : (⟨S1048576x7, .f32⟩ : BufTy).Contents (Elt F) → (⟨S1048576x7, .f32⟩ : BufTy).Contents (Elt F) → (⟨S1048576x7, .f32⟩ : BufTy).Contents (Elt F)),
    unary main_v90 main_v105 ((extractStridedSlice S1048576x1 ![0, 7] · slices_S1048576x8_S1048576x1_0_7) : (⟨S1048576x8, .f32⟩ : BufTy).Contents (Elt F) → (⟨S1048576x1, .f32⟩ : BufTy).Contents (Elt F)),
    binary main_v104 main_v105 main_v106 ((fun a b => concatenate S1048576x8 1 [⟨S1048576x7, a⟩, ⟨S1048576x1, b⟩] concatenates_S1048576x7_S1048576x1_S1048576x8_d1) : (⟨S1048576x7, .f32⟩ : BufTy).Contents (Elt F) → (⟨S1048576x1, .f32⟩ : BufTy).Contents (Elt F) → (⟨S1048576x8, .f32⟩ : BufTy).Contents (Elt F)),
    binary main_v106 main_arg8 main_v107 ((fun l r => Host.dotGeneral dot_S1048576x8_S8x32_S1048576x32_1_0_0_1_n_n none l r) : (⟨S1048576x8, .f32⟩ : BufTy).Contents (Elt F) → (⟨S8x32, .f32⟩ : BufTy).Contents (Elt F) → (⟨S1048576x32, .f32⟩ : BufTy).Contents (Elt F)),
    unary main_arg9 main_v108 (broadcastInDim S1x32 ![1] bcast_S32_S1x32_1 : (⟨S32, .f32⟩ : BufTy).Contents (Elt F) → (⟨S1x32, .f32⟩ : BufTy).Contents (Elt F)),
    unary main_v108 main_v109 (broadcastInDim S1048576x32 ![0, 1] bcast_S1x32_S1048576x32_0_1 : (⟨S1x32, .f32⟩ : BufTy).Contents (Elt F) → (⟨S1048576x32, .f32⟩ : BufTy).Contents (Elt F)),
    binary main_v107 main_v109 main_v110 (addf : (⟨S1048576x32, .f32⟩ : BufTy).Contents (Elt F) → (⟨S1048576x32, .f32⟩ : BufTy).Contents (Elt F) → (⟨S1048576x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1048576x32, .f32⟩) main_call2_v0) (broadcastInDim S1048576x32 ![] bcast_S_S1048576x32),
    TRef.binary (TRef.of (T := ⟨S1048576x32, .f32⟩) main_v110) (TRef.of (T := ⟨S1048576x32, .f32⟩) main_call2_v0) (TRef.of (T := ⟨S1048576x32, .f32⟩) main_v111) maximumf,
    binary main_v111 main_arg10 main_v112 ((fun l r => Host.dotGeneral dot_S1048576x32_S32x2_S1048576x2_1_0_0_1_n_n none l r) : (⟨S1048576x32, .f32⟩ : BufTy).Contents (Elt F) → (⟨S32x2, .f32⟩ : BufTy).Contents (Elt F) → (⟨S1048576x2, .f32⟩ : BufTy).Contents (Elt F)),
    unary main_arg11 main_v113 (broadcastInDim S1x2 ![1] bcast_S2_S1x2_1 : (⟨S2, .f32⟩ : BufTy).Contents (Elt F) → (⟨S1x2, .f32⟩ : BufTy).Contents (Elt F)),
    unary main_v113 main_v114 (broadcastInDim S1048576x2 ![0, 1] bcast_S1x2_S1048576x2_0_1 : (⟨S1x2, .f32⟩ : BufTy).Contents (Elt F) → (⟨S1048576x2, .f32⟩ : BufTy).Contents (Elt F)),
    binary main_v112 main_v114 main_v115 (addf : (⟨S1048576x2, .f32⟩ : BufTy).Contents (Elt F) → (⟨S1048576x2, .f32⟩ : BufTy).Contents (Elt F) → (⟨S1048576x2, .f32⟩ : BufTy).Contents (Elt F)),
    nullary main_cst_3 (constant S_ .f32 0xFF800000#32),
    binary main_v115 main_cst_3 main_v116 ((fun x v => Host.reduce FloatOps.maximumf x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    nullary main_cst_4 (constant S_ .f32 0xFF800000#32),
    unary main_cst_4 main_v117 (broadcastInDim S1048576 ![] bcast_S_S1048576 : (⟨S_, .f32⟩ : BufTy).Contents (Elt F) → (⟨S1048576, .f32⟩ : BufTy).Contents (Elt F)),
    binary main_v117 main_v116 main_v118 (maximumf : (⟨S1048576, .f32⟩ : BufTy).Contents (Elt F) → (⟨S1048576, .f32⟩ : BufTy).Contents (Elt F) → (⟨S1048576, .f32⟩ : BufTy).Contents (Elt F)),
    unary main_v118 main_v119 (broadcastInDim S1048576x1 ![0] bcast_S1048576_S1048576x1_0 : (⟨S1048576, .f32⟩ : BufTy).Contents (Elt F) → (⟨S1048576x1, .f32⟩ : BufTy).Contents (Elt F)),
    unary main_v119 main_v120 (broadcastInDim S1048576x2 ![0, 1] bcast_S1048576x1_S1048576x2_0_1 : (⟨S1048576x1, .f32⟩ : BufTy).Contents (Elt F) → (⟨S1048576x2, .f32⟩ : BufTy).Contents (Elt F)),
    binary main_v115 main_v120 main_v121 (subf : (⟨S1048576x2, .f32⟩ : BufTy).Contents (Elt F) → (⟨S1048576x2, .f32⟩ : BufTy).Contents (Elt F) → (⟨S1048576x2, .f32⟩ : BufTy).Contents (Elt F)),
    unary main_v121 main_v122 (Host.exp : (⟨S1048576x2, .f32⟩ : BufTy).Contents (Elt F) → (⟨S1048576x2, .f32⟩ : BufTy).Contents (Elt F)),
    nullary main_cst_5 (constant S_ .f32 0x00000000#32),
    binary main_v122 main_cst_5 main_v123 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    unary main_v123 main_v124 (broadcastInDim S1048576x1 ![0] bcast_S1048576_S1048576x1_0 : (⟨S1048576, .f32⟩ : BufTy).Contents (Elt F) → (⟨S1048576x1, .f32⟩ : BufTy).Contents (Elt F)),
    unary main_v124 main_v125 (broadcastInDim S1048576x2 ![0, 1] bcast_S1048576x1_S1048576x2_0_1 : (⟨S1048576x1, .f32⟩ : BufTy).Contents (Elt F) → (⟨S1048576x2, .f32⟩ : BufTy).Contents (Elt F)),
    binary main_v122 main_v125 main_v126 (Host.divf : (⟨S1048576x2, .f32⟩ : BufTy).Contents (Elt F) → (⟨S1048576x2, .f32⟩ : BufTy).Contents (Elt F) → (⟨S1048576x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., unary_bufs_sub .., unary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., unary_bufs_sub .., unary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., unary_bufs_sub .., unary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-! ## The line in five stretches -/

/-- The classical front: operations up to the state before the first circuit layer (`main_v16`). -/
abbrev opsA : List (HloOp τ sig (Elt F)) :=
  [ binary main_arg0 main_arg1 main_v0 ((fun l r => Host.dotGeneral dot_S1048576x8_S8x128_S1048576x128_1_0_0_1_n_n none l r) : (⟨S1048576x8, .f32⟩ : BufTy).Contents (Elt F) → (⟨S8x128, .f32⟩ : BufTy).Contents (Elt F) → (⟨S1048576x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S1048576x128 ![0, 1] bcast_S1x128_S1048576x128_0_1 : (⟨S1x128, .f32⟩ : BufTy).Contents (Elt F) → (⟨S1048576x128, .f32⟩ : BufTy).Contents (Elt F)),
    binary main_v0 main_v2 main_v3 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1048576x128, .f32⟩) main_call0_v0) (broadcastInDim S1048576x128 ![] bcast_S_S1048576x128),
    TRef.binary (TRef.of (T := ⟨S1048576x128, .f32⟩) main_v3) (TRef.of (T := ⟨S1048576x128, .f32⟩) main_call0_v0) (TRef.of (T := ⟨S1048576x128, .f32⟩) main_v4) maximumf,
    binary main_v4 main_arg3 main_v5 ((fun l r => Host.dotGeneral dot_S1048576x128_S128x64_S1048576x64_1_0_0_1_n_n none l r) : (⟨S1048576x128, .f32⟩ : BufTy).Contents (Elt F) → (⟨S128x64, .f32⟩ : BufTy).Contents (Elt F) → (⟨S1048576x64, .f32⟩ : BufTy).Contents (Elt F)),
    unary main_arg4 main_v6 (broadcastInDim S1x64 ![1] bcast_S64_S1x64_1 : (⟨S64, .f32⟩ : BufTy).Contents (Elt F) → (⟨S1x64, .f32⟩ : BufTy).Contents (Elt F)),
    unary main_v6 main_v7 (broadcastInDim S1048576x64 ![0, 1] bcast_S1x64_S1048576x64_0_1 : (⟨S1x64, .f32⟩ : BufTy).Contents (Elt F) → (⟨S1048576x64, .f32⟩ : BufTy).Contents (Elt F)),
    binary main_v5 main_v7 main_v8 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1048576x64, .f32⟩) main_call1_v0) (broadcastInDim S1048576x64 ![] bcast_S_S1048576x64),
    TRef.binary (TRef.of (T := ⟨S1048576x64, .f32⟩) main_v8) (TRef.of (T := ⟨S1048576x64, .f32⟩) main_call1_v0) (TRef.of (T := ⟨S1048576x64, .f32⟩) main_v9) maximumf,
    binary main_v9 main_arg5 main_v10 ((fun l r => Host.dotGeneral dot_S1048576x64_S64x8_S1048576x8_1_0_0_1_n_n none l r) : (⟨S1048576x64, .f32⟩ : BufTy).Contents (Elt F) → (⟨S64x8, .f32⟩ : BufTy).Contents (Elt F) → (⟨S1048576x8, .f32⟩ : BufTy).Contents (Elt F)),
    unary main_arg6 main_v11 (broadcastInDim S1x8 ![1] bcast_S8_S1x8_1 : (⟨S8, .f32⟩ : BufTy).Contents (Elt F) → (⟨S1x8, .f32⟩ : BufTy).Contents (Elt F)),
    unary main_v11 main_v12 (broadcastInDim S1048576x8 ![0, 1] bcast_S1x8_S1048576x8_0_1 : (⟨S1x8, .f32⟩ : BufTy).Contents (Elt F) → (⟨S1048576x8, .f32⟩ : BufTy).Contents (Elt F)),
    binary main_v10 main_v12 main_v13 (addf : (⟨S1048576x8, .f32⟩ : BufTy).Contents (Elt F) → (⟨S1048576x8, .f32⟩ : BufTy).Contents (Elt F) → (⟨S1048576x8, .f32⟩ : BufTy).Contents (Elt F)),
    unary main_v13 main_v14 (Host.tanh : (⟨S1048576x8, .f32⟩ : BufTy).Contents (Elt F) → (⟨S1048576x8, .f32⟩ : BufTy).Contents (Elt F)),
    nullary main_cst (constant S_ .f32 0x40490FDB#32),
    unary main_cst main_v15 (broadcastInDim S1048576x8 ![] bcast_S_S1048576x8 : (⟨S_, .f32⟩ : BufTy).Contents (Elt F) → (⟨S1048576x8, .f32⟩ : BufTy).Contents (Elt F)),
    binary main_v14 main_v15 main_v16 (mulf : (⟨S1048576x8, .f32⟩ : BufTy).Contents (Elt F) → (⟨S1048576x8, .f32⟩ : BufTy).Contents (Elt F) → (⟨S1048576x8, .f32⟩ : BufTy).Contents (Elt F)) ]

/-- The first circuit layer (`main_v17` … `main_v46`). -/
abbrev opsL0 : List (HloOp τ sig (Elt F)) :=
  [ unary main_arg7 main_v17 ((extractStridedSlice S1x8x3 ![0, 0, 0] · slices_S3x8x3_S1x8x3_0_0_0) : (⟨S3x8x3, .f32⟩ : BufTy).Contents (Elt F) → (⟨S1x8x3, .f32⟩ : BufTy).Contents (Elt F)),
    reshape main_v17 main_v18 rfl shapeCasts_S1x8x3_S8x3,
    unary main_v18 main_v19 ((extractStridedSlice S8x1 ![0, 0] · slices_S8x3_S8x1_0_0) : (⟨S8x3, .f32⟩ : BufTy).Contents (Elt F) → (⟨S8x1, .f32⟩ : BufTy).Contents (Elt F)),
    reshape main_v19 main_v20 rfl shapeCasts_S8x1_S8,
    unary main_v20 main_v21 (broadcastInDim S1x8 ![1] bcast_S8_S1x8_1 : (⟨S8, .f32⟩ : BufTy).Contents (Elt F) → (⟨S1x8, .f32⟩ : BufTy).Contents (Elt F)),
    unary main_v21 main_v22 (broadcastInDim S1048576x8 ![0, 1] bcast_S1x8_S1048576x8_0_1 : (⟨S1x8, .f32⟩ : BufTy).Contents (Elt F) → (⟨S1048576x8, .f32⟩ : BufTy).Contents (Elt F)),
    binary main_v16 main_v22 main_v23 (addf : (⟨S1048576x8, .f32⟩ : BufTy).Contents (Elt F) → (⟨S1048576x8, .f32⟩ : BufTy).Contents (Elt F) → (⟨S1048576x8, .f32⟩ : BufTy).Contents (Elt F)),
    unary main_v23 main_v24 (Host.sin : (⟨S1048576x8, .f32⟩ : BufTy).Contents (Elt F) → (⟨S1048576x8, .f32⟩ : BufTy).Contents (Elt F)),
    unary main_v18 main_v25 ((extractStridedSlice S8x1 ![0, 1] · slices_S8x3_S8x1_0_1) : (⟨S8x3, .f32⟩ : BufTy).Contents (Elt F) → (⟨S8x1, .f32⟩ : BufTy).Contents (Elt F)),
    reshape main_v25 main_v26 rfl shapeCasts_S8x1_S8,
    unary main_v26 main_v27 (broadcastInDim S1x8 ![1] bcast_S8_S1x8_1 : (⟨S8, .f32⟩ : BufTy).Contents (Elt F) → (⟨S1x8, .f32⟩ : BufTy).Contents (Elt F)),
    unary main_v27 main_v28 (broadcastInDim S1048576x8 ![0, 1] bcast_S1x8_S1048576x8_0_1 : (⟨S1x8, .f32⟩ : BufTy).Contents (Elt F) → (⟨S1048576x8, .f32⟩ : BufTy).Contents (Elt F)),
    binary main_v24 main_v28 main_v29 (addf : (⟨S1048576x8, .f32⟩ : BufTy).Contents (Elt F) → (⟨S1048576x8, .f32⟩ : BufTy).Contents (Elt F) → (⟨S1048576x8, .f32⟩ : BufTy).Contents (Elt F)),
    unary main_v29 main_v30 (Host.cos : (⟨S1048576x8, .f32⟩ : BufTy).Contents (Elt F) → (⟨S1048576x8, .f32⟩ : BufTy).Contents (Elt F)),
    unary main_v30 main_v31 ((extractStridedSlice S1048576x7 ![0, 0] · slices_S1048576x8_S1048576x7_0_0) : (⟨S1048576x8, .f32⟩ : BufTy).Contents (Elt F) → (⟨S1048576x7, .f32⟩ : BufTy).Contents (Elt F)),
    unary main_v31 main_v32 (Host.sin : (⟨S1048576x7, .f32⟩ : BufTy).Contents (Elt F) → (⟨S1048576x7, .f32⟩ : BufTy).Contents (Elt F)),
    unary main_v30 main_v33 ((extractStridedSlice S1048576x7 ![0, 1] · slices_S1048576x8_S1048576x7_0_1) : (⟨S1048576x8, .f32⟩ : BufTy).Contents (Elt F) → (⟨S1048576x7, .f32⟩ : BufTy).Contents (Elt F)),
    unary main_v33 main_v34 (Host.cos : (⟨S1048576x7, .f32⟩ : BufTy).Contents (Elt F) → (⟨S1048576x7, .f32⟩ : BufTy).Contents (Elt F)),
    binary main_v32 main_v34 main_v35 (mulf : (⟨S1048576x7, .f32⟩ : BufTy).Contents (Elt F) → (⟨S1048576x7, .f32⟩ : BufTy).Contents (Elt F) → (⟨S1048576x7, .f32⟩ : BufTy).Contents (Elt F)),
    unary main_v18 main_v36 ((extractStridedSlice S7x1 ![0, 2] · slices_S8x3_S7x1_0_2) : (⟨S8x3, .f32⟩ : BufTy).Contents (Elt F) → (⟨S7x1, .f32⟩ : BufTy).Contents (Elt F)),
    reshape main_v36 main_v37 rfl shapeCasts_S7x1_S7,
    unary main_v37 main_v38 (broadcastInDim S1x7 ![1] bcast_S7_S1x7_1 : (⟨S7, .f32⟩ : BufTy).Contents (Elt F) → (⟨S1x7, .f32⟩ : BufTy).Contents (Elt F)),
    unary main_v38 main_v39 (broadcastInDim S1048576x7 ![0, 1] bcast_S1x7_S1048576x7_0_1 : (⟨S1x7, .f32⟩ : BufTy).Contents (Elt F) → (⟨S1048576x7, .f32⟩ : BufTy).Contents (Elt F)),
    binary main_v35 main_v39 main_v40 (mulf : (⟨S1048576x7, .f32⟩ : BufTy).Contents (Elt F) → (⟨S1048576x7, .f32⟩ : BufTy).Contents (Elt F) → (⟨S1048576x7, .f32⟩ : BufTy).Contents (Elt F)),
    nullary main_cst_0 (constant S_ .f32 0x3DCCCCCD#32),
    unary main_cst_0 main_v41 (broadcastInDim S1048576x7 ![] bcast_S_S1048576x7 : (⟨S_, .f32⟩ : BufTy).Contents (Elt F) → (⟨S1048576x7, .f32⟩ : BufTy).Contents (Elt F)),
    binary main_v40 main_v41 main_v42 (mulf : (⟨S1048576x7, .f32⟩ : BufTy).Contents (Elt F) → (⟨S1048576x7, .f32⟩ : BufTy).Contents (Elt F) → (⟨S1048576x7, .f32⟩ : BufTy).Contents (Elt F)),
    unary main_v30 main_v43 ((extractStridedSlice S1048576x7 ![0, 0] · slices_S1048576x8_S1048576x7_0_0) : (⟨S1048576x8, .f32⟩ : BufTy).Contents (Elt F) → (⟨S1048576x7, .f32⟩ : BufTy).Contents (Elt F)),
    binary main_v43 main_v42 main_v44 (addf : (⟨S1048576x7, .f32⟩ : BufTy).Contents (Elt F) → (⟨S1048576x7, .f32⟩ : BufTy).Contents (Elt F) → (⟨S1048576x7, .f32⟩ : BufTy).Contents (Elt F)),
    unary main_v30 main_v45 ((extractStridedSlice S1048576x1 ![0, 7] · slices_S1048576x8_S1048576x1_0_7) : (⟨S1048576x8, .f32⟩ : BufTy).Contents (Elt F) → (⟨S1048576x1, .f32⟩ : BufTy).Contents (Elt F)),
    binary main_v44 main_v45 main_v46 ((fun a b => concatenate S1048576x8 1 [⟨S1048576x7, a⟩, ⟨S1048576x1, b⟩] concatenates_S1048576x7_S1048576x1_S1048576x8_d1) : (⟨S1048576x7, .f32⟩ : BufTy).Contents (Elt F) → (⟨S1048576x1, .f32⟩ : BufTy).Contents (Elt F) → (⟨S1048576x8, .f32⟩ : BufTy).Contents (Elt F)) ]

/-- The second circuit layer (`main_v47` … `main_v76`). -/
abbrev opsL1 : List (HloOp τ sig (Elt F)) :=
  [ unary main_arg7 main_v47 ((extractStridedSlice S1x8x3 ![1, 0, 0] · slices_S3x8x3_S1x8x3_1_0_0) : (⟨S3x8x3, .f32⟩ : BufTy).Contents (Elt F) → (⟨S1x8x3, .f32⟩ : BufTy).Contents (Elt F)),
    reshape main_v47 main_v48 rfl shapeCasts_S1x8x3_S8x3,
    unary main_v48 main_v49 ((extractStridedSlice S8x1 ![0, 0] · slices_S8x3_S8x1_0_0) : (⟨S8x3, .f32⟩ : BufTy).Contents (Elt F) → (⟨S8x1, .f32⟩ : BufTy).Contents (Elt F)),
    reshape main_v49 main_v50 rfl shapeCasts_S8x1_S8,
    unary main_v50 main_v51 (broadcastInDim S1x8 ![1] bcast_S8_S1x8_1 : (⟨S8, .f32⟩ : BufTy).Contents (Elt F) → (⟨S1x8, .f32⟩ : BufTy).Contents (Elt F)),
    unary main_v51 main_v52 (broadcastInDim S1048576x8 ![0, 1] bcast_S1x8_S1048576x8_0_1 : (⟨S1x8, .f32⟩ : BufTy).Contents (Elt F) → (⟨S1048576x8, .f32⟩ : BufTy).Contents (Elt F)),
    binary main_v46 main_v52 main_v53 (addf : (⟨S1048576x8, .f32⟩ : BufTy).Contents (Elt F) → (⟨S1048576x8, .f32⟩ : BufTy).Contents (Elt F) → (⟨S1048576x8, .f32⟩ : BufTy).Contents (Elt F)),
    unary main_v53 main_v54 (Host.sin : (⟨S1048576x8, .f32⟩ : BufTy).Contents (Elt F) → (⟨S1048576x8, .f32⟩ : BufTy).Contents (Elt F)),
    unary main_v48 main_v55 ((extractStridedSlice S8x1 ![0, 1] · slices_S8x3_S8x1_0_1) : (⟨S8x3, .f32⟩ : BufTy).Contents (Elt F) → (⟨S8x1, .f32⟩ : BufTy).Contents (Elt F)),
    reshape main_v55 main_v56 rfl shapeCasts_S8x1_S8,
    unary main_v56 main_v57 (broadcastInDim S1x8 ![1] bcast_S8_S1x8_1 : (⟨S8, .f32⟩ : BufTy).Contents (Elt F) → (⟨S1x8, .f32⟩ : BufTy).Contents (Elt F)),
    unary main_v57 main_v58 (broadcastInDim S1048576x8 ![0, 1] bcast_S1x8_S1048576x8_0_1 : (⟨S1x8, .f32⟩ : BufTy).Contents (Elt F) → (⟨S1048576x8, .f32⟩ : BufTy).Contents (Elt F)),
    binary main_v54 main_v58 main_v59 (addf : (⟨S1048576x8, .f32⟩ : BufTy).Contents (Elt F) → (⟨S1048576x8, .f32⟩ : BufTy).Contents (Elt F) → (⟨S1048576x8, .f32⟩ : BufTy).Contents (Elt F)),
    unary main_v59 main_v60 (Host.cos : (⟨S1048576x8, .f32⟩ : BufTy).Contents (Elt F) → (⟨S1048576x8, .f32⟩ : BufTy).Contents (Elt F)),
    unary main_v60 main_v61 ((extractStridedSlice S1048576x7 ![0, 0] · slices_S1048576x8_S1048576x7_0_0) : (⟨S1048576x8, .f32⟩ : BufTy).Contents (Elt F) → (⟨S1048576x7, .f32⟩ : BufTy).Contents (Elt F)),
    unary main_v61 main_v62 (Host.sin : (⟨S1048576x7, .f32⟩ : BufTy).Contents (Elt F) → (⟨S1048576x7, .f32⟩ : BufTy).Contents (Elt F)),
    unary main_v60 main_v63 ((extractStridedSlice S1048576x7 ![0, 1] · slices_S1048576x8_S1048576x7_0_1) : (⟨S1048576x8, .f32⟩ : BufTy).Contents (Elt F) → (⟨S1048576x7, .f32⟩ : BufTy).Contents (Elt F)),
    unary main_v63 main_v64 (Host.cos : (⟨S1048576x7, .f32⟩ : BufTy).Contents (Elt F) → (⟨S1048576x7, .f32⟩ : BufTy).Contents (Elt F)),
    binary main_v62 main_v64 main_v65 (mulf : (⟨S1048576x7, .f32⟩ : BufTy).Contents (Elt F) → (⟨S1048576x7, .f32⟩ : BufTy).Contents (Elt F) → (⟨S1048576x7, .f32⟩ : BufTy).Contents (Elt F)),
    unary main_v48 main_v66 ((extractStridedSlice S7x1 ![0, 2] · slices_S8x3_S7x1_0_2) : (⟨S8x3, .f32⟩ : BufTy).Contents (Elt F) → (⟨S7x1, .f32⟩ : BufTy).Contents (Elt F)),
    reshape main_v66 main_v67 rfl shapeCasts_S7x1_S7,
    unary main_v67 main_v68 (broadcastInDim S1x7 ![1] bcast_S7_S1x7_1 : (⟨S7, .f32⟩ : BufTy).Contents (Elt F) → (⟨S1x7, .f32⟩ : BufTy).Contents (Elt F)),
    unary main_v68 main_v69 (broadcastInDim S1048576x7 ![0, 1] bcast_S1x7_S1048576x7_0_1 : (⟨S1x7, .f32⟩ : BufTy).Contents (Elt F) → (⟨S1048576x7, .f32⟩ : BufTy).Contents (Elt F)),
    binary main_v65 main_v69 main_v70 (mulf : (⟨S1048576x7, .f32⟩ : BufTy).Contents (Elt F) → (⟨S1048576x7, .f32⟩ : BufTy).Contents (Elt F) → (⟨S1048576x7, .f32⟩ : BufTy).Contents (Elt F)),
    nullary main_cst_1 (constant S_ .f32 0x3DCCCCCD#32),
    unary main_cst_1 main_v71 (broadcastInDim S1048576x7 ![] bcast_S_S1048576x7 : (⟨S_, .f32⟩ : BufTy).Contents (Elt F) → (⟨S1048576x7, .f32⟩ : BufTy).Contents (Elt F)),
    binary main_v70 main_v71 main_v72 (mulf : (⟨S1048576x7, .f32⟩ : BufTy).Contents (Elt F) → (⟨S1048576x7, .f32⟩ : BufTy).Contents (Elt F) → (⟨S1048576x7, .f32⟩ : BufTy).Contents (Elt F)),
    unary main_v60 main_v73 ((extractStridedSlice S1048576x7 ![0, 0] · slices_S1048576x8_S1048576x7_0_0) : (⟨S1048576x8, .f32⟩ : BufTy).Contents (Elt F) → (⟨S1048576x7, .f32⟩ : BufTy).Contents (Elt F)),
    binary main_v73 main_v72 main_v74 (addf : (⟨S1048576x7, .f32⟩ : BufTy).Contents (Elt F) → (⟨S1048576x7, .f32⟩ : BufTy).Contents (Elt F) → (⟨S1048576x7, .f32⟩ : BufTy).Contents (Elt F)),
    unary main_v60 main_v75 ((extractStridedSlice S1048576x1 ![0, 7] · slices_S1048576x8_S1048576x1_0_7) : (⟨S1048576x8, .f32⟩ : BufTy).Contents (Elt F) → (⟨S1048576x1, .f32⟩ : BufTy).Contents (Elt F)),
    binary main_v74 main_v75 main_v76 ((fun a b => concatenate S1048576x8 1 [⟨S1048576x7, a⟩, ⟨S1048576x1, b⟩] concatenates_S1048576x7_S1048576x1_S1048576x8_d1) : (⟨S1048576x7, .f32⟩ : BufTy).Contents (Elt F) → (⟨S1048576x1, .f32⟩ : BufTy).Contents (Elt F) → (⟨S1048576x8, .f32⟩ : BufTy).Contents (Elt F)) ]

/-- The third circuit layer (`main_v77` … `main_v106`). -/
abbrev opsL2 : List (HloOp τ sig (Elt F)) :=
  [ unary main_arg7 main_v77 ((extractStridedSlice S1x8x3 ![2, 0, 0] · slices_S3x8x3_S1x8x3_2_0_0) : (⟨S3x8x3, .f32⟩ : BufTy).Contents (Elt F) → (⟨S1x8x3, .f32⟩ : BufTy).Contents (Elt F)),
    reshape main_v77 main_v78 rfl shapeCasts_S1x8x3_S8x3,
    unary main_v78 main_v79 ((extractStridedSlice S8x1 ![0, 0] · slices_S8x3_S8x1_0_0) : (⟨S8x3, .f32⟩ : BufTy).Contents (Elt F) → (⟨S8x1, .f32⟩ : BufTy).Contents (Elt F)),
    reshape main_v79 main_v80 rfl shapeCasts_S8x1_S8,
    unary main_v80 main_v81 (broadcastInDim S1x8 ![1] bcast_S8_S1x8_1 : (⟨S8, .f32⟩ : BufTy).Contents (Elt F) → (⟨S1x8, .f32⟩ : BufTy).Contents (Elt F)),
    unary main_v81 main_v82 (broadcastInDim S1048576x8 ![0, 1] bcast_S1x8_S1048576x8_0_1 : (⟨S1x8, .f32⟩ : BufTy).Contents (Elt F) → (⟨S1048576x8, .f32⟩ : BufTy).Contents (Elt F)),
    binary main_v76 main_v82 main_v83 (addf : (⟨S1048576x8, .f32⟩ : BufTy).Contents (Elt F) → (⟨S1048576x8, .f32⟩ : BufTy).Contents (Elt F) → (⟨S1048576x8, .f32⟩ : BufTy).Contents (Elt F)),
    unary main_v83 main_v84 (Host.sin : (⟨S1048576x8, .f32⟩ : BufTy).Contents (Elt F) → (⟨S1048576x8, .f32⟩ : BufTy).Contents (Elt F)),
    unary main_v78 main_v85 ((extractStridedSlice S8x1 ![0, 1] · slices_S8x3_S8x1_0_1) : (⟨S8x3, .f32⟩ : BufTy).Contents (Elt F) → (⟨S8x1, .f32⟩ : BufTy).Contents (Elt F)),
    reshape main_v85 main_v86 rfl shapeCasts_S8x1_S8,
    unary main_v86 main_v87 (broadcastInDim S1x8 ![1] bcast_S8_S1x8_1 : (⟨S8, .f32⟩ : BufTy).Contents (Elt F) → (⟨S1x8, .f32⟩ : BufTy).Contents (Elt F)),
    unary main_v87 main_v88 (broadcastInDim S1048576x8 ![0, 1] bcast_S1x8_S1048576x8_0_1 : (⟨S1x8, .f32⟩ : BufTy).Contents (Elt F) → (⟨S1048576x8, .f32⟩ : BufTy).Contents (Elt F)),
    binary main_v84 main_v88 main_v89 (addf : (⟨S1048576x8, .f32⟩ : BufTy).Contents (Elt F) → (⟨S1048576x8, .f32⟩ : BufTy).Contents (Elt F) → (⟨S1048576x8, .f32⟩ : BufTy).Contents (Elt F)),
    unary main_v89 main_v90 (Host.cos : (⟨S1048576x8, .f32⟩ : BufTy).Contents (Elt F) → (⟨S1048576x8, .f32⟩ : BufTy).Contents (Elt F)),
    unary main_v90 main_v91 ((extractStridedSlice S1048576x7 ![0, 0] · slices_S1048576x8_S1048576x7_0_0) : (⟨S1048576x8, .f32⟩ : BufTy).Contents (Elt F) → (⟨S1048576x7, .f32⟩ : BufTy).Contents (Elt F)),
    unary main_v91 main_v92 (Host.sin : (⟨S1048576x7, .f32⟩ : BufTy).Contents (Elt F) → (⟨S1048576x7, .f32⟩ : BufTy).Contents (Elt F)),
    unary main_v90 main_v93 ((extractStridedSlice S1048576x7 ![0, 1] · slices_S1048576x8_S1048576x7_0_1) : (⟨S1048576x8, .f32⟩ : BufTy).Contents (Elt F) → (⟨S1048576x7, .f32⟩ : BufTy).Contents (Elt F)),
    unary main_v93 main_v94 (Host.cos : (⟨S1048576x7, .f32⟩ : BufTy).Contents (Elt F) → (⟨S1048576x7, .f32⟩ : BufTy).Contents (Elt F)),
    binary main_v92 main_v94 main_v95 (mulf : (⟨S1048576x7, .f32⟩ : BufTy).Contents (Elt F) → (⟨S1048576x7, .f32⟩ : BufTy).Contents (Elt F) → (⟨S1048576x7, .f32⟩ : BufTy).Contents (Elt F)),
    unary main_v78 main_v96 ((extractStridedSlice S7x1 ![0, 2] · slices_S8x3_S7x1_0_2) : (⟨S8x3, .f32⟩ : BufTy).Contents (Elt F) → (⟨S7x1, .f32⟩ : BufTy).Contents (Elt F)),
    reshape main_v96 main_v97 rfl shapeCasts_S7x1_S7,
    unary main_v97 main_v98 (broadcastInDim S1x7 ![1] bcast_S7_S1x7_1 : (⟨S7, .f32⟩ : BufTy).Contents (Elt F) → (⟨S1x7, .f32⟩ : BufTy).Contents (Elt F)),
    unary main_v98 main_v99 (broadcastInDim S1048576x7 ![0, 1] bcast_S1x7_S1048576x7_0_1 : (⟨S1x7, .f32⟩ : BufTy).Contents (Elt F) → (⟨S1048576x7, .f32⟩ : BufTy).Contents (Elt F)),
    binary main_v95 main_v99 main_v100 (mulf : (⟨S1048576x7, .f32⟩ : BufTy).Contents (Elt F) → (⟨S1048576x7, .f32⟩ : BufTy).Contents (Elt F) → (⟨S1048576x7, .f32⟩ : BufTy).Contents (Elt F)),
    nullary main_cst_2 (constant S_ .f32 0x3DCCCCCD#32),
    unary main_cst_2 main_v101 (broadcastInDim S1048576x7 ![] bcast_S_S1048576x7 : (⟨S_, .f32⟩ : BufTy).Contents (Elt F) → (⟨S1048576x7, .f32⟩ : BufTy).Contents (Elt F)),
    binary main_v100 main_v101 main_v102 (mulf : (⟨S1048576x7, .f32⟩ : BufTy).Contents (Elt F) → (⟨S1048576x7, .f32⟩ : BufTy).Contents (Elt F) → (⟨S1048576x7, .f32⟩ : BufTy).Contents (Elt F)),
    unary main_v90 main_v103 ((extractStridedSlice S1048576x7 ![0, 0] · slices_S1048576x8_S1048576x7_0_0) : (⟨S1048576x8, .f32⟩ : BufTy).Contents (Elt F) → (⟨S1048576x7, .f32⟩ : BufTy).Contents (Elt F)),
    binary main_v103 main_v102 main_v104 (addf : (⟨S1048576x7, .f32⟩ : BufTy).Contents (Elt F) → (⟨S1048576x7, .f32⟩ : BufTy).Contents (Elt F) → (⟨S1048576x7, .f32⟩ : BufTy).Contents (Elt F)),
    unary main_v90 main_v105 ((extractStridedSlice S1048576x1 ![0, 7] · slices_S1048576x8_S1048576x1_0_7) : (⟨S1048576x8, .f32⟩ : BufTy).Contents (Elt F) → (⟨S1048576x1, .f32⟩ : BufTy).Contents (Elt F)),
    binary main_v104 main_v105 main_v106 ((fun a b => concatenate S1048576x8 1 [⟨S1048576x7, a⟩, ⟨S1048576x1, b⟩] concatenates_S1048576x7_S1048576x1_S1048576x8_d1) : (⟨S1048576x7, .f32⟩ : BufTy).Contents (Elt F) → (⟨S1048576x1, .f32⟩ : BufTy).Contents (Elt F) → (⟨S1048576x8, .f32⟩ : BufTy).Contents (Elt F)) ]

/-- The output head (`main_v107` … `main_v126`). -/
abbrev opsH : List (HloOp τ sig (Elt F)) :=
  [ binary main_v106 main_arg8 main_v107 ((fun l r => Host.dotGeneral dot_S1048576x8_S8x32_S1048576x32_1_0_0_1_n_n none l r) : (⟨S1048576x8, .f32⟩ : BufTy).Contents (Elt F) → (⟨S8x32, .f32⟩ : BufTy).Contents (Elt F) → (⟨S1048576x32, .f32⟩ : BufTy).Contents (Elt F)),
    unary main_arg9 main_v108 (broadcastInDim S1x32 ![1] bcast_S32_S1x32_1 : (⟨S32, .f32⟩ : BufTy).Contents (Elt F) → (⟨S1x32, .f32⟩ : BufTy).Contents (Elt F)),
    unary main_v108 main_v109 (broadcastInDim S1048576x32 ![0, 1] bcast_S1x32_S1048576x32_0_1 : (⟨S1x32, .f32⟩ : BufTy).Contents (Elt F) → (⟨S1048576x32, .f32⟩ : BufTy).Contents (Elt F)),
    binary main_v107 main_v109 main_v110 (addf : (⟨S1048576x32, .f32⟩ : BufTy).Contents (Elt F) → (⟨S1048576x32, .f32⟩ : BufTy).Contents (Elt F) → (⟨S1048576x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1048576x32, .f32⟩) main_call2_v0) (broadcastInDim S1048576x32 ![] bcast_S_S1048576x32),
    TRef.binary (TRef.of (T := ⟨S1048576x32, .f32⟩) main_v110) (TRef.of (T := ⟨S1048576x32, .f32⟩) main_call2_v0) (TRef.of (T := ⟨S1048576x32, .f32⟩) main_v111) maximumf,
    binary main_v111 main_arg10 main_v112 ((fun l r => Host.dotGeneral dot_S1048576x32_S32x2_S1048576x2_1_0_0_1_n_n none l r) : (⟨S1048576x32, .f32⟩ : BufTy).Contents (Elt F) → (⟨S32x2, .f32⟩ : BufTy).Contents (Elt F) → (⟨S1048576x2, .f32⟩ : BufTy).Contents (Elt F)),
    unary main_arg11 main_v113 (broadcastInDim S1x2 ![1] bcast_S2_S1x2_1 : (⟨S2, .f32⟩ : BufTy).Contents (Elt F) → (⟨S1x2, .f32⟩ : BufTy).Contents (Elt F)),
    unary main_v113 main_v114 (broadcastInDim S1048576x2 ![0, 1] bcast_S1x2_S1048576x2_0_1 : (⟨S1x2, .f32⟩ : BufTy).Contents (Elt F) → (⟨S1048576x2, .f32⟩ : BufTy).Contents (Elt F)),
    binary main_v112 main_v114 main_v115 (addf : (⟨S1048576x2, .f32⟩ : BufTy).Contents (Elt F) → (⟨S1048576x2, .f32⟩ : BufTy).Contents (Elt F) → (⟨S1048576x2, .f32⟩ : BufTy).Contents (Elt F)),
    nullary main_cst_3 (constant S_ .f32 0xFF800000#32),
    binary main_v115 main_cst_3 main_v116 ((fun x v => Host.reduce FloatOps.maximumf x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    nullary main_cst_4 (constant S_ .f32 0xFF800000#32),
    unary main_cst_4 main_v117 (broadcastInDim S1048576 ![] bcast_S_S1048576 : (⟨S_, .f32⟩ : BufTy).Contents (Elt F) → (⟨S1048576, .f32⟩ : BufTy).Contents (Elt F)),
    binary main_v117 main_v116 main_v118 (maximumf : (⟨S1048576, .f32⟩ : BufTy).Contents (Elt F) → (⟨S1048576, .f32⟩ : BufTy).Contents (Elt F) → (⟨S1048576, .f32⟩ : BufTy).Contents (Elt F)),
    unary main_v118 main_v119 (broadcastInDim S1048576x1 ![0] bcast_S1048576_S1048576x1_0 : (⟨S1048576, .f32⟩ : BufTy).Contents (Elt F) → (⟨S1048576x1, .f32⟩ : BufTy).Contents (Elt F)),
    unary main_v119 main_v120 (broadcastInDim S1048576x2 ![0, 1] bcast_S1048576x1_S1048576x2_0_1 : (⟨S1048576x1, .f32⟩ : BufTy).Contents (Elt F) → (⟨S1048576x2, .f32⟩ : BufTy).Contents (Elt F)),
    binary main_v115 main_v120 main_v121 (subf : (⟨S1048576x2, .f32⟩ : BufTy).Contents (Elt F) → (⟨S1048576x2, .f32⟩ : BufTy).Contents (Elt F) → (⟨S1048576x2, .f32⟩ : BufTy).Contents (Elt F)),
    unary main_v121 main_v122 (Host.exp : (⟨S1048576x2, .f32⟩ : BufTy).Contents (Elt F) → (⟨S1048576x2, .f32⟩ : BufTy).Contents (Elt F)),
    nullary main_cst_5 (constant S_ .f32 0x00000000#32),
    binary main_v122 main_cst_5 main_v123 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    unary main_v123 main_v124 (broadcastInDim S1048576x1 ![0] bcast_S1048576_S1048576x1_0 : (⟨S1048576, .f32⟩ : BufTy).Contents (Elt F) → (⟨S1048576x1, .f32⟩ : BufTy).Contents (Elt F)),
    unary main_v124 main_v125 (broadcastInDim S1048576x2 ![0, 1] bcast_S1048576x1_S1048576x2_0_1 : (⟨S1048576x1, .f32⟩ : BufTy).Contents (Elt F) → (⟨S1048576x2, .f32⟩ : BufTy).Contents (Elt F)),
    binary main_v122 main_v125 main_v126 (Host.divf : (⟨S1048576x2, .f32⟩ : BufTy).Contents (Elt F) → (⟨S1048576x2, .f32⟩ : BufTy).Contents (Elt F) → (⟨S1048576x2, .f32⟩ : BufTy).Contents (Elt F)) ]

set_option maxRecDepth 8192 in
/-- The five stretches in order are the line. -/
theorem ops_split : (ops : List (HloOp τ sig (Elt F))) = opsA ++ (opsL0 ++ (opsL1 ++ (opsL2 ++ opsH))) := rfl

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stretch leaves, from arbitrary contents -/

set_option maxRecDepth 8192 in
/-- The front leaves the state before the first circuit layer at its stage of the arguments. -/
theorem frontA (V : Valuation τ sig (Elt F)) :
    after (opsA (F := F)) V (Proc.devRef .tc main_v16)
      = Read.val_main_v16 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp <;> rfl

/-- The operations of this stretch write none of these arguments. -/
theorem keepA (W : Valuation τ sig (Elt F)) :
    after (opsA (F := F)) W (Proc.devRef .tc main_arg7) = W (Proc.devRef .tc main_arg7)
    ∧ after (opsA (F := F)) W (Proc.devRef .tc main_arg8) = W (Proc.devRef .tc main_arg8)
    ∧ after (opsA (F := F)) W (Proc.devRef .tc main_arg9) = W (Proc.devRef .tc main_arg9)
    ∧ after (opsA (F := F)) W (Proc.devRef .tc main_arg10) = W (Proc.devRef .tc main_arg10)
    ∧ after (opsA (F := F)) W (Proc.devRef .tc main_arg11) = W (Proc.devRef .tc main_arg11) :=
  ⟨by after_results_simp, by after_results_simp, by after_results_simp, by after_results_simp, by after_results_simp⟩

set_option maxRecDepth 8192 in
set_option maxHeartbeats 4000000 in
/-- The first circuit layer, run from contents whose `main_v16` holds the front's stage, leaves its stage in `main_v46`. -/
theorem layerL0 (W : Valuation τ sig (Elt F)) (x0 : (⟨S1048576x8, .f32⟩ : BufTy).Contents (Elt F)) (x1 : (⟨S8x128, .f32⟩ : BufTy).Contents (Elt F)) (x2 : (⟨S128, .f32⟩ : BufTy).Contents (Elt F)) (x3 : (⟨S128x64, .f32⟩ : BufTy).Contents (Elt F)) (x4 : (⟨S64, .f32⟩ : BufTy).Contents (Elt F)) (x5 : (⟨S64x8, .f32⟩ : BufTy).Contents (Elt F)) (x6 : (⟨S8, .f32⟩ : BufTy).Contents (Elt F))
    (h : W (Proc.devRef .tc main_v16) = Read.val_main_v16 (F := F) x0 x1 x2 x3 x4 x5 x6) :
    after (opsL0 (F := F)) W (Proc.devRef .tc main_v46) = Read.val_main_v46 (F := F) x0 x1 x2 x3 x4 x5 x6 (W (Proc.devRef .tc main_arg7)) := by
  after_results
  rw [h]
  rfl

/-- The operations of this stretch write none of these arguments. -/
theorem keepL0 (W : Valuation τ sig (Elt F)) :
    after (opsL0 (F := F)) W (Proc.devRef .tc main_arg7) = W (Proc.devRef .tc main_arg7)
    ∧ after (opsL0 (F := F)) W (Proc.devRef .tc main_arg8) = W (Proc.devRef .tc main_arg8)
    ∧ after (opsL0 (F := F)) W (Proc.devRef .tc main_arg9) = W (Proc.devRef .tc main_arg9)
    ∧ after (opsL0 (F := F)) W (Proc.devRef .tc main_arg10) = W (Proc.devRef .tc main_arg10)
    ∧ after (opsL0 (F := F)) W (Proc.devRef .tc main_arg11) = W (Proc.devRef .tc main_arg11) :=
  ⟨by after_results_simp, by after_results_simp, by after_results_simp, by after_results_simp, by after_results_simp⟩

set_option maxRecDepth 8192 in
set_option maxHeartbeats 4000000 in
/-- The second circuit layer, from contents whose `main_v46` holds the first layer's stage. -/
theorem layerL1 (W : Valuation τ sig (Elt F)) (x0 : (⟨S1048576x8, .f32⟩ : BufTy).Contents (Elt F)) (x1 : (⟨S8x128, .f32⟩ : BufTy).Contents (Elt F)) (x2 : (⟨S128, .f32⟩ : BufTy).Contents (Elt F)) (x3 : (⟨S128x64, .f32⟩ : BufTy).Contents (Elt F)) (x4 : (⟨S64, .f32⟩ : BufTy).Contents (Elt F)) (x5 : (⟨S64x8, .f32⟩ : BufTy).Contents (Elt F)) (x6 : (⟨S8, .f32⟩ : BufTy).Contents (Elt F)) (x7 : (⟨S3x8x3, .f32⟩ : BufTy).Contents (Elt F))
    (h : W (Proc.devRef .tc main_v46) = Read.val_main_v46 (F := F) x0 x1 x2 x3 x4 x5 x6 x7) (h7 : W (Proc.devRef .tc main_arg7) = x7) :
    after (opsL1 (F := F)) W (Proc.devRef .tc main_v76) = Read.val_main_v76 (F := F) x0 x1 x2 x3 x4 x5 x6 x7 := by
  after_results
  rw [h, h7]
  rfl

/-- The operations of this stretch write none of these arguments. -/
theorem keepL1 (W : Valuation τ sig (Elt F)) :
    after (opsL1 (F := F)) W (Proc.devRef .tc main_arg7) = W (Proc.devRef .tc main_arg7)
    ∧ after (opsL1 (F := F)) W (Proc.devRef .tc main_arg8) = W (Proc.devRef .tc main_arg8)
    ∧ after (opsL1 (F := F)) W (Proc.devRef .tc main_arg9) = W (Proc.devRef .tc main_arg9)
    ∧ after (opsL1 (F := F)) W (Proc.devRef .tc main_arg10) = W (Proc.devRef .tc main_arg10)
    ∧ after (opsL1 (F := F)) W (Proc.devRef .tc main_arg11) = W (Proc.devRef .tc main_arg11) :=
  ⟨by after_results_simp, by after_results_simp, by after_results_simp, by after_results_simp, by after_results_simp⟩

set_option maxRecDepth 8192 in
set_option maxHeartbeats 4000000 in
/-- The third circuit layer, from contents whose `main_v76` holds the second layer's stage. -/
theorem layerL2 (W : Valuation τ sig (Elt F)) (x0 : (⟨S1048576x8, .f32⟩ : BufTy).Contents (Elt F)) (x1 : (⟨S8x128, .f32⟩ : BufTy).Contents (Elt F)) (x2 : (⟨S128, .f32⟩ : BufTy).Contents (Elt F)) (x3 : (⟨S128x64, .f32⟩ : BufTy).Contents (Elt F)) (x4 : (⟨S64, .f32⟩ : BufTy).Contents (Elt F)) (x5 : (⟨S64x8, .f32⟩ : BufTy).Contents (Elt F)) (x6 : (⟨S8, .f32⟩ : BufTy).Contents (Elt F)) (x7 : (⟨S3x8x3, .f32⟩ : BufTy).Contents (Elt F))
    (h : W (Proc.devRef .tc main_v76) = Read.val_main_v76 (F := F) x0 x1 x2 x3 x4 x5 x6 x7) (h7 : W (Proc.devRef .tc main_arg7) = x7) :
    after (opsL2 (F := F)) W (Proc.devRef .tc main_v106) = Read.val_main_v106 (F := F) x0 x1 x2 x3 x4 x5 x6 x7 := by
  after_results
  rw [h, h7]
  rfl

/-- The operations of this stretch write none of these arguments. -/
theorem keepL2 (W : Valuation τ sig (Elt F)) :
    after (opsL2 (F := F)) W (Proc.devRef .tc main_arg8) = W (Proc.devRef .tc main_arg8)
    ∧ after (opsL2 (F := F)) W (Proc.devRef .tc main_arg9) = W (Proc.devRef .tc main_arg9)
    ∧ after (opsL2 (F := F)) W (Proc.devRef .tc main_arg10) = W (Proc.devRef .tc main_arg10)
    ∧ after (opsL2 (F := F)) W (Proc.devRef .tc main_arg11) = W (Proc.devRef .tc main_arg11) :=
  ⟨by after_results_simp, by after_results_simp, by after_results_simp, by after_results_simp⟩

set_option maxRecDepth 8192 in
/-- The output head, from contents whose `main_v106` holds the third layer's stage. -/
theorem headH (W : Valuation τ sig (Elt F)) (x0 : (⟨S1048576x8, .f32⟩ : BufTy).Contents (Elt F)) (x1 : (⟨S8x128, .f32⟩ : BufTy).Contents (Elt F)) (x2 : (⟨S128, .f32⟩ : BufTy).Contents (Elt F)) (x3 : (⟨S128x64, .f32⟩ : BufTy).Contents (Elt F)) (x4 : (⟨S64, .f32⟩ : BufTy).Contents (Elt F)) (x5 : (⟨S64x8, .f32⟩ : BufTy).Contents (Elt F)) (x6 : (⟨S8, .f32⟩ : BufTy).Contents (Elt F)) (x7 : (⟨S3x8x3, .f32⟩ : BufTy).Contents (Elt F))
    (h : W (Proc.devRef .tc main_v106) = Read.val_main_v106 (F := F) x0 x1 x2 x3 x4 x5 x6 x7) :
    after (opsH (F := F)) W (Proc.devRef .tc main_v126)
      = Read.val_main_v126 (F := F) x0 x1 x2 x3 x4 x5 x6 x7 (W (Proc.devRef .tc main_arg8)) (W (Proc.devRef .tc main_arg9)) (W (Proc.devRef .tc main_arg10)) (W (Proc.devRef .tc main_arg11)) := by
  after_results_simp
  rw [h]
  rfl

/-- The whole line leaves the result buffer at the last stage of the arguments' contents. -/
theorem after_ops_result (V : Valuation τ sig (Elt F)) :
    after (ops (F := F)) V (Proc.devRef .tc main_v126)
      = Read.val_main_v126 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, after_append, after_append, after_append, after_append]
  obtain ⟨a7, a8, a9, a10, a11⟩ := keepA (F := F) V
  obtain ⟨b7, b8, b9, b10, b11⟩ := keepL0 (F := F) (after opsA V)
  obtain ⟨c7, c8, c9, c10, c11⟩ := keepL1 (F := F) (after opsL0 (after opsA V))
  obtain ⟨d8, d9, d10, d11⟩ := keepL2 (F := F) (after opsL1 (after opsL0 (after opsA V)))
  have h46 := layerL0 (F := F) (after opsA V) _ _ _ _ _ _ _ (frontA V)
  rw [a7] at h46
  have h76 := layerL1 (F := F) (after opsL0 (after opsA V)) _ _ _ _ _ _ _ _ h46 (b7.trans a7)
  have h106 := layerL2 (F := F) (after opsL1 (after opsL0 (after opsA V))) _ _ _ _ _ _ _ _ h76 (c7.trans (b7.trans a7))
  rw [headH (F := F) _ _ _ _ _ _ _ _ _ h106, d8, d9, d10, d11, c8, c9, c10, c11, b8, b9, b10, b11, a8, a9, a10, a11]

set_option maxRecDepth 8192 in
set_option maxHeartbeats 56000000 in
/-- On every device, for any float values, from any memory with zero counters: every weakly fair execution of
    @main terminates with the result at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126) = Read.val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v126).trans (after_ops_result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.Value

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibMlpLayer.lean ====
/-
  One dense layer of a multilayer perceptron, read row by row on the extended reals.

  A layer sends a row `h` of `K` activations to the row `j ↦ (∑ q, h q · W j q) + b j` of `N` activations (`lin`),
  after a rectifier `v ↦ max v 0` on every entry (`relu`).  Two programs compute it: a kernel, on a block of rows
  `[m, K]` against the TRANSPOSED weights `[K, N]` — a matrix product into a zero accumulator, plus the bias vector
  cast to one row and broadcast down the rows —, and a host program on a stack of rows `[A, B, K]` against the weights
  `[N, K]` — a `dot_general` contracting the last axes, plus the bias vector broadcast in two steps.  Each is read here
  at one row as `lin`; the rectifier on either side as `relu`; and the slab `c` of a stack of weight matrices or bias
  rows — cut out by a unit-stride load or by a slice, then cast to drop the unit axis — at an entry of the stack.
  Any extents.
-/
import Idealize.ShloMosaic.Lib.ValueIdx
import Idealize.ShloMosaic.Lib.ValueLayout
import Idealize.ShloMosaic.Lib.Pipeline.Value
import Idealize.ShloMosaic.PureOps.Ideal.Laws
import proofs.«113502_j9234179686801_1_alg».proof.Proof.LibPlainDot

noncomputable section

namespace Cert.MlpLayer

open Idealize.ShloMosaic Idealize.ShloMosaic.ValueIdx

/-- One affine layer on a row: `j ↦ (∑ q, h q · W j q) + b j`. -/
def lin {K N : Nat} (W : Fin N → Fin K → EReal) (b : Fin N → EReal) (h : Fin K → EReal) : Fin N → EReal :=
  fun j => (∑ q : Fin K, h q * W j q) + b j

/-- The rectifier on a row: `max v 0` entry by entry (the zero is the f32 word of `+0.0`). -/
def relu {N : Nat} (h : Fin N → EReal) : Fin N → EReal :=
  fun j => max (h j) (Ideal.ofBits .f32 0x00000000#32)

/-- A layer depends on its weights, bias and input row only through their values. -/
theorem lin_congr {K N : Nat} {W W' : Fin N → Fin K → EReal} {b b' : Fin N → EReal} {h h' : Fin K → EReal}
    (h1 : W = W') (h2 : b = b') (h3 : h = h') : lin W b h = lin W' b' h' := by
  subst h1 h2 h3; rfl

/-! ## The kernel's layer on a block of rows -/

section Kernel
variable {m k n : Nat} {φ₁ φ₂ : FTy}

/-- A bias vector cast to one row and broadcast down the rows reads, at `(p, j)`, the vector at `j`. -/
theorem bias_rows (v : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (j : Fin n) :
    broadcastTo ⟨2, ![m, n]⟩ (shapeCast ⟨2, ![1, n]⟩ v hc) hb (ix2 p j) = v (ix1 j) :=
  (broadcastTo_1b_ab_apply _ hb p j).trans (shapeCast_a_1a_apply v hc 0 j)

/-- Row `p` of the kernel's layer — the product of a block `a` with the transposed weights `w` into the zero
    accumulator, plus the bias row — is `lin` of row `p` of `a`. -/
theorem kernel_dense (D : DotDims ⟨2, ![m, k]⟩ ⟨2, ![k, n]⟩ ⟨2, ![m, n]⟩) (hD : D = DotDims.plain m k n)
    (prec : Option ContractPrecision) (a : FVec Ideal ⟨2, ![m, k]⟩ φ₁) (w : FVec Ideal ⟨2, ![k, n]⟩ φ₂)
    (v : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) :
    (fun j : Fin n => addf (matmul D prec a w (constant (F := Ideal) ⟨2, ![m, n]⟩ .f32 0x00000000#32))
        (broadcastTo ⟨2, ![m, n]⟩ (shapeCast ⟨2, ![1, n]⟩ v hc) hb) (ix2 p j))
      = lin (fun j q => w (ix2 q j)) (fun j => v (ix1 j)) (fun q => a (ix2 p q)) := by
  funext j
  show matmul D prec a w _ (ix2 p j) + broadcastTo _ _ hb (ix2 p j) = _
  rw [Cert.PlainDot.matmul_zero_ix2 D hD, bias_rows]
  rfl

/-- Row `p` of the rectified block, in whatever narrower format it is then kept, is `relu` of row `p`. -/
theorem kernel_relu {ψ : FTy} (h : FVec Ideal ⟨2, ![m, n]⟩ .f32) (hlt : ψ.bits < FTy.bits .f32) (p : Fin m) :
    (fun q : Fin n => truncf ψ (maximumf h (broadcast ⟨2, ![m, n]⟩ (Scalar.ofBits (F := Ideal) .f32 0x00000000#32))) hlt (ix2 p q))
      = relu (fun q => h (ix2 p q)) := rfl

end Kernel

/-! ## One matrix, or one row, of a stack -/

section Slabs
variable {α : Type} {Val : EltTy → Type} {e : EltTy} {K a b : Nat}

/-- Matrix `c` of a stack `[K, a, b]`, loaded through the unit-stride rectangle at `(c, 0, 0)` of extents
    `(1, a, b)` and cast to `[a, b]`, reads at `(i, j)` the stack at `(c, i, j)`. -/
theorem ld_matrix (x : (⟨3, ![K, a, b]⟩ : Shape).Idx → Val e) (c : Nat)
    (inb : ∀ ax, (![c, 0, 0] : Fin 3 → Nat) ax + (⟨3, ![1, a, b]⟩ : Shape).size ax ≤ (⟨3, ![K, a, b]⟩ : Shape).size ax)
    (hc : (⟨3, ![1, a, b]⟩ : Shape).ShapeCasts ⟨2, ![a, b]⟩) (i : Fin a) (j : Fin b) :
    shapeCast ⟨2, ![a, b]⟩ (View.ld x (Rect.unit (s := ⟨3, ![K, a, b]⟩) ![c, 0, 0] (⟨3, ![1, a, b]⟩ : Shape).size inb)) hc (ix2 i j)
      = x (ix3 ⟨c, inb 0⟩ i j) := by
  refine (shapeCast_1ab_ab_apply _ hc i j).trans ?_
  refine congrArg x (funext fun ax => Fin.ext ?_)
  match ax with
  | ⟨0, _⟩ => show c + 1 * 0 = c; omega
  | ⟨1, _⟩ => show 0 + 1 * i.val = i.val; omega
  | ⟨2, _⟩ => show 0 + 1 * j.val = j.val; omega

/-- Row `c` of a stack `[K, b]`, loaded through the unit-stride rectangle at `(c, 0)` of extents `(1, b)` and cast to
    `[b]`, reads at `j` the stack at `(c, j)`. -/
theorem ld_row (x : (⟨2, ![K, b]⟩ : Shape).Idx → Val e) (c : Nat)
    (inb : ∀ ax, (![c, 0] : Fin 2 → Nat) ax + (⟨2, ![1, b]⟩ : Shape).size ax ≤ (⟨2, ![K, b]⟩ : Shape).size ax)
    (hc : (⟨2, ![1, b]⟩ : Shape).ShapeCasts ⟨1, ![b]⟩) (j : Fin b) :
    shapeCast ⟨1, ![b]⟩ (View.ld x (Rect.unit (s := ⟨2, ![K, b]⟩) ![c, 0] (⟨2, ![1, b]⟩ : Shape).size inb)) hc (ix1 j)
      = x (ix2 ⟨c, inb 0⟩ j) := by
  refine (shapeCast_1a_a_apply _ hc j).trans ?_
  refine congrArg x (funext fun ax => Fin.ext ?_)
  match ax with
  | ⟨0, _⟩ => show c + 1 * 0 = c; omega
  | ⟨1, _⟩ => show 0 + 1 * j.val = j.val; omega

/-- Matrix `c` of a stack `[K, a, b]`, sliced out at `(c, 0, 0)` and cast to `[a, b]`, reads at `(i, j)` the stack at
    `(c, i, j)`. -/
theorem slice_matrix (x : (⟨3, ![K, a, b]⟩ : Shape).Idx → α) (c : Nat)
    (hs : (⟨3, ![K, a, b]⟩ : Shape).Slices ![c, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![c, 0, 0] x hs) hc (ix2 i j) = x (ix3 ⟨c, hs.2 0⟩ i j) := by
  refine (shapeCast_1ab_ab_apply _ hc i j).trans ?_
  refine extractStridedSlice_apply _ x hs _ _ fun ax => ?_
  match ax with
  | ⟨0, _⟩ => show c = c + 0; omega
  | ⟨1, _⟩ => show i.val = 0 + i.val; omega
  | ⟨2, _⟩ => show j.val = 0 + j.val; omega

/-- Row `c` of a stack `[K, b]`, sliced out at `(c, 0)` and cast to `[b]`, reads at `j` the stack at `(c, j)`. -/
theorem slice_row (x : (⟨2, ![K, b]⟩ : Shape).Idx → α) (c : Nat)
    (hs : (⟨2, ![K, b]⟩ : Shape).Slices ![c, 0] ⟨2, ![1, b]⟩)
    (hc : (⟨2, ![1, b]⟩ : Shape).ShapeCasts ⟨1, ![b]⟩) (j : Fin b) :
    shapeCast ⟨1, ![b]⟩ (extractStridedSlice ⟨2, ![1, b]⟩ ![c, 0] x hs) hc (ix1 j) = x (ix2 ⟨c, hs.2 0⟩ j) := by
  refine (shapeCast_1a_a_apply _ hc j).trans ?_
  refine extractStridedSlice_apply _ x hs _ _ fun ax => ?_
  match ax with
  | ⟨0, _⟩ => show c = c + 0; omega
  | ⟨1, _⟩ => show j.val = 0 + j.val; omega

end Slabs

/-! ## The host's layer on a stack of rows -/

section Host
variable {A B k n : Nat} {φ₁ φ₂ : FTy}

/-- A bias vector broadcast to `[1, 1, n]` and then over the stack reads, at `(b, p, j)`, the vector at `j`. -/
theorem bias_stack {α : Type} (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![A, B, n]⟩ ![0, 1, 2]) (b : Fin A) (p : Fin B) (j : Fin n) :
    broadcastInDim ⟨3, ![A, B, n]⟩ ![0, 1, 2] h2 (broadcastInDim ⟨3, ![1, 1, n]⟩ ![2] h1 v) (ix3 b p j) = v (ix1 j) := by
  refine (broadcastInDim_apply _ h2 _ (ix3 b p j) (ix3 (0 : Fin 1) (0 : Fin 1) j) fun ax => ?_).trans
    (broadcastInDim_apply _ h1 v _ (ix1 j) fun ax => ?_)
  · match ax with
    | ⟨0, _⟩ => show 0 = if (1 : Nat) = 1 then 0 else b.val; rw [if_pos rfl]
    | ⟨1, _⟩ => show 0 = if (1 : Nat) = 1 then 0 else p.val; rw [if_pos rfl]
    | ⟨2, _⟩ =>
      show j.val = if n = 1 then 0 else j.val
      split
      · have := j.isLt; omega
      · rfl
  · match ax with
    | ⟨0, _⟩ =>
      show j.val = if n = 1 then 0 else j.val
      split
      · have := j.isLt; omega
      · rfl

/-- The dimension numbers of the host's product of a stack of rows `[A, B, k]` with weights `[n, k]`: the last axis of
    each contracted, no batch axis. -/
abbrev rowsDims (wf : DotDims.WF ⟨3, ![A, B, k]⟩ ⟨2, ![n, k]⟩ ⟨3, ![A, B, n]⟩ [2] [1] [0, 1] [0] [] []) :
    DotDims ⟨3, ![A, B, k]⟩ ⟨2, ![n, k]⟩ ⟨3, ![A, B, n]⟩ := ⟨[2], [1], [0, 1], [0], [], [], wf⟩

theorem rows_lhs0 (wf : DotDims.WF ⟨3, ![A, B, k]⟩ ⟨2, ![n, k]⟩ ⟨3, ![A, B, n]⟩ [2] [1] [0, 1] [0] [] [])
    (i : (⟨3, ![A, B, n]⟩ : Shape).Idx) (q : (rowsDims wf).contr.Idx) : ((rowsDims wf).lhsIdx i q 0).val = (i 0).val := by
  unfold DotDims.lhsIdx
  rw [dif_neg (show ¬(0 : Fin 3) ∈ (rowsDims wf).lhsBatch from List.not_mem_nil),
    dif_pos (show (0 : Fin 3) ∈ (rowsDims wf).lhsNonContracting from List.Mem.head _)]
  rfl
theorem rows_lhs1 (wf : DotDims.WF ⟨3, ![A, B, k]⟩ ⟨2, ![n, k]⟩ ⟨3, ![A, B, n]⟩ [2] [1] [0, 1] [0] [] [])
    (i : (⟨3, ![A, B, n]⟩ : Shape).Idx) (q : (rowsDims wf).contr.Idx) : ((rowsDims wf).lhsIdx i q 1).val = (i 1).val := by
  unfold DotDims.lhsIdx
  rw [dif_neg (show ¬(1 : Fin 3) ∈ (rowsDims wf).lhsBatch from List.not_mem_nil),
    dif_pos (show (1 : Fin 3) ∈ (rowsDims wf).lhsNonContracting from List.Mem.tail _ (List.Mem.head _))]
  rfl
theorem rows_rhs0 (wf : DotDims.WF ⟨3, ![A, B, k]⟩ ⟨2, ![n, k]⟩ ⟨3, ![A, B, n]⟩ [2] [1] [0, 1] [0] [] [])
    (i : (⟨3, ![A, B, n]⟩ : Shape).Idx) (q : (rowsDims wf).contr.Idx) : ((rowsDims wf).rhsIdx i q 0).val = (i 2).val := by
  unfold DotDims.rhsIdx
  rw [dif_neg (show ¬(0 : Fin 2) ∈ (rowsDims wf).rhsBatch from List.not_mem_nil),
    dif_pos (show (0 : Fin 2) ∈ (rowsDims wf).rhsNonContracting from List.Mem.head _)]
  rfl

/-- That product at `(b, p, j)` is the sum over `q` of the row's entry `q` times the weight `(j, q)`. -/
theorem dotGeneral_rows (wf : DotDims.WF ⟨3, ![A, B, k]⟩ ⟨2, ![n, k]⟩ ⟨3, ![A, B, n]⟩ [2] [1] [0, 1] [0] [] [])
    (D : DotDims ⟨3, ![A, B, k]⟩ ⟨2, ![n, k]⟩ ⟨3, ![A, B, n]⟩) (hD : D = rowsDims wf)
    (prec : Option ContractPrecision) (l : FVec Ideal ⟨3, ![A, B, k]⟩ φ₁) (r : FVec Ideal ⟨2, ![n, k]⟩ φ₂)
    (b : Fin A) (p : Fin B) (j : Fin n) :
    Host.dotGeneral D prec l r (ix3 b p j) = ∑ q : Fin k, l (ix3 b p q) * r (ix2 j q) := by
  subst hD
  simp only [Host.dotGeneral]
  rw [Ideal.dotGeneral_apply, ← Equiv.sum_comp (contrEquiv1 (rowsDims wf) k rfl rfl).symm]
  refine Finset.sum_congr rfl fun q _ => ?_
  have hq := contrEquiv1_symm_val (rowsDims wf) k rfl rfl q
  have el : (rowsDims wf).lhsIdx (ix3 b p j) ((contrEquiv1 (rowsDims wf) k rfl rfl).symm q) = ix3 b p q :=
    funext fun ax => Fin.ext (by
      match ax with
      | ⟨0, _⟩ => exact rows_lhs0 wf _ _
      | ⟨1, _⟩ => exact rows_lhs1 wf _ _
      | ⟨2, _⟩ => exact ((rowsDims wf).lhsIdx_val_of_single rfl _ _).trans hq)
  have er : (rowsDims wf).rhsIdx (ix3 b p j) ((contrEquiv1 (rowsDims wf) k rfl rfl).symm q) = ix2 j q :=
    funext fun ax => Fin.ext (by
      match ax with
      | ⟨0, _⟩ => exact rows_rhs0 wf _ _
      | ⟨1, _⟩ => exact ((rowsDims wf).rhsIdx_val_of_single rfl _ _).trans hq)
  rw [el, er]

/-- Row `(b, p)` of the host's layer — that product plus the bias broadcast over the stack — is `lin` of row `(b, p)`
    of the operand. -/
theorem host_dense (wf : DotDims.WF ⟨3, ![A, B, k]⟩ ⟨2, ![n, k]⟩ ⟨3, ![A, B, n]⟩ [2] [1] [0, 1] [0] [] [])
    (D : DotDims ⟨3, ![A, B, k]⟩ ⟨2, ![n, k]⟩ ⟨3, ![A, B, n]⟩) (hD : D = rowsDims wf)
    (prec : Option ContractPrecision) (l : FVec Ideal ⟨3, ![A, B, k]⟩ φ₁) (W : FVec Ideal ⟨2, ![n, k]⟩ φ₂)
    (v : FVec Ideal ⟨1, ![n]⟩ .f32) (h1 : (⟨1, ![n]⟩ : Shape).BroadcastsInDim ⟨3, ![1, 1, n]⟩ ![2])
    (h2 : (⟨3, ![1, 1, n]⟩ : Shape).BroadcastsInDim ⟨3, ![A, B, n]⟩ ![0, 1, 2]) (b : Fin A) (p : Fin B) :
    (fun j : Fin n => addf (Host.dotGeneral D prec l W)
        (broadcastInDim ⟨3, ![A, B, n]⟩ ![0, 1, 2] h2 (broadcastInDim ⟨3, ![1, 1, n]⟩ ![2] h1 v)) (ix3 b p j))
      = lin (fun j q => W (ix2 j q)) (fun j => v (ix1 j)) (fun q => l (ix3 b p q)) := by
  funext j
  show Host.dotGeneral D prec l W (ix3 b p j) + broadcastInDim _ _ h2 _ (ix3 b p j) = _
  rw [dotGeneral_rows wf D hD, bias_stack]
  rfl

/-- Row `(b, p)` of the rectified stack — the maximum with the zero constant broadcast from a scalar — is `relu` of row
    `(b, p)`. -/
theorem host_relu (h : FVec Ideal ⟨3, ![A, B, n]⟩ .f32) (h0 : (⟨0, ![]⟩ : Shape).BroadcastsInDim ⟨3, ![A, B, n]⟩ ![])
    (b : Fin A) (p : Fin B) :
    (fun q : Fin n => maximumf h (broadcastInDim ⟨3, ![A, B, n]⟩ ![] h0 (constant (F := Ideal) ⟨0, ![]⟩ .f32 0x00000000#32)) (ix3 b p q))
      = relu (fun q => h (ix3 b p q)) := rfl

end Host

end Cert.MlpLayer

end
-- ==== Proof.Circuit.lean ====
/-
  The network both programs compute, one input row at a time, on the extended reals.

  A row of 8 reals goes through three dense layers (8 → 128 → 64 → 8, rectifiers between, a hyperbolic tangent and the
  f32 word of π at the end: `embed`), then three times through a circuit layer — every entry `q` rotated to
  `cos (sin (s q + θ q 0) + θ q 1)` (`rot`), then every entry but the last coupled to its right neighbour,
  `u q + sin (u q) · cos (u (q+1)) · θ q 2 · 0.1` (`couple`) —, then through a dense layer with a rectifier, a last dense
  layer and a softmax over the two logits (`head`).  The weights are read off the argument arrays by coordinates (`net`).

  One program multiplies the coupling term of EVERY entry by a 0/1 mask instead of leaving the last entry alone; on the
  extended reals `x · 1 = x`, `x · 0 = 0` and `u + 0 = u` hold without exception, so the two forms agree
  (`couple_masked`).
-/
import Idealize.ShloMosaic.PureOps.Ideal
import Idealize.ShloMosaic.Lib.ValueIdx
import proofs.«113502_j9234179686801_1_alg».proof.Proof.LibMlpLayer

noncomputable section

namespace Cert.Vqc

open Idealize.ShloMosaic Idealize.ShloMosaic.ValueIdx Cert.MlpLayer

/-- The f32 word of π. -/
def piW : EReal := Ideal.ofBits .f32 0x40490FDB#32
/-- The f32 word of 0.1. -/
def tenthW : EReal := Ideal.ofBits .f32 0x3DCCCCCD#32
/-- The f32 word of -∞. -/
def negInfW : EReal := Ideal.ofBits .f32 0xFF800000#32

/-- The rotation of a row: entry `q` becomes `cos (sin (s q + t0 q) + t1 q)`. -/
def rot (t0 t1 s : Fin 8 → EReal) : Fin 8 → EReal :=
  fun q => Ideal.cos (Ideal.sin (s q + t0 q) + t1 q)

/-- The right neighbour of an entry, around the end. -/
def nxt (q : Fin 8) : Fin 8 := ⟨(q.val + 1) % 8, Nat.mod_lt _ (by decide)⟩

/-- The coupling of a row: every entry but the last takes `sin (u q) · cos (u (q+1)) · t2 q · 0.1` on top. -/
def couple (t2 u : Fin 8 → EReal) : Fin 8 → EReal :=
  fun q => if q.val < 7 then u q + Ideal.sin (u q) * Ideal.cos (u (nxt q)) * t2 q * tenthW else u q

/-- One circuit layer with parameters `θ q 0`, `θ q 1`, `θ q 2`. -/
def layer (θ : Fin 8 → Fin 3 → EReal) (s : Fin 8 → EReal) : Fin 8 → EReal :=
  couple (fun q => θ q 2) (rot (fun q => θ q 0) (fun q => θ q 1) s)

/-- The classical front: three dense layers, a hyperbolic tangent, times the word of π. -/
def embed (W1 : Fin 128 → Fin 8 → EReal) (b1 : Fin 128 → EReal) (W2 : Fin 64 → Fin 128 → EReal) (b2 : Fin 64 → EReal)
    (W3 : Fin 8 → Fin 64 → EReal) (b3 : Fin 8 → EReal) (x : Fin 8 → EReal) : Fin 8 → EReal :=
  fun q => Ideal.tanh (lin W3 b3 (relu (lin W2 b2 (relu (lin W1 b1 x)))) q) * piW

/-- The largest logit as both programs compute it: a fold of `max` from -∞, then once more against -∞. -/
def top (z : Fin 2 → EReal) : EReal := max negInfW ((Finset.univ : Finset (Fin 2)).fold max negInfW z)

/-- The softmax of two logits: `exp (z j - top)` over the sum of both. -/
def softmax2 (z : Fin 2 → EReal) : Fin 2 → EReal :=
  fun j => Ideal.div (Ideal.exp (z j - top z)) (∑ k : Fin 2, Ideal.exp (z k - top z))

/-- The output head: a dense layer with a rectifier, a dense layer, the softmax. -/
def head (Wo1 : Fin 32 → Fin 8 → EReal) (bo1 : Fin 32 → EReal) (Wo2 : Fin 2 → Fin 32 → EReal) (bo2 : Fin 2 → EReal)
    (s : Fin 8 → EReal) : Fin 2 → EReal :=
  softmax2 (lin Wo2 bo2 (relu (lin Wo1 bo1 s)))

/-- The whole network on one row, its weights read off the argument arrays by coordinates. -/
def net (x1 : (⟨2, ![8, 128]⟩ : Shape).Idx → EReal) (x2 : (⟨1, ![128]⟩ : Shape).Idx → EReal)
    (x3 : (⟨2, ![128, 64]⟩ : Shape).Idx → EReal) (x4 : (⟨1, ![64]⟩ : Shape).Idx → EReal)
    (x5 : (⟨2, ![64, 8]⟩ : Shape).Idx → EReal) (x6 : (⟨1, ![8]⟩ : Shape).Idx → EReal)
    (x7 : (⟨3, ![3, 8, 3]⟩ : Shape).Idx → EReal)
    (x8 : (⟨2, ![8, 32]⟩ : Shape).Idx → EReal) (x9 : (⟨1, ![32]⟩ : Shape).Idx → EReal)
    (x10 : (⟨2, ![32, 2]⟩ : Shape).Idx → EReal) (x11 : (⟨1, ![2]⟩ : Shape).Idx → EReal)
    (row : Fin 8 → EReal) : Fin 2 → EReal :=
  head (fun j q => x8 (ix2 q j)) (fun j => x9 (ix1 j)) (fun j q => x10 (ix2 q j)) (fun j => x11 (ix1 j))
    (layer (fun q k => x7 (ix3 (2 : Fin 3) q k)) (layer (fun q k => x7 (ix3 (1 : Fin 3) q k)) (layer (fun q k => x7 (ix3 (0 : Fin 3) q k))
      (embed (fun j q => x1 (ix2 q j)) (fun j => x2 (ix1 j)) (fun j q => x3 (ix2 q j)) (fun j => x4 (ix1 j))
        (fun j q => x5 (ix2 q j)) (fun j => x6 (ix1 j)) row))))

/-- The 0/1 mask of the entries that have a right neighbour, as a signed word read as a real. -/
def maskOf (q : Fin 8) : EReal := if q.val < 7 then ((1 : ℝ) : EReal) else ((0 : ℝ) : EReal)

/-- The coupling with the term of EVERY entry multiplied by the mask is the coupling that leaves the last entry alone. -/
theorem couple_masked (t2 u : Fin 8 → EReal) (q : Fin 8) :
    u q + Ideal.sin (u q) * Ideal.cos (u (nxt q)) * t2 q * tenthW * maskOf q = couple t2 u q := by
  unfold couple maskOf
  by_cases h : q.val < 7
  · rw [if_pos h, if_pos h, EReal.coe_one, mul_one]
  · rw [if_neg h, if_neg h, EReal.coe_zero, mul_zero, add_zero]

/-- A layer depends on its parameters and its input row only through their values. -/
theorem layer_congr {θ θ' : Fin 8 → Fin 3 → EReal} {s s' : Fin 8 → EReal} (h1 : θ = θ') (h2 : s = s') :
    layer θ s = layer θ' s' := by subst h1 h2; rfl

end Cert.Vqc

end
-- ==== Proof.NetArray.lean ====
/-
  The result array both programs end with: entry `(r, j)` is entry `j` of the network applied to row `r` of the input array.
-/
import proofs.«113502_j9234179686801_1_alg».proof.Proof.Circuit

noncomputable section

namespace Cert.Vqc

open Idealize.ShloMosaic Idealize.ShloMosaic.ValueIdx

/-- The whole result array as one function of the twelve argument arrays. -/
def G (x0 : (⟨2, ![1048576, 8]⟩ : Shape).Idx → EReal)
    (x1 : (⟨2, ![8, 128]⟩ : Shape).Idx → EReal) (x2 : (⟨1, ![128]⟩ : Shape).Idx → EReal)
    (x3 : (⟨2, ![128, 64]⟩ : Shape).Idx → EReal) (x4 : (⟨1, ![64]⟩ : Shape).Idx → EReal)
    (x5 : (⟨2, ![64, 8]⟩ : Shape).Idx → EReal) (x6 : (⟨1, ![8]⟩ : Shape).Idx → EReal)
    (x7 : (⟨3, ![3, 8, 3]⟩ : Shape).Idx → EReal)
    (x8 : (⟨2, ![8, 32]⟩ : Shape).Idx → EReal) (x9 : (⟨1, ![32]⟩ : Shape).Idx → EReal)
    (x10 : (⟨2, ![32, 2]⟩ : Shape).Idx → EReal) (x11 : (⟨1, ![2]⟩ : Shape).Idx → EReal) :
    (⟨2, ![1048576, 2]⟩ : Shape).Idx → EReal :=
  fun i => net x1 x2 x3 x4 x5 x6 x7 x8 x9 x10 x11 (fun k => x0 (ix2 (i 0) k)) (i 1)

/-- At an index written by coordinates. -/
theorem G_ix2 (x0 : (⟨2, ![1048576, 8]⟩ : Shape).Idx → EReal)
    (x1 : (⟨2, ![8, 128]⟩ : Shape).Idx → EReal) (x2 : (⟨1, ![128]⟩ : Shape).Idx → EReal)
    (x3 : (⟨2, ![128, 64]⟩ : Shape).Idx → EReal) (x4 : (⟨1, ![64]⟩ : Shape).Idx → EReal)
    (x5 : (⟨2, ![64, 8]⟩ : Shape).Idx → EReal) (x6 : (⟨1, ![8]⟩ : Shape).Idx → EReal)
    (x7 : (⟨3, ![3, 8, 3]⟩ : Shape).Idx → EReal)
    (x8 : (⟨2, ![8, 32]⟩ : Shape).Idx → EReal) (x9 : (⟨1, ![32]⟩ : Shape).Idx → EReal)
    (x10 : (⟨2, ![32, 2]⟩ : Shape).Idx → EReal) (x11 : (⟨1, ![2]⟩ : Shape).Idx → EReal) (r : Fin 1048576) (j : Fin 2) :
    G x0 x1 x2 x3 x4 x5 x6 x7 x8 x9 x10 x11 (ix2 r j) = net x1 x2 x3 x4 x5 x6 x7 x8 x9 x10 x11 (fun k => x0 (ix2 r k)) j := rfl

end Cert.Vqc

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.KerEmbed.lean ====
/-
  The kernel's classical front at one row of a block.  Each of the three dense layers is a matrix product of the block
  with the transposed weights into a zero accumulator plus the bias row, read at row `p` as `lin` of row `p` of the
  layer's operand; the rounding of the operands to the narrower format is the identity on the extended reals; the
  maximum with the broadcast zero is `relu`; the hyperbolic tangent and the product with the broadcast word of π are
  taken entry by entry.  Composed from the last layer inwards this is `embed` of row `p` of the input block.
-/
import proofs.«113502_j9234179686801_1_alg».proof.Proof.Gen.KernelIdeal.Skeleton
import proofs.«113502_j9234179686801_1_alg».proof.Proof.Circuit
import proofs.«113502_j9234179686801_1_alg».proof.Proof.LibKeepdims
import proofs.«113502_j9234179686801_1_alg».proof.Proof.LibRank3
import Idealize.ShloMosaic.Lib.ValueLayout
import Idealize.ShloMosaic.Lib.KernelVsHost

noncomputable section

namespace Cert.Vqc.Ker

open Idealize.ShloMosaic Idealize.ShloMosaic.ValueIdx Cert.MlpLayer Cert.Vqc Cert.KernelIdeal Cert.KernelIdeal.Gen

/-- Row `p` of a rectified dense layer of a block `a` — the product with the weights `w` rounded to a narrower format,
    into the zero accumulator, plus the bias row, then the maximum with zero, rounded again — is `relu (lin …)` of
    row `p` of `a`: the roundings are the identity on the extended reals. -/
theorem dense_relu_row {m k n : Nat} {φ₁ ψ ψ' : FTy} (D : DotDims ⟨2, ![m, k]⟩ ⟨2, ![k, n]⟩ ⟨2, ![m, n]⟩) (hD : D = DotDims.plain m k n)
    (a : FVec Ideal ⟨2, ![m, k]⟩ φ₁) (w : FVec Ideal ⟨2, ![k, n]⟩ .f32) (hw : ψ'.bits < FTy.bits .f32)
    (v : FVec Ideal ⟨1, ![n]⟩ .f32) (hc : (⟨1, ![n]⟩ : Shape).ShapeCasts ⟨2, ![1, n]⟩)
    (hb : (⟨2, ![1, n]⟩ : Shape).Broadcasts ⟨2, ![m, n]⟩) (hlt : ψ.bits < FTy.bits .f32) (p : Fin m) :
    (fun q : Fin n => truncf ψ (maximumf (addf (matmul D none a (truncf ψ' w hw) (constant (F := Ideal) ⟨2, ![m, n]⟩ .f32 0x00000000#32))
        (broadcastTo ⟨2, ![m, n]⟩ (shapeCast ⟨2, ![1, n]⟩ v hc) hb)) (broadcast ⟨2, ![m, n]⟩ (Scalar.ofBits (F := Ideal) .f32 0x00000000#32))) hlt (ix2 p q))
      = relu (lin (fun j q => w (ix2 q j)) (fun j => v (ix1 j)) (fun q => a (ix2 p q))) :=
  (kernel_relu _ hlt p).trans (congrArg relu (kernel_dense D hD none a (truncf ψ' w hw) v hc hb p))

/-- Row `p` of the block the kernel computes before the first circuit layer is `embed` of row `p` of the input block. -/
theorem ker_embed (v0 : Vec Ideal S4096x8 .f32) (v1 : Vec Ideal S8x128 .f32) (v5 : Vec Ideal S128 .f32) (v11 : Vec Ideal S128x64 .f32)
    (v15 : Vec Ideal S64 .f32) (v21 : Vec Ideal S64x8 .f32) (v25 : Vec Ideal S8 .f32) (p : Fin 4096) (q : Fin 8) :
    k0_pay2 (F := Ideal) v0 v1 v5 v11 v15 v21 v25 (ix2 p q)
      = embed (fun j k => v1 (ix2 k j)) (fun j => v5 (ix1 j)) (fun j k => v11 (ix2 k j)) (fun j => v15 (ix1 j)) (fun j k => v21 (ix2 k j)) (fun j => v25 (ix1 j)) (fun k => v0 (ix2 p k)) q := by
  unfold k0_pay2 embed
  refine congrArg (fun t => Ideal.tanh t * piW) ?_
  refine (congrFun (kernel_dense dot_S4096x64_S64x8_S4096x8_1_0_0_1_n_n rfl none _ _ v25 _ _ p) q).trans ?_
  refine congrFun (lin_congr rfl rfl ?_) q
  refine (dense_relu_row dot_S4096x128_S128x64_S4096x64_1_0_0_1_n_n rfl _ v11 _ v15 _ _ _ p).trans ?_
  refine congrArg relu (lin_congr rfl rfl ?_)
  exact dense_relu_row dot_S4096x8_S8x128_S4096x128_1_0_0_1_n_n rfl _ v1 _ v5 _ _ _ p

end Cert.Vqc.Ker

end
-- ==== Proof.KerLayers.lean ====
/-
  The kernel's three circuit layers and the head's first dense layer at one row of a block.

  A circuit layer on a block of rows [4096, 8] takes its three parameter columns from a slab [1, 8, 3]: the slab cast to
  [8, 3], column k sliced out as [8, 1], cast to a vector [8], cast to one row [1, 8] and broadcast down the rows, so that
  entry (p, q) of the broadcast reads the slab at (0, q, k).  The layer first rotates every entry,
  u (p, q) = cos (sin (s (p, q) + θ q 0) + θ q 1), then adds to every entry the term
  sin (u (p, q)) · cos (roll u (p, q)) · θ q 2 · 0.1 · mask (p, q), where the roll is a rotation by 7 along the columns of
  width 8 — entry (p, q) reads u (p, (q + 1) mod 8), the right neighbour around the end — and the mask is the signed word of
  the comparison "column index < 7" read as a real: 1 on columns 0 … 6 and 0 on column 7.  On the extended reals
  x · 1 = x, x · 0 = 0 and u + 0 = u, so row p of the layer's output is the row-level layer (rotation, then coupling of every entry but
  the last to its right neighbour) of row p of its input.  Three layers in turn, then a dense layer — the
  matrix product of the block with the weights [8, 32] into a zero accumulator (the narrowing of both operands is the
  identity on extended reals), plus the bias vector cast to one row and broadcast down the rows — and the maximum with a
  broadcast zero: row p of the result is the rectifier of the affine layer of the third circuit layer's row p.
-/
import proofs.«113502_j9234179686801_1_alg».proof.Proof.Gen.KernelIdeal.Skeleton
import proofs.«113502_j9234179686801_1_alg».proof.Proof.Circuit
import proofs.«113502_j9234179686801_1_alg».proof.Proof.LibKeepdims
import proofs.«113502_j9234179686801_1_alg».proof.Proof.LibRank3
import Idealize.ShloMosaic.Lib.ValueLayout
import Idealize.ShloMosaic.Lib.KernelVsHost

noncomputable section

namespace Cert.Vqc.Ker

open Idealize.ShloMosaic Idealize.ShloMosaic.ValueIdx Cert.MlpLayer Cert.Vqc Cert.KernelIdeal Cert.KernelIdeal.Gen

/-! ## The printed operations as functions of whole blocks -/

/-- A vector of 8 cast to one row and broadcast down the 4096 rows. -/
def bRow (t : FVec Ideal S8 .f32) : FVec Ideal S4096x8 .f32 :=
  broadcastTo S4096x8 (shapeCast S1x8 t shapeCasts_S8_S1x8) broadcasts_S1x8_S4096x8

/-- The rotation of every entry of a block: cos (sin (s + row t0) + row t1). -/
def kRot (s : FVec Ideal S4096x8 .f32) (t0 t1 : FVec Ideal S8 .f32) : FVec Ideal S4096x8 .f32 :=
  cos (addf (sin (addf s (bRow t0))) (bRow t1))

/-- The mask of the columns that have a right neighbour: the comparison "column index < 7", widened and read as a real. -/
def kMask : FVec Ideal S4096x8 .f32 :=
  sitofp .f32 (extui 32 (cmpi .slt (iota .tc S4096x8 32 [1] iota_S4096x8_d1_w32) (broadcast S4096x8 7#32)) natLt_1_32)

/-- The rotation of a block by 7 along its columns. -/
def kRoll (u : FVec Ideal S4096x8 .f32) : FVec Ideal S4096x8 .f32 :=
  dynamicRotate 1 7#32 none u rotates_S4096x8_d1

/-- The coupling of every entry of a block: u + sin u · cos (roll u) · row t2 · 0.1 · mask. -/
def kCouple (u : FVec Ideal S4096x8 .f32) (t2 : FVec Ideal S8 .f32) : FVec Ideal S4096x8 .f32 :=
  addf u (mulf (mulf (mulf (mulf (sin u) (cos (kRoll u))) (bRow t2))
    (broadcast S4096x8 (Scalar.ofBits (F := Ideal) .f32 0x3DCCCCCD#32))) kMask)

/-- A parameter slab with its unit axis dropped. -/
def slab (θ : Vec Ideal S1x8x3 .f32) : FVec Ideal S8x3 .f32 := shapeCast S8x3 θ shapeCasts_S1x8x3_S8x3

/-- Column 0 of a slab, as a vector. -/
def col0 (m : FVec Ideal S8x3 .f32) : FVec Ideal S8 .f32 :=
  shapeCast S8 (extractStridedSlice S8x1 ![0, 0] m slices_S8x3_o0_0_S8x1) shapeCasts_S8x1_S8
/-- Column 1 of a slab, as a vector. -/
def col1 (m : FVec Ideal S8x3 .f32) : FVec Ideal S8 .f32 :=
  shapeCast S8 (extractStridedSlice S8x1 ![0, 1] m slices_S8x3_o0_1_S8x1) shapeCasts_S8x1_S8
/-- Column 2 of a slab, as a vector. -/
def col2 (m : FVec Ideal S8x3 .f32) : FVec Ideal S8 .f32 :=
  shapeCast S8 (extractStridedSlice S8x1 ![0, 2] m slices_S8x3_o0_2_S8x1) shapeCasts_S8x1_S8

/-- One circuit layer on a block: the rotation by columns 0 and 1 of the slab, then the coupling by column 2. -/
def kLayer (s : FVec Ideal S4096x8 .f32) (θ : Vec Ideal S1x8x3 .f32) : FVec Ideal S4096x8 .f32 :=
  kCouple (kRot s (col0 (slab θ)) (col1 (slab θ))) (col2 (slab θ))

/-- The dense layer on a block: the product with the weights into the zero accumulator, plus the bias row, and the
    maximum with a broadcast zero. -/
def kDense (x : FVec Ideal S4096x8 .f32) (v128 : Vec Ideal S8x32 .f32) (v132 : Vec Ideal S32 .f32) : FVec Ideal S4096x32 .f32 :=
  maximumf
    (addf (matmul dot_S4096x8_S8x32_S4096x32_1_0_0_1_n_n none (truncf .bf16 x bitsLt_bf16_f32) (truncf .bf16 v128 bitsLt_bf16_f32)
        (constant S4096x32 .f32 0x00000000#32))
      (broadcastTo S4096x32 (shapeCast S1x32 v132 shapeCasts_S32_S1x32) broadcasts_S1x32_S4096x32))
    (broadcast S4096x32 (Scalar.ofBits (F := Ideal) .f32 0x00000000#32))

/-! ## Each of them read at an entry -/

/-- The broadcast row reads, at (p, q), the vector at q. -/
theorem bRow_apply (t : FVec Ideal S8 .f32) (p : Fin 4096) (q : Fin 8) : bRow t (ix2 p q) = t (ix1 q) :=
  bias_rows t shapeCasts_S8_S1x8 broadcasts_S1x8_S4096x8 p q

/-- The rotation at (p, q). -/
theorem kRot_apply (s : FVec Ideal S4096x8 .f32) (t0 t1 : FVec Ideal S8 .f32) (p : Fin 4096) (q : Fin 8) :
    kRot s t0 t1 (ix2 p q) = Ideal.cos (Ideal.sin (s (ix2 p q) + t0 (ix1 q)) + t1 (ix1 q)) := by
  show Ideal.cos (Ideal.sin (s (ix2 p q) + bRow t0 (ix2 p q)) + bRow t1 (ix2 p q)) = _
  rw [bRow_apply, bRow_apply]

/-- The comparison "q < 7" on 32-bit words, widened from one bit and read signed: 1 below 7, else 0. -/
theorem mask_word : ∀ q : Fin 8,
    (BitVec.setWidth 32 (IntOp.cmpi .slt (BitVec.ofNat 32 q.val) 7#32)).toInt = if q.val < 7 then 1 else 0 := by
  decide

/-- The mask at (p, q) is 1 on the columns below 7 and 0 on the last. -/
theorem kMask_apply (p : Fin 4096) (q : Fin 8) : kMask (ix2 p q) = maskOf q := by
  show (((BitVec.setWidth 32 (IntOp.cmpi .slt (iota .tc S4096x8 32 [1] iota_S4096x8_d1_w32 (ix2 p q)) 7#32)).toInt : ℝ) : EReal) = _
  rw [iota_single_apply]
  show (((BitVec.setWidth 32 (IntOp.cmpi .slt (BitVec.ofNat 32 q.val) 7#32)).toInt : ℝ) : EReal) = _
  rw [mask_word]
  unfold maskOf
  by_cases h : q.val < 7
  · rw [if_pos h, if_pos h, Int.cast_one]
  · rw [if_neg h, if_neg h, Int.cast_zero]

/-- The rotation by 7 along 8 columns reads, at (p, q), the right neighbour (p, (q + 1) mod 8). -/
theorem kRoll_apply (u : FVec Ideal S4096x8 .f32) (p : Fin 4096) (q : Fin 8) : kRoll u (ix2 p q) = u (ix2 p (nxt q)) := by
  unfold kRoll
  refine dynamicRotate_apply _ _ u rotates_S4096x8_d1 (ix2 p q) (ix2 p (nxt q)) fun b => ?_
  match b with
  | ⟨0, _⟩ => exact (if_neg fun h => Nat.zero_ne_one (congrArg Fin.val h)).symm
  | ⟨1, _⟩ =>
    refine Eq.trans ?_ (if_pos (Fin.ext rfl)).symm
    show (q.val + 1) % 8 = (q.val + 8 - 7 % 8) % 8
    omega

/-- The coupling at (p, q) is the row-level coupling of row p at q: the masked term is the term of every entry but the last. -/
theorem kCouple_apply (u : FVec Ideal S4096x8 .f32) (t2 : FVec Ideal S8 .f32) (p : Fin 4096) (q : Fin 8) :
    kCouple u t2 (ix2 p q) = couple (fun q => t2 (ix1 q)) (fun q => u (ix2 p q)) q := by
  refine Eq.trans ?_ (couple_masked (fun q => t2 (ix1 q)) (fun q => u (ix2 p q)) q)
  show u (ix2 p q) + Ideal.sin (u (ix2 p q)) * Ideal.cos (kRoll u (ix2 p q)) * bRow t2 (ix2 p q) * tenthW * kMask (ix2 p q) = _
  rw [kRoll_apply, bRow_apply, kMask_apply]

/-- The slab without its unit axis reads, at (q, k), the slab at (0, q, k). -/
theorem slab_apply (θ : Vec Ideal S1x8x3 .f32) (q : Fin 8) (k : Fin 3) : slab θ (ix2 q k) = θ (ix3 (0 : Fin 1) q k) :=
  shapeCast_1ab_ab_apply θ shapeCasts_S1x8x3_S8x3 q k

/-- Column o of a matrix [8, 3], sliced out as [8, 1] and cast to a vector, reads at q the matrix at (q, o). -/
theorem col_apply (m : FVec Ideal S8x3 .f32) (o : Nat) (hs : S8x3.Slices ![0, o] S8x1) (hc : S8x1.ShapeCasts S8)
    (q : Fin 8) (k : Fin 3) (hk : k.val = o) :
    shapeCast S8 (extractStridedSlice S8x1 ![0, o] m hs) hc (ix1 q) = m (ix2 q k) := by
  refine (shapeCast_apply _ hc (ix1 q) (ix2 q (0 : Fin 1)) ?_).trans ?_
  · rw [Shape.rowMajor_val_two, Shape.rowMajor_val_one]
    show q.val * 1 + 0 = q.val
    omega
  · refine extractStridedSlice_apply _ m hs _ _ fun ax => ?_
    match ax with
    | ⟨0, _⟩ => show q.val = 0 + q.val; omega
    | ⟨1, _⟩ => show k.val = o + 0; omega

theorem col0_apply (θ : Vec Ideal S1x8x3 .f32) (q : Fin 8) : col0 (slab θ) (ix1 q) = θ (ix3 (0 : Fin 1) q 0) :=
  (col_apply (slab θ) 0 slices_S8x3_o0_0_S8x1 shapeCasts_S8x1_S8 q 0 rfl).trans (slab_apply θ q 0)
theorem col1_apply (θ : Vec Ideal S1x8x3 .f32) (q : Fin 8) : col1 (slab θ) (ix1 q) = θ (ix3 (0 : Fin 1) q 1) :=
  (col_apply (slab θ) 1 slices_S8x3_o0_1_S8x1 shapeCasts_S8x1_S8 q 1 rfl).trans (slab_apply θ q 1)
theorem col2_apply (θ : Vec Ideal S1x8x3 .f32) (q : Fin 8) : col2 (slab θ) (ix1 q) = θ (ix3 (0 : Fin 1) q 2) :=
  (col_apply (slab θ) 2 slices_S8x3_o0_2_S8x1 shapeCasts_S8x1_S8 q 2 rfl).trans (slab_apply θ q 2)

/-! ## A row of a layer, and of the dense layer -/

/-- Row p of a circuit layer on a block is the row-level layer, with the slab's parameters, of row p of the block. -/
theorem kLayer_row (s : FVec Ideal S4096x8 .f32) (θ : Vec Ideal S1x8x3 .f32) (p : Fin 4096) :
    (fun q : Fin 8 => kLayer s θ (ix2 p q)) = layer (fun q k => θ (ix3 (0 : Fin 1) q k)) (fun q => s (ix2 p q)) := by
  have h2 : (fun q : Fin 8 => col2 (slab θ) (ix1 q)) = fun q => θ (ix3 (0 : Fin 1) q 2) := funext fun q => col2_apply θ q
  have hr : (fun q : Fin 8 => kRot s (col0 (slab θ)) (col1 (slab θ)) (ix2 p q))
      = rot (fun q => θ (ix3 (0 : Fin 1) q 0)) (fun q => θ (ix3 (0 : Fin 1) q 1)) (fun q => s (ix2 p q)) :=
    funext fun q => by rw [kRot_apply, col0_apply, col1_apply]; rfl
  funext q
  exact (kCouple_apply _ _ p q).trans (congrFun (congrArg₂ couple h2 hr) q)

/-- Row p of the dense layer on a block is the rectifier of the affine layer of row p of the block. -/
theorem kDense_row (x : FVec Ideal S4096x8 .f32) (v128 : Vec Ideal S8x32 .f32) (v132 : Vec Ideal S32 .f32) (p : Fin 4096) :
    (fun j : Fin 32 => kDense x v128 v132 (ix2 p j))
      = relu (lin (fun j k => v128 (ix2 k j)) (fun j => v132 (ix1 j)) (fun q => x (ix2 p q))) := by
  have h := kernel_dense dot_S4096x8_S8x32_S4096x32_1_0_0_1_n_n rfl none (truncf .bf16 x bitsLt_bf16_f32)
    (truncf .bf16 v128 bitsLt_bf16_f32) v132 shapeCasts_S32_S1x32 broadcasts_S1x32_S4096x32 p
  funext j
  exact congrFun (congrArg relu h) j

/-! ## The payloads -/

/-- Row `p` of the rectified block the kernel feeds its last dense layer: three circuit layers (parameter slabs `a`, `b`, `c`,
    each a `[1, 8, 3]` block) on row `p` of the state `s`, then the dense layer `v128`, `v132` and the rectifier. -/
theorem ker_layers (s : FVec Ideal S4096x8 .f32) (a b c : Vec Ideal S1x8x3 .f32) (v128 : Vec Ideal S8x32 .f32) (v132 : Vec Ideal S32 .f32)
    (p : Fin 4096) (j : Fin 32) :
    k0_pay12 (F := Ideal) (k0_pay8 s (k0_pay4 a) (k0_pay5 a) (k0_pay6 a) b) (k0_pay9 (F := Ideal))
        (k0_pay10 s (k0_pay4 a) (k0_pay5 a) (k0_pay6 a) b) (k0_pay11 b) c v128 v132 (ix2 p j)
      = relu (lin (fun j k => v128 (ix2 k j)) (fun j => v132 (ix1 j))
          (layer (fun q k => c (ix3 (0 : Fin 1) q k)) (layer (fun q k => b (ix3 (0 : Fin 1) q k)) (layer (fun q k => a (ix3 (0 : Fin 1) q k))
            (fun q => s (ix2 p q)))))) j := by
  have h : k0_pay12 (F := Ideal) (k0_pay8 s (k0_pay4 a) (k0_pay5 a) (k0_pay6 a) b) (k0_pay9 (F := Ideal))
        (k0_pay10 s (k0_pay4 a) (k0_pay5 a) (k0_pay6 a) b) (k0_pay11 b) c v128 v132
      = kDense (kLayer (kLayer (kLayer s a) b) c) v128 v132 := rfl
  have e1 := kLayer_row s a p
  have e2 := (kLayer_row (kLayer s a) b p).trans (congrArg (layer _) e1)
  have e3 := (kLayer_row (kLayer (kLayer s a) b) c p).trans (congrArg (layer _) e2)
  exact (congrFun h (ix2 p j)).trans
    ((congrFun (kDense_row _ v128 v132 p) j).trans (congrFun (congrArg relu (congrArg (lin _ _) e3)) j))

end Cert.Vqc.Ker

end
-- ==== Proof.KerSoftmax.lean ====
/-
  The kernel's last dense layer and softmax at one row of a block.  The logits are the matrix product of the block
  with the transposed weights into a zero accumulator plus the bias row: at row `p`, `lin` of row `p` of the operand
  (the rounding of the operands is the identity on the extended reals).  The maximum over the last axis from the
  accumulator -∞ is the fold of `max` over the row's entries, taken once more against the broadcast -∞ (`top`); cast to a
  column and broadcast along the rows it is subtracted from every logit; the exponentials are summed over the last
  axis (the `Fin`-indexed sum of the row), the sum cast and broadcast the same way, and every exponential divided by
  it: `softmax2` of the row of logits.
-/
import proofs.«113502_j9234179686801_1_alg».proof.Proof.Gen.KernelIdeal.Skeleton
import proofs.«113502_j9234179686801_1_alg».proof.Proof.Circuit
import proofs.«113502_j9234179686801_1_alg».proof.Proof.LibKeepdims
import proofs.«113502_j9234179686801_1_alg».proof.Proof.LibRank3
import Idealize.ShloMosaic.Lib.ValueLayout
import Idealize.ShloMosaic.Lib.KernelVsHost

noncomputable section

namespace Cert.Vqc.Ker

open Idealize.ShloMosaic Idealize.ShloMosaic.ValueIdx Cert.MlpLayer Cert.Vqc Cert.KernelIdeal Cert.KernelIdeal.Gen

/-- The sum of a matrix over its last axis, cast to a column and broadcast along the rows, reads at `(p, j)` the sum of
    row `p`. -/
theorem sum_bcast {a b : Nat} (E : FVec Ideal ⟨2, ![a, b]⟩ .f32) (hr : (⟨2, ![a, b]⟩ : Shape).Reduces [1] ⟨1, ![a]⟩)
    (hφ : FKind.Formats .f32) (hadd : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩) (p : Fin a) (j : Fin b) :
    broadcastTo ⟨2, ![a, b]⟩ (shapeCast ⟨2, ![a, 1]⟩ (multiReduction .add [1] ⟨1, ![a]⟩ E 0x00000000#32 hr hφ hadd) hc) hb (ix2 p j)
      = ∑ k : Fin b, E (ix2 p k) :=
  (Cert.LibKeepdims.broadcastTo_a1_ab_apply _ hb p j).trans
    ((Cert.LibKeepdims.shapeCast_a_a1_apply _ hc p 0).trans (Cert.LibRank3.sum_last2 E _ hr hφ hadd p))

/-- The maximum of a two-column matrix over its last axis from -∞, taken once more against the broadcast -∞, cast to a
    column and broadcast along the rows, reads at `(p, j)` the `top` of row `p`. -/
theorem max_bcast {a : Nat} (L : FVec Ideal ⟨2, ![a, 2]⟩ .f32) (hr : (⟨2, ![a, 2]⟩ : Shape).Reduces [1] ⟨1, ![a]⟩)
    (hφ : FKind.Formats .f32) (hmax : (0xFF800000#32 : BitVec (FTy.bits .f32)) = FKind.maximumf.neutral .f32 hφ)
    (hc : (⟨1, ![a]⟩ : Shape).ShapeCasts ⟨2, ![a, 1]⟩) (hb : (⟨2, ![a, 1]⟩ : Shape).Broadcasts ⟨2, ![a, 2]⟩) (p : Fin a) (j : Fin 2) :
    broadcastTo ⟨2, ![a, 2]⟩ (shapeCast ⟨2, ![a, 1]⟩ (maximumf (broadcast ⟨1, ![a]⟩ (Scalar.ofBits (F := Ideal) .f32 0xFF800000#32))
        (multiReduction .maximumf [1] ⟨1, ![a]⟩ L 0xFF800000#32 hr hφ hmax)) hc) hb (ix2 p j)
      = top (fun k => L (ix2 p k)) :=
  (Cert.LibKeepdims.broadcastTo_a1_ab_apply _ hb p j).trans
    ((Cert.LibKeepdims.shapeCast_a_a1_apply _ hc p 0).trans
      (congrArg (max negInfW) (Cert.LibRank3.max_last2 L _ hr hφ hmax p)))

/-- Exponentials of a matrix less a matrix `M` whose row `p` is constantly `t`, each divided by the broadcast sum of its
    row: at `(p, j)`, `exp (L (p, j) - t)` over the sum of the `exp (L (p, k) - t)`. -/
theorem exp_div_row {a b : Nat} (L M : FVec Ideal ⟨2, ![a, b]⟩ .f32) (hr : (⟨2, ![a, b]⟩ : Shape).Reduces [1] ⟨1, ![a]⟩)
    (hφ : FKind.Formats .f32) (hadd : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩) (p : Fin a)
    (t : EReal) (hM : ∀ k : Fin b, M (ix2 p k) = t) (j : Fin b) :
    divf (exp (subf L M))
        (broadcastTo ⟨2, ![a, b]⟩ (shapeCast ⟨2, ![a, 1]⟩ (multiReduction .add [1] ⟨1, ![a]⟩ (exp (subf L M)) 0x00000000#32 hr hφ hadd) hc) hb) (ix2 p j)
      = Ideal.div (Ideal.exp (L (ix2 p j) - t)) (∑ k : Fin b, Ideal.exp (L (ix2 p k) - t)) := by
  show Ideal.div (Ideal.exp (L (ix2 p j) - M (ix2 p j))) (broadcastTo ⟨2, ![a, b]⟩ _ hb (ix2 p j)) = _
  rw [sum_bcast (exp (subf L M)) hr hφ hadd hc hb p j, hM j]
  refine congrArg (Ideal.div _) (Finset.sum_congr rfl fun k _ => ?_)
  show Ideal.exp (L (ix2 p k) - M (ix2 p k)) = _
  rw [hM k]

/-- Row `p` of the block the kernel stores is the softmax of the last dense layer of row `p` of the rectified block `z`. -/
theorem ker_softmax (z : FVec Ideal S4096x32 .f32) (v138 : Vec Ideal S32x2 .f32) (v142 : Vec Ideal S2 .f32) (p : Fin 4096) (j : Fin 2) :
    k0_pay1 (F := Ideal) z v138 v142 (ix2 p j)
      = softmax2 (lin (fun j k => v138 (ix2 k j)) (fun j => v142 (ix1 j)) (fun k => z (ix2 p k))) j := by
  unfold k0_pay1
  refine (exp_div_row _ _ reduces_S4096x2_S4096 _ _ shapeCasts_S4096_S4096x1 broadcasts_S4096x1_S4096x2 p _
    (fun k => max_bcast _ reduces_S4096x2_S4096 _ _ shapeCasts_S4096_S4096x1 broadcasts_S4096x1_S4096x2 p k) j).trans ?_
  refine congrFun (congrArg softmax2 ?_) j
  exact kernel_dense dot_S4096x32_S32x2_S4096x2_1_0_0_1_n_n rfl none _ _ v142 _ _ p

end Cert.Vqc.Ker

end
-- ==== Proof.KerNet.lean ====
/-
  What the kernel's body leaves in its output block, at one row.

  The body loads every operand whole (each parameter slab through its own rectangle of the stacked parameter array),
  computes the classical front, the three circuit layers with the head's first dense layer, and the last dense layer with
  the softmax, and stores the result through the whole output block; so the block it leaves is the last payload of the
  loaded values.  Row `p` of it is the network on row `p` of the input block: the three row-level readings of the payloads
  composed, with slab `c` of the parameters read at `(c, q, k)`.
-/
import proofs.«113502_j9234179686801_1_alg».proof.Proof.Gen.KernelIdeal.Frame
import proofs.«113502_j9234179686801_1_alg».proof.Proof.NetArray
import proofs.«113502_j9234179686801_1_alg».proof.Proof.KerEmbed
import proofs.«113502_j9234179686801_1_alg».proof.Proof.KerLayers
import proofs.«113502_j9234179686801_1_alg».proof.Proof.KerSoftmax
import Idealize.ShloMosaic.Lib.Pipeline.Value

noncomputable section

namespace Cert.Vqc.Ker

open Idealize.ShloMosaic Idealize.ShloMosaic.ValueIdx Cert.MlpLayer Cert.Vqc Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

/-- Slab `c` of the parameter array, loaded through the unit-stride rectangle at `(c, 0, 0)` of extents `(1, 8, 3)`, reads at
    `(0, q, k)` the array at `(c, q, k)`. -/
theorem ld_slab (x7 : Vec Ideal S3x8x3 .f32) (c : Nat) (inb : ∀ ax, (![c, 0, 0] : Fin 3 → Nat) ax + S1x8x3.size ax ≤ S3x8x3.size ax)
    (q : Fin 8) (k : Fin 3) :
    View.ld x7 (Rect.unit (s := S3x8x3) ![c, 0, 0] S1x8x3.size inb) (ix3 (0 : Fin 1) q k) = x7 (ix3 (⟨c, by have := inb 0; simpa using this⟩ : Fin 3) q k) := by
  refine congrArg x7 (funext fun ax => Fin.ext ?_)
  match ax with
  | ⟨0, _⟩ => show c + 1 * 0 = c; omega
  | ⟨1, _⟩ => show 0 + 1 * q.val = q.val; omega
  | ⟨2, _⟩ => show 0 + 1 * k.val = k.val; omega

/-- What the body leaves in the output block, at row `p`: the network on row `p` of the input block. -/
theorem ker_net (x0 : Vec Ideal S4096x8 .f32) (x1 : Vec Ideal S8x128 .f32) (x2 : Vec Ideal S128 .f32) (x3 : Vec Ideal S128x64 .f32) (x4 : Vec Ideal S64 .f32) (x5 : Vec Ideal S64x8 .f32) (x6 : Vec Ideal S8 .f32) (x7 : Vec Ideal S3x8x3 .f32) (x8 : Vec Ideal S8x32 .f32) (x9 : Vec Ideal S32 .f32) (x10 : Vec Ideal S32x2 .f32) (x11 : Vec Ideal S2 .f32) (p : Fin 4096) (j : Fin 2) :
    out0_12 x0 x1 x2 x3 x4 x5 x6 x7 x8 x9 x10 x11 (ix2 p j) = net x1 x2 x3 x4 x5 x6 x7 x8 x9 x10 x11 (fun k => x0 (ix2 p k)) j := by
  unfold out0_12
  rw [View.canon_unit_zero hz2]
  simp only [View.ld_unit_zero (S := S4096x8) hz2, View.ld_unit_zero (S := S8x128) hz2, View.ld_unit_zero (S := S128) hz1,
    View.ld_unit_zero (S := S128x64) hz2, View.ld_unit_zero (S := S64) hz1, View.ld_unit_zero (S := S64x8) hz2,
    View.ld_unit_zero (S := S8) hz1, View.ld_unit_zero (S := S8x32) hz2, View.ld_unit_zero (S := S32) hz1,
    View.ld_unit_zero (S := S32x2) hz2, View.ld_unit_zero (S := S2) hz1]
  refine (ker_softmax _ x10 x11 p j).trans ?_
  unfold net head
  refine congrArg (fun z => softmax2 (lin (fun j k => x10 (ix2 k j)) (fun j => x11 (ix1 j)) z) j) (funext fun k => ?_)
  refine (ker_layers (k0_pay2 x0 x1 x2 x3 x4 x5 x6) (View.ld x7 r0_7) (View.ld x7 r0_8) (View.ld x7 r0_9) x8 x9 p k).trans ?_
  have e0 : (fun (q : Fin 8) (k : Fin 3) => View.ld x7 r0_7 (ix3 (0 : Fin 1) q k)) = fun q k => x7 (ix3 (0 : Fin 3) q k) :=
    funext fun q => funext fun k => ld_slab x7 0 _ q k
  have e1 : (fun (q : Fin 8) (k : Fin 3) => View.ld x7 r0_8 (ix3 (0 : Fin 1) q k)) = fun q k => x7 (ix3 (1 : Fin 3) q k) :=
    funext fun q => funext fun k => ld_slab x7 1 _ q k
  have e2 : (fun (q : Fin 8) (k : Fin 3) => View.ld x7 r0_9 (ix3 (0 : Fin 1) q k)) = fun q k => x7 (ix3 (2 : Fin 3) q k) :=
    funext fun q => funext fun k => ld_slab x7 2 _ q k
  have ee : (fun q : Fin 8 => k0_pay2 (F := Ideal) x0 x1 x2 x3 x4 x5 x6 (ix2 p q))
      = embed (fun j k => x1 (ix2 k j)) (fun j => x2 (ix1 j)) (fun j k => x3 (ix2 k j)) (fun j => x4 (ix1 j)) (fun j k => x5 (ix2 k j)) (fun j => x6 (ix1 j)) (fun k => x0 (ix2 p k)) :=
    funext fun q => ker_embed x0 x1 x2 x3 x4 x5 x6 p q
  rw [e0, e1, e2, ee]

end Cert.Vqc.Ker

end
-- ==== Proof.KerArray.lean ====
/-
  From the blocks to the result array, and the kernel's run read.

  The grid has 256 points; at point `t` the input window holds rows `4096 t … 4096 t + 4095` of the input array, every
  other input window holds its whole array (its block index is 0 on every axis, decided over the grid), and the output
  window writes back rows `4096 t … 4096 t + 4095` of the result array.  What point `t` writes back is therefore block `t`
  of ONE function of the argument arrays, the network applied row by row; the 256 blocks cover the result array (row `r`
  lies in block `r / 4096`), so after the run the result array is that function, and the arguments are as launched.
-/
import proofs.«113502_j9234179686801_1_alg».proof.Proof.Gen.KernelIdeal.Value
import proofs.«113502_j9234179686801_1_alg».proof.Proof.NetArray
import proofs.«113502_j9234179686801_1_alg».proof.Proof.KerNet
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Vqc.Ker

open Idealize.ShloMosaic.ValueIdx Cert.MlpLayer Cert.Vqc Cert.KernelIdeal Cert.KernelIdeal.Gen

variable (m : (ℓ : Loc nD τ sig) → Buf (Elt Ideal) ℓ) (ρ : Dev nD → PrngReg)

/-- The printed index maps, decided over the 256 grid points: the input rows' window and the output's move with the point,
    every other window stays on block 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = t.val
    ∧ win0_12.index t (1 : Fin 2) = 0 :=
  (by decide +kernel : ∀ t : Fin grid0.N, _)

/-- Window 1 stays on block 0 of its array, which is the whole array. -/
theorem iblk_1 (c : Dev nD) (t : Fin cfg0.N) : (iblk m c 1 t : Vec Ideal S8x128 .f32) = V m c main_arg1 := by
  have h := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 8 + 1 * (y 0).val = (y 0).val; rw [h.2.2.1]; omega
  | ⟨1, _⟩ => show win0_1.index t (1 : Fin 2) * 128 + 1 * (y 1).val = (y 1).val; rw [h.2.2.2.1]; omega

/-- Window 2 stays on block 0 of its array, which is the whole array. -/
theorem iblk_2 (c : Dev nD) (t : Fin cfg0.N) : (iblk m c 2 t : Vec Ideal S128 .f32) = V m c main_arg2 := by
  have h := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 128 + 1 * (y 0).val = (y 0).val; rw [h.2.2.2.2.1]; omega

/-- Window 3 stays on block 0 of its array, which is the whole array. -/
theorem iblk_3 (c : Dev nD) (t : Fin cfg0.N) : (iblk m c 3 t : Vec Ideal S128x64 .f32) = V m c main_arg3 := by
  have h := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; rw [h.2.2.2.2.2.1]; omega
  | ⟨1, _⟩ => show win0_3.index t (1 : Fin 2) * 64 + 1 * (y 1).val = (y 1).val; rw [h.2.2.2.2.2.2.1]; omega

/-- Window 4 stays on block 0 of its array, which is the whole array. -/
theorem iblk_4 (c : Dev nD) (t : Fin cfg0.N) : (iblk m c 4 t : Vec Ideal S64 .f32) = V m c main_arg4 := by
  have h := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 64 + 1 * (y 0).val = (y 0).val; rw [h.2.2.2.2.2.2.2.1]; omega

/-- Window 5 stays on block 0 of its array, which is the whole array. -/
theorem iblk_5 (c : Dev nD) (t : Fin cfg0.N) : (iblk m c 5 t : Vec Ideal S64x8 .f32) = V m c main_arg5 := by
  have h := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 64 + 1 * (y 0).val = (y 0).val; rw [h.2.2.2.2.2.2.2.2.1]; omega
  | ⟨1, _⟩ => show win0_5.index t (1 : Fin 2) * 8 + 1 * (y 1).val = (y 1).val; rw [h.2.2.2.2.2.2.2.2.2.1]; omega

/-- Window 6 stays on block 0 of its array, which is the whole array. -/
theorem iblk_6 (c : Dev nD) (t : Fin cfg0.N) : (iblk m c 6 t : Vec Ideal S8 .f32) = V m c main_arg6 := by
  have h := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 8 + 1 * (y 0).val = (y 0).val; rw [h.2.2.2.2.2.2.2.2.2.2.1]; omega

/-- Window 7 stays on block 0 of its array, which is the whole array. -/
theorem iblk_7 (c : Dev nD) (t : Fin cfg0.N) : (iblk m c 7 t : Vec Ideal S3x8x3 .f32) = V m c main_arg7 := by
  have h := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 3) * 3 + 1 * (y 0).val = (y 0).val; rw [h.2.2.2.2.2.2.2.2.2.2.2.1]; omega
  | ⟨1, _⟩ => show win0_7.index t (1 : Fin 3) * 8 + 1 * (y 1).val = (y 1).val; rw [h.2.2.2.2.2.2.2.2.2.2.2.2.1]; omega
  | ⟨2, _⟩ => show win0_7.index t (2 : Fin 3) * 3 + 1 * (y 2).val = (y 2).val; rw [h.2.2.2.2.2.2.2.2.2.2.2.2.2.1]; omega

/-- Window 8 stays on block 0 of its array, which is the whole array. -/
theorem iblk_8 (c : Dev nD) (t : Fin cfg0.N) : (iblk m c 8 t : Vec Ideal S8x32 .f32) = V m c main_arg8 := by
  have h := idx_facts t
  funext y
  show V m c main_arg8 (((cfg0.win 8).blk t).view.emb y) = V m c main_arg8 y
  refine congrArg (V m c main_arg8) (funext fun a => Fin.ext ?_)
  match a with
  | ⟨0, _⟩ => show win0_8.index t (0 : Fin 2) * 8 + 1 * (y 0).val = (y 0).val; rw [h.2.2.2.2.2.2.2.2.2.2.2.2.2.2.1]; omega
  | ⟨1, _⟩ => show win0_8.index t (1 : Fin 2) * 32 + 1 * (y 1).val = (y 1).val; rw [h.2.2.2.2.2.2.2.2.2.2.2.2.2.2.2.1]; omega

/-- Window 9 stays on block 0 of its array, which is the whole array. -/
theorem iblk_9 (c : Dev nD) (t : Fin cfg0.N) : (iblk m c 9 t : Vec Ideal S32 .f32) = V m c main_arg9 := by
  have h := idx_facts t
  funext y
  show V m c main_arg9 (((cfg0.win 9).blk t).view.emb y) = V m c main_arg9 y
  refine congrArg (V m c main_arg9) (funext fun a => Fin.ext ?_)
  match a with
  | ⟨0, _⟩ => show win0_9.index t (0 : Fin 1) * 32 + 1 * (y 0).val = (y 0).val; rw [h.2.2.2.2.2.2.2.2.2.2.2.2.2.2.2.2.1]; omega

/-- Window 10 stays on block 0 of its array, which is the whole array. -/
theorem iblk_10 (c : Dev nD) (t : Fin cfg0.N) : (iblk m c 10 t : Vec Ideal S32x2 .f32) = V m c main_arg10 := by
  have h := idx_facts t
  funext y
  show V m c main_arg10 (((cfg0.win 10).blk t).view.emb y) = V m c main_arg10 y
  refine congrArg (V m c main_arg10) (funext fun a => Fin.ext ?_)
  match a with
  | ⟨0, _⟩ => show win0_10.index t (0 : Fin 2) * 32 + 1 * (y 0).val = (y 0).val; rw [h.2.2.2.2.2.2.2.2.2.2.2.2.2.2.2.2.2.1]; omega
  | ⟨1, _⟩ => show win0_10.index t (1 : Fin 2) * 2 + 1 * (y 1).val = (y 1).val; rw [h.2.2.2.2.2.2.2.2.2.2.2.2.2.2.2.2.2.2.1]; omega

/-- Window 11 stays on block 0 of its array, which is the whole array. -/
theorem iblk_11 (c : Dev nD) (t : Fin cfg0.N) : (iblk m c 11 t : Vec Ideal S2 .f32) = V m c main_arg11 := by
  have h := idx_facts t
  funext y
  show V m c main_arg11 (((cfg0.win 11).blk t).view.emb y) = V m c main_arg11 y
  refine congrArg (V m c main_arg11) (funext fun a => Fin.ext ?_)
  match a with
  | ⟨0, _⟩ => show win0_11.index t (0 : Fin 1) * 2 + 1 * (y 0).val = (y 0).val; rw [h.2.2.2.2.2.2.2.2.2.2.2.2.2.2.2.2.2.2.2.1]; omega

/-- Row `p` of the input window's block at point `t` is row `4096 t + p` of the input array. -/
theorem iblk_0 (c : Dev nD) (t : Fin cfg0.N) (p : Fin 4096) (k : Fin 8) (r : Fin 1048576) (hr : r.val = t.val * 4096 + p.val) :
    (iblk m c 0 t : Vec Ideal S4096x8 .f32) (ix2 p k) = V m c main_arg0 (ix2 r k) := by
  have h := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 4096 + 1 * p.val = r.val; rw [h.1, hr]; omega
  | ⟨1, _⟩ => show win0_0.index t (1 : Fin 2) * 8 + 1 * k.val = k.val; rw [h.2.1]; omega

/-- Entry `(p, j)` of the output window's block at point `t` sits at `(4096 t + p, j)` of the result array. -/
theorem emb_12 (t : Fin cfg0.N) (p : Fin 4096) (j : Fin 2) (r : Fin 1048576) (hr : r.val = t.val * 4096 + p.val) :
    ((cfg0.win 12).blk t).view.emb (ix2 p j) = (ix2 r j : S1048576x2.Idx) := by
  have h := idx_facts t
  refine funext fun a => Fin.ext ?_
  match a with
  | ⟨0, _⟩ => show win0_12.index t (0 : Fin 2) * 4096 + 1 * p.val = r.val; rw [h.2.2.2.2.2.2.2.2.2.2.2.2.2.2.2.2.2.2.2.2.1, hr]; omega
  | ⟨1, _⟩ => show win0_12.index t (1 : Fin 2) * 2 + 1 * j.val = j.val; rw [h.2.2.2.2.2.2.2.2.2.2.2.2.2.2.2.2.2.2.2.2.2]; omega

/-- WHAT POINT `t` WRITES BACK is block `t` of the network applied row by row to the argument arrays. -/
theorem flushed_eq (c : Dev nD) (t : Fin cfg0.N) :
    (dats m 0 c).flushed 12 t = ((cfg0.win 12).blk t).view.read (Elt Ideal) (G (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  rw [Cert.KernelIdeal.Value.flushed12]
  funext y
  obtain ⟨p, j, rfl⟩ : ∃ (p : Fin 4096) (j : Fin 2), y = ix2 p j := ⟨y 0, y 1, eq_ix2 y⟩
  have hN : cfg0.N = 256 := N_0
  have ht : t.val < 256 := hN ▸ t.isLt
  let r : Fin 1048576 := ⟨t.val * 4096 + p.val, by have := p.isLt; omega⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = G (V m c main_arg0) (V m c main_arg1) (V m c main_arg2) (V m c main_arg3) (V m c main_arg4) (V m c main_arg5) (V m c main_arg6) (V m c main_arg7) (V m c main_arg8) (V m c main_arg9) (V m c main_arg10) (V m c main_arg11) (((cfg0.win 12).blk t).view.emb (ix2 p j))
  refine (ker_net (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p j).trans ?_
  rw [emb_12 t p j r rfl, G_ix2, iblk_1 m c t, iblk_2 m c t, iblk_3 m c t, iblk_4 m c t, iblk_5 m c t, iblk_6 m c t, iblk_7 m c t, iblk_8 m c t, iblk_9 m c t, iblk_10 m c t, iblk_11 m c t]
  refine congrArg (fun row => net (V m c main_arg1) (V m c main_arg2) (V m c main_arg3) (V m c main_arg4) (V m c main_arg5) (V m c main_arg6) (V m c main_arg7) (V m c main_arg8) (V m c main_arg9) (V m c main_arg10) (V m c main_arg11) row j) (funext fun k => ?_)
  exact iblk_0 m c t p k r rfl

/-- An index of the result array is in point `t`'s block iff each coordinate is in the block's range on its axis. -/
theorem mem_blk (t : Fin cfg0.N) (i : S1048576x2.Idx) :
    i ∈ ((cfg0.win 12).blk t).view.set ↔ ∀ a : Fin 2, win0_12.index t a * S4096x2.size a ≤ (i a).val ∧ (i a).val < win0_12.index t a * S4096x2.size a + S4096x2.size a := by
  show i ∈ ((View.whole main_v0).slice (win0_12.rect t)).set ↔ _
  rw [View.set_slice_whole, Rect.mem_set_unit]
  exact Iff.rfl

/-- THE RESULT ARRAY after the run: the 256 blocks of 4096 rows cover it, so it is the network row by row. -/
theorem final (c : Dev nD) : (dats m 0 c).arrAt 12 cfg0.N = G (V m c main_arg0) (V m c main_arg1) (V m c main_arg2) (V m c main_arg3) (V m c main_arg4) (V m c main_arg5) (V m c main_arg6) (V m c main_arg7) (V m c main_arg8) (V m c main_arg9) (V m c main_arg10) (V m c main_arg11) :=
  (dats m 0 c).arrAt_eq_of_cover 12 (G (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed_eq m c t) fun i => by
    have hN : cfg0.N = 256 := N_0
    have hi0 : (i 0).val < 1048576 := (i 0).isLt
    have hi1 : (i 1).val < 2 := (i 1).isLt
    let t : Fin cfg0.N := ⟨(i 0).val / 4096, by rw [hN]; omega⟩
    have h := idx_facts t
    refine ⟨t, flush0_12 t, ?_⟩
    rw [mem_blk]
    intro a
    match a with
    | ⟨0, _⟩ =>
      show win0_12.index t (0 : Fin 2) * 4096 ≤ (i 0).val ∧ (i 0).val < win0_12.index t (0 : Fin 2) * 4096 + 4096
      rw [h.2.2.2.2.2.2.2.2.2.2.2.2.2.2.2.2.2.2.2.2.1]
      show (i 0).val / 4096 * 4096 ≤ (i 0).val ∧ (i 0).val < (i 0).val / 4096 * 4096 + 4096
      omega
    | ⟨1, _⟩ =>
      show win0_12.index t (1 : Fin 2) * 2 ≤ (i 1).val ∧ (i 1).val < win0_12.index t (1 : Fin 2) * 2 + 2
      rw [h.2.2.2.2.2.2.2.2.2.2.2.2.2.2.2.2.2.2.2.2.2]
      omega

/-- The kernel's run, read: the result array at the network applied row by row to the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.Vqc.Ker

end
-- ==== Proof.RefEmbed.lean ====
/-
  The reference's classical front at one row.  Each of the three dense layers is a contraction of the row with a
  weight matrix over the shared axis plus a bias vector broadcast down the rows, read at entry (r, j) as
  (∑ k, h k · W k j) + b j; the rectifier after the first two is the maximum with the word of +0.0; the last
  layer goes through the hyperbolic tangent and is multiplied by the word of π.  Every operation is read at an
  index, the composed operand indices are identified with coordinate pairs, and what is left is the definition.
-/
import proofs.«113502_j9234179686801_1_alg».proof.Proof.RefRead
import proofs.«113502_j9234179686801_1_alg».proof.Proof.Circuit

noncomputable section

namespace Cert.Vqc.Ref

open Idealize.ShloMosaic Idealize.ShloMosaic.ValueIdx Cert.MlpLayer Cert.Vqc Cert.ReferenceIdeal Cert.ReferenceIdeal.Read

/-! ## The operand indices at a coordinate pair -/

theorem lidx_v0 (r : Fin 1048576) (j : Fin 128) (k : Fin 8) : lidx_main_v0 (ix2 r j) k = ix2 r k :=
  funext fun a => Fin.ext (by match a with | ⟨0, _⟩ => rfl | ⟨1, _⟩ => rfl)
theorem ridx_v0 (r : Fin 1048576) (j : Fin 128) (k : Fin 8) : ridx_main_v0 (ix2 r j) k = ix2 k j :=
  funext fun a => Fin.ext (by match a with | ⟨0, _⟩ => rfl | ⟨1, _⟩ => rfl)
theorem bidx_v2 (r : Fin 1048576) (j : Fin 128) : idx_main_v1 (idx_main_v2 (ix2 r j)) = ix1 j :=
  funext fun a => Fin.ext (by match a with | ⟨0, _⟩ => rfl)

theorem lidx_v5 (r : Fin 1048576) (j : Fin 64) (k : Fin 128) : lidx_main_v5 (ix2 r j) k = ix2 r k :=
  funext fun a => Fin.ext (by match a with | ⟨0, _⟩ => rfl | ⟨1, _⟩ => rfl)
theorem ridx_v5 (r : Fin 1048576) (j : Fin 64) (k : Fin 128) : ridx_main_v5 (ix2 r j) k = ix2 k j :=
  funext fun a => Fin.ext (by match a with | ⟨0, _⟩ => rfl | ⟨1, _⟩ => rfl)
theorem bidx_v7 (r : Fin 1048576) (j : Fin 64) : idx_main_v6 (idx_main_v7 (ix2 r j)) = ix1 j :=
  funext fun a => Fin.ext (by match a with | ⟨0, _⟩ => rfl)

theorem lidx_v10 (r : Fin 1048576) (j : Fin 8) (k : Fin 64) : lidx_main_v10 (ix2 r j) k = ix2 r k :=
  funext fun a => Fin.ext (by match a with | ⟨0, _⟩ => rfl | ⟨1, _⟩ => rfl)
theorem ridx_v10 (r : Fin 1048576) (j : Fin 8) (k : Fin 64) : ridx_main_v10 (ix2 r j) k = ix2 k j :=
  funext fun a => Fin.ext (by match a with | ⟨0, _⟩ => rfl | ⟨1, _⟩ => rfl)
theorem bidx_v12 (r : Fin 1048576) (j : Fin 8) : idx_main_v11 (idx_main_v12 (ix2 r j)) = ix1 j :=
  funext fun a => Fin.ext (by match a with | ⟨0, _⟩ => rfl)

/-! ## The three layers -/

/-- Row `r` after the first rectifier. -/
theorem ref_dense1 (x0 : (⟨S1048576x8, .f32⟩ : BufTy).Contents (Elt Ideal)) (x1 : (⟨S8x128, .f32⟩ : BufTy).Contents (Elt Ideal)) (x2 : (⟨S128, .f32⟩ : BufTy).Contents (Elt Ideal)) (r : Fin 1048576) (j : Fin 128) :
    val_main_v4 (F := Ideal) x0 x1 x2 (ix2 r j)
      = relu (lin (fun j k => x1 (ix2 k j)) (fun j => x2 (ix1 j)) (fun k => x0 (ix2 r k))) j := by
  simp only [val_main_v4_apply, val_main_v3_apply, val_main_v0_apply, val_main_v2_apply, val_main_v1_apply,
    val_main_call0_v0_apply, val_main_call0_cst_apply, lidx_v0, ridx_v0, bidx_v2]
  rfl

/-- Row `r` after the second rectifier. -/
theorem ref_dense2 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (r : Fin 1048576) (j : Fin 64) :
    val_main_v9 (F := Ideal) x0 x1 x2 x3 x4 (ix2 r j)
      = relu (lin (fun j k => x3 (ix2 k j)) (fun j => x4 (ix1 j))
          (relu (lin (fun j k => x1 (ix2 k j)) (fun j => x2 (ix1 j)) (fun k => x0 (ix2 r k))))) j := by
  simp only [val_main_v9_apply, val_main_v8_apply, val_main_v5_apply, val_main_v7_apply, val_main_v6_apply,
    val_main_call1_v0_apply, val_main_call1_cst_apply, lidx_v5, ridx_v5, bidx_v7, ref_dense1]
  rfl

/-- Row `r` of the reference's state before the first circuit layer is `embed` of row `r` of the input. -/
theorem ref_embed (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (r : Fin 1048576) (q : Fin 8) :
    val_main_v16 (F := Ideal) x0 x1 x2 x3 x4 x5 x6 (ix2 r q)
      = embed (fun j k => x1 (ix2 k j)) (fun j => x2 (ix1 j)) (fun j k => x3 (ix2 k j)) (fun j => x4 (ix1 j)) (fun j k => x5 (ix2 k j)) (fun j => x6 (ix1 j)) (fun k => x0 (ix2 r k)) q := by
  simp only [val_main_v16_apply, val_main_v14_apply, val_main_v13_apply, val_main_v10_apply, val_main_v12_apply,
    val_main_v11_apply, val_main_v15_apply, val_main_cst_apply, lidx_v10, ridx_v10, bidx_v12, ref_dense2]
  rfl

end Cert.Vqc.Ref

end
-- ==== Proof.RefLayers.lean ====
/-
  The reference's three circuit layers at one row.

  Each layer is the same run of operations on its own slab of the parameter array. Columns 0 and 1 of the slab are cut
  out, flattened to a vector of 8 and broadcast along the rows, so entry (r, q) of either broadcast is the parameter at
  (slab, q, 0), respectively (slab, q, 1); the state plus the first, through the sine, plus the second, through the
  cosine, is the rotated state, whose entry (r, q) is therefore cos (sin (s q + θ q 0) + θ q 1) of row r (`rot`).
  The coupling is computed on seven-column slices: column q of the slice [0:7] is column q of the rotated state, column
  q of the slice [1:8] is its right neighbour q+1 (no wrap for q < 7), and column 2 of the slab, rows 0 to 6, broadcast
  along the rows gives the parameter at (slab, q, 2); the product sin (u q) · cos (u (q+1)) · θ q 2 times the f32 word
  of 0.1 is added to u q. The result is the concatenation, along the columns, of these seven coupled columns and the
  untouched slice [7:8]: a column q < 7 of it is read in the first piece at column q, column 7 in the second piece at
  column 0, which is the two-way case split of `couple`. Every float operation on the extended reals is its
  mathematical meaning by definition, so once the indices are identified the two sides are the same term.
-/
import proofs.«113502_j9234179686801_1_alg».proof.Proof.RefRead
import proofs.«113502_j9234179686801_1_alg».proof.Proof.Circuit

noncomputable section

namespace Cert.Vqc.Ref

open Idealize.ShloMosaic Idealize.ShloMosaic.ValueIdx Cert.MlpLayer Cert.Vqc Cert.ReferenceIdeal Cert.ReferenceIdeal.Read

/-! ### Circuit layer 0: parameter slab 0 -/

/-- Slab 0, column 0, broadcast along the rows: entry `(r, q)` reads the parameter array at `(0, q, 0)`. -/
theorem pidx0_0 (r : Fin 1048576) (q : Fin 8) :
    idx_main_v17 (idx_main_v18 (idx_main_v19 (idx_main_v20 (idx_main_v21 (idx_main_v22 (ix2 r q)))))) = ix3 (0 : Fin 3) q (0 : Fin 3) :=
  funext fun a => Fin.ext (by
    match a with
    | ⟨0, _⟩ => rfl
    | ⟨1, _⟩ => show (q.val / 1 * 3 + 0) / 3 % 8 = q.val; have := q.isLt; omega
    | ⟨2, _⟩ => show (q.val / 1 * 3 + 0) % 3 = 0; omega)

/-- Slab 0, column 1, broadcast along the rows: entry `(r, q)` reads the parameter array at `(0, q, 1)`. -/
theorem pidx1_0 (r : Fin 1048576) (q : Fin 8) :
    idx_main_v17 (idx_main_v18 (idx_main_v25 (idx_main_v26 (idx_main_v27 (idx_main_v28 (ix2 r q)))))) = ix3 (0 : Fin 3) q (1 : Fin 3) :=
  funext fun a => Fin.ext (by
    match a with
    | ⟨0, _⟩ => rfl
    | ⟨1, _⟩ => show (q.val / 1 * 3 + (1 + 0)) / 3 % 8 = q.val; have := q.isLt; omega
    | ⟨2, _⟩ => show (q.val / 1 * 3 + (1 + 0)) % 3 = 1; omega)

/-- The rotated state of layer 0: entry `q` of row `r` is `cos (sin (s q + θ q 0) + θ q 1)`. -/
theorem rot_0 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (r : Fin 1048576) (q : Fin 8) :
    val_main_v30 (F := Ideal) x0 x1 x2 x3 x4 x5 x6 x7 (ix2 r q)
      = rot (fun q => x7 (ix3 (0 : Fin 3) q (0 : Fin 3))) (fun q => x7 (ix3 (0 : Fin 3) q (1 : Fin 3)))
          (fun q' => val_main_v16 (F := Ideal) x0 x1 x2 x3 x4 x5 x6 (ix2 r q')) q := by
  simp only [val_main_v30_apply, val_main_v29_apply, val_main_v28_apply, val_main_v27_apply, val_main_v26_apply,
    val_main_v25_apply, val_main_v24_apply, val_main_v23_apply, val_main_v22_apply, val_main_v21_apply,
    val_main_v20_apply, val_main_v19_apply, val_main_v18_apply, val_main_v17_apply, pidx0_0, pidx1_0]
  rfl

/-- The first seven columns of the rotated state: column `q` of the slice is column `q` of the state. -/
theorem cidxA_0 (r : Fin 1048576) (q : Fin 8) (h : q.val < 7) :
    idx_main_v31 (ix2 r (⟨q.val, h⟩ : Fin 7)) = ix2 r q :=
  funext fun a => Fin.ext (by
    match a with
    | ⟨0, _⟩ => rfl
    | ⟨1, _⟩ => rfl)

/-- The last seven columns of the rotated state: column `q` of the slice is the right neighbour of column `q`. -/
theorem cidxB_0 (r : Fin 1048576) (q : Fin 8) (h : q.val < 7) :
    idx_main_v33 (ix2 r (⟨q.val, h⟩ : Fin 7)) = ix2 r (nxt q) :=
  funext fun a => Fin.ext (by
    match a with
    | ⟨0, _⟩ => rfl
    | ⟨1, _⟩ => show 1 + q.val = (q.val + 1) % 8; omega)

/-- The first seven columns again, for the term the coupling is added to. -/
theorem cidxC_0 (r : Fin 1048576) (q : Fin 8) (h : q.val < 7) :
    idx_main_v43 (ix2 r (⟨q.val, h⟩ : Fin 7)) = ix2 r q :=
  funext fun a => Fin.ext (by
    match a with
    | ⟨0, _⟩ => rfl
    | ⟨1, _⟩ => rfl)

/-- The last column of the rotated state, as a one-column slice. -/
theorem cidxD_0 (r : Fin 1048576) (q : Fin 8) (h : q.val = 7) :
    idx_main_v45 (ix2 r (0 : Fin 1)) = ix2 r q :=
  funext fun a => Fin.ext (by
    match a with
    | ⟨0, _⟩ => rfl
    | ⟨1, _⟩ => show 7 + 0 = q.val; omega)

/-- Slab 0, column 2, first seven rows, broadcast along the rows: entry `(r, q)` reads the parameter array at `(0, q, 2)`. -/
theorem pidx2_0 (r : Fin 1048576) (q : Fin 8) (h : q.val < 7) :
    idx_main_v17 (idx_main_v18 (idx_main_v36 (idx_main_v37 (idx_main_v38 (idx_main_v39 (ix2 r (⟨q.val, h⟩ : Fin 7))))))) = ix3 (0 : Fin 3) q (2 : Fin 3) :=
  funext fun a => Fin.ext (by
    match a with
    | ⟨0, _⟩ => rfl
    | ⟨1, _⟩ => show (q.val / 1 * 3 + (2 + 0)) / 3 % 8 = q.val; omega
    | ⟨2, _⟩ => show (q.val / 1 * 3 + (2 + 0)) % 3 = 2; omega)

/-- Row `r` after the first circuit layer is `layer` (slab 0 of the parameters) of row `r` before it. -/
theorem ref_layer0 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (r : Fin 1048576) (q : Fin 8) :
    val_main_v46 (F := Ideal) x0 x1 x2 x3 x4 x5 x6 x7 (ix2 r q)
      = layer (fun q k => x7 (ix3 (0 : Fin 3) q k)) (fun q' => val_main_v16 (F := Ideal) x0 x1 x2 x3 x4 x5 x6 (ix2 r q')) q := by
  unfold val_main_v46 layer couple
  by_cases h : q.val < 7
  · -- a column with a right neighbour lies in the first piece of the concatenation: the coupled entry
    rw [if_pos h]
    refine (concatenate_pair_apply_left (1 : Fin 2) (val_main_v44 (F := Ideal) x0 x1 x2 x3 x4 x5 x6 x7)
      (val_main_v45 (F := Ideal) x0 x1 x2 x3 x4 x5 x6 x7) Gen.concatenates_S1048576x7_S1048576x1_S1048576x8_d1 (ix2 r q) rfl
      (ix2 r (⟨q.val, h⟩ : Fin 7)) (fun b => match b with | ⟨0, _⟩ => rfl | ⟨1, _⟩ => rfl)).trans ?_
    simp only [val_main_v44_apply, val_main_v43_apply, val_main_v42_apply, val_main_v41_apply, val_main_cst_0_apply,
      val_main_v40_apply, val_main_v39_apply, val_main_v38_apply, val_main_v37_apply, val_main_v36_apply,
      val_main_v35_apply, val_main_v34_apply, val_main_v33_apply, val_main_v32_apply, val_main_v31_apply,
      val_main_v18_apply, val_main_v17_apply, cidxA_0, cidxB_0, cidxC_0, pidx2_0, rot_0]
    rfl
  · -- the last column lies in the second piece: the rotated entry itself
    rw [if_neg h]
    have h7 : q.val = 7 := by have := q.isLt; omega
    refine (concatenate_pair_apply_right (1 : Fin 2) (val_main_v44 (F := Ideal) x0 x1 x2 x3 x4 x5 x6 x7)
      (val_main_v45 (F := Ideal) x0 x1 x2 x3 x4 x5 x6 x7) Gen.concatenates_S1048576x7_S1048576x1_S1048576x8_d1 (ix2 r q) rfl rfl
      (ix2 r (0 : Fin 1)) (fun b => match b with | ⟨0, _⟩ => fun _ => rfl | ⟨1, _⟩ => fun hb => absurd rfl hb)
      (by show 0 + 7 = q.val; omega)).trans ?_
    rw [val_main_v45_apply, cidxD_0 r q h7, rot_0]

/-! ### Circuit layer 1: parameter slab 1 -/

/-- Slab 1, column 0, broadcast along the rows: entry `(r, q)` reads the parameter array at `(1, q, 0)`. -/
theorem pidx0_1 (r : Fin 1048576) (q : Fin 8) :
    idx_main_v47 (idx_main_v48 (idx_main_v49 (idx_main_v50 (idx_main_v51 (idx_main_v52 (ix2 r q)))))) = ix3 (1 : Fin 3) q (0 : Fin 3) :=
  funext fun a => Fin.ext (by
    match a with
    | ⟨0, _⟩ => rfl
    | ⟨1, _⟩ => show (q.val / 1 * 3 + 0) / 3 % 8 = q.val; have := q.isLt; omega
    | ⟨2, _⟩ => show (q.val / 1 * 3 + 0) % 3 = 0; omega)

/-- Slab 1, column 1, broadcast along the rows: entry `(r, q)` reads the parameter array at `(1, q, 1)`. -/
theorem pidx1_1 (r : Fin 1048576) (q : Fin 8) :
    idx_main_v47 (idx_main_v48 (idx_main_v55 (idx_main_v56 (idx_main_v57 (idx_main_v58 (ix2 r q)))))) = ix3 (1 : Fin 3) q (1 : Fin 3) :=
  funext fun a => Fin.ext (by
    match a with
    | ⟨0, _⟩ => rfl
    | ⟨1, _⟩ => show (q.val / 1 * 3 + (1 + 0)) / 3 % 8 = q.val; have := q.isLt; omega
    | ⟨2, _⟩ => show (q.val / 1 * 3 + (1 + 0)) % 3 = 1; omega)

/-- The rotated state of layer 1: entry `q` of row `r` is `cos (sin (s q + θ q 0) + θ q 1)`. -/
theorem rot_1 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (r : Fin 1048576) (q : Fin 8) :
    val_main_v60 (F := Ideal) x0 x1 x2 x3 x4 x5 x6 x7 (ix2 r q)
      = rot (fun q => x7 (ix3 (1 : Fin 3) q (0 : Fin 3))) (fun q => x7 (ix3 (1 : Fin 3) q (1 : Fin 3)))
          (fun q' => val_main_v46 (F := Ideal) x0 x1 x2 x3 x4 x5 x6 x7 (ix2 r q')) q := by
  simp only [val_main_v60_apply, val_main_v59_apply, val_main_v58_apply, val_main_v57_apply, val_main_v56_apply,
    val_main_v55_apply, val_main_v54_apply, val_main_v53_apply, val_main_v52_apply, val_main_v51_apply,
    val_main_v50_apply, val_main_v49_apply, val_main_v48_apply, val_main_v47_apply, pidx0_1, pidx1_1]
  rfl

/-- The first seven columns of the rotated state: column `q` of the slice is column `q` of the state. -/
theorem cidxA_1 (r : Fin 1048576) (q : Fin 8) (h : q.val < 7) :
    idx_main_v61 (ix2 r (⟨q.val, h⟩ : Fin 7)) = ix2 r q :=
  funext fun a => Fin.ext (by
    match a with
    | ⟨0, _⟩ => rfl
    | ⟨1, _⟩ => rfl)

/-- The last seven columns of the rotated state: column `q` of the slice is the right neighbour of column `q`. -/
theorem cidxB_1 (r : Fin 1048576) (q : Fin 8) (h : q.val < 7) :
    idx_main_v63 (ix2 r (⟨q.val, h⟩ : Fin 7)) = ix2 r (nxt q) :=
  funext fun a => Fin.ext (by
    match a with
    | ⟨0, _⟩ => rfl
    | ⟨1, _⟩ => show 1 + q.val = (q.val + 1) % 8; omega)

/-- The first seven columns again, for the term the coupling is added to. -/
theorem cidxC_1 (r : Fin 1048576) (q : Fin 8) (h : q.val < 7) :
    idx_main_v73 (ix2 r (⟨q.val, h⟩ : Fin 7)) = ix2 r q :=
  funext fun a => Fin.ext (by
    match a with
    | ⟨0, _⟩ => rfl
    | ⟨1, _⟩ => rfl)

/-- The last column of the rotated state, as a one-column slice. -/
theorem cidxD_1 (r : Fin 1048576) (q : Fin 8) (h : q.val = 7) :
    idx_main_v75 (ix2 r (0 : Fin 1)) = ix2 r q :=
  funext fun a => Fin.ext (by
    match a with
    | ⟨0, _⟩ => rfl
    | ⟨1, _⟩ => show 7 + 0 = q.val; omega)

/-- Slab 1, column 2, first seven rows, broadcast along the rows: entry `(r, q)` reads the parameter array at `(1, q, 2)`. -/
theorem pidx2_1 (r : Fin 1048576) (q : Fin 8) (h : q.val < 7) :
    idx_main_v47 (idx_main_v48 (idx_main_v66 (idx_main_v67 (idx_main_v68 (idx_main_v69 (ix2 r (⟨q.val, h⟩ : Fin 7))))))) = ix3 (1 : Fin 3) q (2 : Fin 3) :=
  funext fun a => Fin.ext (by
    match a with
    | ⟨0, _⟩ => rfl
    | ⟨1, _⟩ => show (q.val / 1 * 3 + (2 + 0)) / 3 % 8 = q.val; omega
    | ⟨2, _⟩ => show (q.val / 1 * 3 + (2 + 0)) % 3 = 2; omega)

/-- Row `r` after the second circuit layer is `layer` (slab 1) of row `r` after the first. -/
theorem ref_layer1 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (r : Fin 1048576) (q : Fin 8) :
    val_main_v76 (F := Ideal) x0 x1 x2 x3 x4 x5 x6 x7 (ix2 r q)
      = layer (fun q k => x7 (ix3 (1 : Fin 3) q k)) (fun q' => val_main_v46 (F := Ideal) x0 x1 x2 x3 x4 x5 x6 x7 (ix2 r q')) q := by
  unfold val_main_v76 layer couple
  by_cases h : q.val < 7
  · -- a column with a right neighbour lies in the first piece of the concatenation: the coupled entry
    rw [if_pos h]
    refine (concatenate_pair_apply_left (1 : Fin 2) (val_main_v74 (F := Ideal) x0 x1 x2 x3 x4 x5 x6 x7)
      (val_main_v75 (F := Ideal) x0 x1 x2 x3 x4 x5 x6 x7) Gen.concatenates_S1048576x7_S1048576x1_S1048576x8_d1 (ix2 r q) rfl
      (ix2 r (⟨q.val, h⟩ : Fin 7)) (fun b => match b with | ⟨0, _⟩ => rfl | ⟨1, _⟩ => rfl)).trans ?_
    simp only [val_main_v74_apply, val_main_v73_apply, val_main_v72_apply, val_main_v71_apply, val_main_cst_1_apply,
      val_main_v70_apply, val_main_v69_apply, val_main_v68_apply, val_main_v67_apply, val_main_v66_apply,
      val_main_v65_apply, val_main_v64_apply, val_main_v63_apply, val_main_v62_apply, val_main_v61_apply,
      val_main_v48_apply, val_main_v47_apply, cidxA_1, cidxB_1, cidxC_1, pidx2_1, rot_1]
    rfl
  · -- the last column lies in the second piece: the rotated entry itself
    rw [if_neg h]
    have h7 : q.val = 7 := by have := q.isLt; omega
    refine (concatenate_pair_apply_right (1 : Fin 2) (val_main_v74 (F := Ideal) x0 x1 x2 x3 x4 x5 x6 x7)
      (val_main_v75 (F := Ideal) x0 x1 x2 x3 x4 x5 x6 x7) Gen.concatenates_S1048576x7_S1048576x1_S1048576x8_d1 (ix2 r q) rfl rfl
      (ix2 r (0 : Fin 1)) (fun b => match b with | ⟨0, _⟩ => fun _ => rfl | ⟨1, _⟩ => fun hb => absurd rfl hb)
      (by show 0 + 7 = q.val; omega)).trans ?_
    rw [val_main_v75_apply, cidxD_1 r q h7, rot_1]

/-! ### Circuit layer 2: parameter slab 2 -/

/-- Slab 2, column 0, broadcast along the rows: entry `(r, q)` reads the parameter array at `(2, q, 0)`. -/
theorem pidx0_2 (r : Fin 1048576) (q : Fin 8) :
    idx_main_v77 (idx_main_v78 (idx_main_v79 (idx_main_v80 (idx_main_v81 (idx_main_v82 (ix2 r q)))))) = ix3 (2 : Fin 3) q (0 : Fin 3) :=
  funext fun a => Fin.ext (by
    match a with
    | ⟨0, _⟩ => rfl
    | ⟨1, _⟩ => show (q.val / 1 * 3 + 0) / 3 % 8 = q.val; have := q.isLt; omega
    | ⟨2, _⟩ => show (q.val / 1 * 3 + 0) % 3 = 0; omega)

/-- Slab 2, column 1, broadcast along the rows: entry `(r, q)` reads the parameter array at `(2, q, 1)`. -/
theorem pidx1_2 (r : Fin 1048576) (q : Fin 8) :
    idx_main_v77 (idx_main_v78 (idx_main_v85 (idx_main_v86 (idx_main_v87 (idx_main_v88 (ix2 r q)))))) = ix3 (2 : Fin 3) q (1 : Fin 3) :=
  funext fun a => Fin.ext (by
    match a with
    | ⟨0, _⟩ => rfl
    | ⟨1, _⟩ => show (q.val / 1 * 3 + (1 + 0)) / 3 % 8 = q.val; have := q.isLt; omega
    | ⟨2, _⟩ => show (q.val / 1 * 3 + (1 + 0)) % 3 = 1; omega)

/-- The rotated state of layer 2: entry `q` of row `r` is `cos (sin (s q + θ q 0) + θ q 1)`. -/
theorem rot_2 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (r : Fin 1048576) (q : Fin 8) :
    val_main_v90 (F := Ideal) x0 x1 x2 x3 x4 x5 x6 x7 (ix2 r q)
      = rot (fun q => x7 (ix3 (2 : Fin 3) q (0 : Fin 3))) (fun q => x7 (ix3 (2 : Fin 3) q (1 : Fin 3)))
          (fun q' => val_main_v76 (F := Ideal) x0 x1 x2 x3 x4 x5 x6 x7 (ix2 r q')) q := by
  simp only [val_main_v90_apply, val_main_v89_apply, val_main_v88_apply, val_main_v87_apply, val_main_v86_apply,
    val_main_v85_apply, val_main_v84_apply, val_main_v83_apply, val_main_v82_apply, val_main_v81_apply,
    val_main_v80_apply, val_main_v79_apply, val_main_v78_apply, val_main_v77_apply, pidx0_2, pidx1_2]
  rfl

/-- The first seven columns of the rotated state: column `q` of the slice is column `q` of the state. -/
theorem cidxA_2 (r : Fin 1048576) (q : Fin 8) (h : q.val < 7) :
    idx_main_v91 (ix2 r (⟨q.val, h⟩ : Fin 7)) = ix2 r q :=
  funext fun a => Fin.ext (by
    match a with
    | ⟨0, _⟩ => rfl
    | ⟨1, _⟩ => rfl)

/-- The last seven columns of the rotated state: column `q` of the slice is the right neighbour of column `q`. -/
theorem cidxB_2 (r : Fin 1048576) (q : Fin 8) (h : q.val < 7) :
    idx_main_v93 (ix2 r (⟨q.val, h⟩ : Fin 7)) = ix2 r (nxt q) :=
  funext fun a => Fin.ext (by
    match a with
    | ⟨0, _⟩ => rfl
    | ⟨1, _⟩ => show 1 + q.val = (q.val + 1) % 8; omega)

/-- The first seven columns again, for the term the coupling is added to. -/
theorem cidxC_2 (r : Fin 1048576) (q : Fin 8) (h : q.val < 7) :
    idx_main_v103 (ix2 r (⟨q.val, h⟩ : Fin 7)) = ix2 r q :=
  funext fun a => Fin.ext (by
    match a with
    | ⟨0, _⟩ => rfl
    | ⟨1, _⟩ => rfl)

/-- The last column of the rotated state, as a one-column slice. -/
theorem cidxD_2 (r : Fin 1048576) (q : Fin 8) (h : q.val = 7) :
    idx_main_v105 (ix2 r (0 : Fin 1)) = ix2 r q :=
  funext fun a => Fin.ext (by
    match a with
    | ⟨0, _⟩ => rfl
    | ⟨1, _⟩ => show 7 + 0 = q.val; omega)

/-- Slab 2, column 2, first seven rows, broadcast along the rows: entry `(r, q)` reads the parameter array at `(2, q, 2)`. -/
theorem pidx2_2 (r : Fin 1048576) (q : Fin 8) (h : q.val < 7) :
    idx_main_v77 (idx_main_v78 (idx_main_v96 (idx_main_v97 (idx_main_v98 (idx_main_v99 (ix2 r (⟨q.val, h⟩ : Fin 7))))))) = ix3 (2 : Fin 3) q (2 : Fin 3) :=
  funext fun a => Fin.ext (by
    match a with
    | ⟨0, _⟩ => rfl
    | ⟨1, _⟩ => show (q.val / 1 * 3 + (2 + 0)) / 3 % 8 = q.val; omega
    | ⟨2, _⟩ => show (q.val / 1 * 3 + (2 + 0)) % 3 = 2; omega)

/-- Row `r` after the third circuit layer is `layer` (slab 2) of row `r` after the second. -/
theorem ref_layer2 (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (r : Fin 1048576) (q : Fin 8) :
    val_main_v106 (F := Ideal) x0 x1 x2 x3 x4 x5 x6 x7 (ix2 r q)
      = layer (fun q k => x7 (ix3 (2 : Fin 3) q k)) (fun q' => val_main_v76 (F := Ideal) x0 x1 x2 x3 x4 x5 x6 x7 (ix2 r q')) q := by
  unfold val_main_v106 layer couple
  by_cases h : q.val < 7
  · -- a column with a right neighbour lies in the first piece of the concatenation: the coupled entry
    rw [if_pos h]
    refine (concatenate_pair_apply_left (1 : Fin 2) (val_main_v104 (F := Ideal) x0 x1 x2 x3 x4 x5 x6 x7)
      (val_main_v105 (F := Ideal) x0 x1 x2 x3 x4 x5 x6 x7) Gen.concatenates_S1048576x7_S1048576x1_S1048576x8_d1 (ix2 r q) rfl
      (ix2 r (⟨q.val, h⟩ : Fin 7)) (fun b => match b with | ⟨0, _⟩ => rfl | ⟨1, _⟩ => rfl)).trans ?_
    simp only [val_main_v104_apply, val_main_v103_apply, val_main_v102_apply, val_main_v101_apply, val_main_cst_2_apply,
      val_main_v100_apply, val_main_v99_apply, val_main_v98_apply, val_main_v97_apply, val_main_v96_apply,
      val_main_v95_apply, val_main_v94_apply, val_main_v93_apply, val_main_v92_apply, val_main_v91_apply,
      val_main_v78_apply, val_main_v77_apply, cidxA_2, cidxB_2, cidxC_2, pidx2_2, rot_2]
    rfl
  · -- the last column lies in the second piece: the rotated entry itself
    rw [if_neg h]
    have h7 : q.val = 7 := by have := q.isLt; omega
    refine (concatenate_pair_apply_right (1 : Fin 2) (val_main_v104 (F := Ideal) x0 x1 x2 x3 x4 x5 x6 x7)
      (val_main_v105 (F := Ideal) x0 x1 x2 x3 x4 x5 x6 x7) Gen.concatenates_S1048576x7_S1048576x1_S1048576x8_d1 (ix2 r q) rfl rfl
      (ix2 r (0 : Fin 1)) (fun b => match b with | ⟨0, _⟩ => fun _ => rfl | ⟨1, _⟩ => fun hb => absurd rfl hb)
      (by show 0 + 7 = q.val; omega)).trans ?_
    rw [val_main_v105_apply, cidxD_2 r q h7, rot_2]

end Cert.Vqc.Ref

end
-- ==== Proof.RefHead.lean ====
/-
  The reference's output head at one row.  The two dense layers are contractions of the row with a weight matrix
  over the shared axis plus a bias vector broadcast down the rows, the rectifier between them the maximum with the
  word of +0.0: at entry (r, j) the logits are (∑ k, h k · W k j) + b j.  The softmax takes the fold of the maximum
  over the two logits of the row from the word of -∞, once more the maximum against -∞, subtracts it from both
  logits, exponentiates, adds the two exponentials to the word of +0.0 (which is 0) and divides each by the sum.
-/
import proofs.«113502_j9234179686801_1_alg».proof.Proof.RefRead
import proofs.«113502_j9234179686801_1_alg».proof.Proof.Circuit

noncomputable section

namespace Cert.Vqc.Ref

open Idealize.ShloMosaic Idealize.ShloMosaic.ValueIdx Cert.MlpLayer Cert.Vqc Cert.ReferenceIdeal Cert.ReferenceIdeal.Gen Cert.ReferenceIdeal.Read

/-! ## The operand indices at a coordinate pair -/

theorem lidx_v107 (r : Fin 1048576) (j : Fin 32) (k : Fin 8) : lidx_main_v107 (ix2 r j) k = ix2 r k :=
  funext fun a => Fin.ext (by match a with | ⟨0, _⟩ => rfl | ⟨1, _⟩ => rfl)
theorem ridx_v107 (r : Fin 1048576) (j : Fin 32) (k : Fin 8) : ridx_main_v107 (ix2 r j) k = ix2 k j :=
  funext fun a => Fin.ext (by match a with | ⟨0, _⟩ => rfl | ⟨1, _⟩ => rfl)
theorem bidx_v109 (r : Fin 1048576) (j : Fin 32) : idx_main_v108 (idx_main_v109 (ix2 r j)) = ix1 j :=
  funext fun a => Fin.ext (by match a with | ⟨0, _⟩ => rfl)

theorem lidx_v112 (r : Fin 1048576) (j : Fin 2) (k : Fin 32) : lidx_main_v112 (ix2 r j) k = ix2 r k :=
  funext fun a => Fin.ext (by match a with | ⟨0, _⟩ => rfl | ⟨1, _⟩ => rfl)
theorem ridx_v112 (r : Fin 1048576) (j : Fin 2) (k : Fin 32) : ridx_main_v112 (ix2 r j) k = ix2 k j :=
  funext fun a => Fin.ext (by match a with | ⟨0, _⟩ => rfl | ⟨1, _⟩ => rfl)
theorem bidx_v114 (r : Fin 1048576) (j : Fin 2) : idx_main_v113 (idx_main_v114 (ix2 r j)) = ix1 j :=
  funext fun a => Fin.ext (by match a with | ⟨0, _⟩ => rfl)

theorem idx_v120 (r : Fin 1048576) (j : Fin 2) : idx_main_v119 (idx_main_v120 (ix2 r j)) = ix1 r :=
  funext fun a => Fin.ext (by match a with | ⟨0, _⟩ => rfl)
theorem idx_v125 (r : Fin 1048576) (j : Fin 2) : idx_main_v124 (idx_main_v125 (ix2 r j)) = ix1 r :=
  funext fun a => Fin.ext (by match a with | ⟨0, _⟩ => rfl)
theorem idx_v123 (r : Fin 1048576) (k : Fin 2) : idx_main_v123 (ix1 r) k = ix2 r k :=
  funext fun a => Fin.ext (by match a with | ⟨0, _⟩ => rfl | ⟨1, _⟩ => rfl)

/-! ## The two dense layers -/

/-- Row `r` after the head's rectifier. -/
theorem ref_hidden (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (r : Fin 1048576) (j : Fin 32) :
    val_main_v111 (F := Ideal) x0 x1 x2 x3 x4 x5 x6 x7 x8 x9 (ix2 r j) = (relu (lin (fun j k => x8 (ix2 k j)) (fun j => x9 (ix1 j)) (fun q => val_main_v106 (F := Ideal) x0 x1 x2 x3 x4 x5 x6 x7 (ix2 r q)))) j := by
  simp only [val_main_v111_apply, val_main_v110_apply, val_main_v107_apply, val_main_v109_apply, val_main_v108_apply,
    val_main_call2_v0_apply, val_main_call2_cst_apply, lidx_v107, ridx_v107, bidx_v109]
  rfl

/-- Row `r` of the logits. -/
theorem ref_logits (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) (r : Fin 1048576) (j : Fin 2) :
    val_main_v115 (F := Ideal) x0 x1 x2 x3 x4 x5 x6 x7 x8 x9 x10 x11 (ix2 r j) = (lin (fun j k => x10 (ix2 k j)) (fun j => x11 (ix1 j)) (relu (lin (fun j k => x8 (ix2 k j)) (fun j => x9 (ix1 j)) (fun q => val_main_v106 (F := Ideal) x0 x1 x2 x3 x4 x5 x6 x7 (ix2 r q))))) j := by
  simp only [val_main_v115_apply, val_main_v112_apply, val_main_v114_apply, val_main_v113_apply,
    lidx_v112, ridx_v112, bidx_v114, ref_hidden]
  rfl

/-! ## The largest logit of a row -/

/-- The reduced index `r` with the logit's coordinate `k` put back is (r, k). -/
theorem lift_row (h : S1048576x2.Reduces [1] S1048576) (r : Fin 1048576) (k : Fin (S1048576x2.size 1)) :
    h.lift (ix1 r) k = ix2 r (⟨k.val, k.isLt⟩ : Fin 2) :=
  funext fun c => Fin.ext (by match c with | ⟨0, _⟩ => rfl | ⟨1, _⟩ => rfl)

/-- The fold of the maximum over the two entries of row `r`, then once more against -∞, is `top` of the row. -/
theorem ref_top (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) (r : Fin 1048576) :
    val_main_v118 (F := Ideal) x0 x1 x2 x3 x4 x5 x6 x7 x8 x9 x10 x11 (ix1 r)
      = top (fun k => val_main_v115 (F := Ideal) x0 x1 x2 x3 x4 x5 x6 x7 x8 x9 x10 x11 (ix2 r k)) := by
  have h : S1048576x2.Reduces [1] S1048576 := by decide
  have e : val_main_v116 (F := Ideal) x0 x1 x2 x3 x4 x5 x6 x7 x8 x9 x10 x11 (ix1 r)
      = (Finset.univ : Finset (Fin 2)).fold max negInfW (fun k => val_main_v115 (F := Ideal) x0 x1 x2 x3 x4 x5 x6 x7 x8 x9 x10 x11 (ix2 r k)) := by
    unfold val_main_v116
    generalize val_main_v115 (F := Ideal) x0 x1 x2 x3 x4 x5 x6 x7 x8 x9 x10 x11 = y
    refine (Host.reduce_eq_fold_single (α := Ideal .f32) FloatOps.maximumf y _ reducesTo_S1048576x2_S1048576_d1 h h_S_ (ix1 r)).trans ?_
    have hf : (y ∘ h.lift (ix1 r)) = fun k : Fin 2 => y (ix2 r k) := funext fun k => congrArg y (lift_row h r k)
    exact congrArg (fun f => Finset.fold max negInfW f (Finset.univ : Finset (Fin 2))) hf
  refine (val_main_v118_apply (F := Ideal) x0 x1 x2 x3 x4 x5 x6 x7 x8 x9 x10 x11 (ix1 r)).trans ?_
  rw [e, val_main_v117_apply, val_main_cst_4_apply]
  generalize (fun k : Fin 2 => val_main_v115 (F := Ideal) x0 x1 x2 x3 x4 x5 x6 x7 x8 x9 x10 x11 (ix2 r k)) = z
  rfl

/-! ## The softmax -/

/-- Entry (r, j) of the logits less the row's largest. -/
theorem ref_shift (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) (r : Fin 1048576) (j : Fin 2) :
    val_main_v121 (F := Ideal) x0 x1 x2 x3 x4 x5 x6 x7 x8 x9 x10 x11 (ix2 r j) = val_main_v115 (F := Ideal) x0 x1 x2 x3 x4 x5 x6 x7 x8 x9 x10 x11 (ix2 r j) - top (fun k => val_main_v115 (F := Ideal) x0 x1 x2 x3 x4 x5 x6 x7 x8 x9 x10 x11 (ix2 r k)) := by
  refine (val_main_v121_apply (F := Ideal) x0 x1 x2 x3 x4 x5 x6 x7 x8 x9 x10 x11 (ix2 r j)).trans ?_
  rw [val_main_v120_apply, val_main_v119_apply, idx_v120, ref_top]
  exact Ideal.subf_def _ _

/-- Its exponential. -/
theorem ref_exp (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) (r : Fin 1048576) (j : Fin 2) :
    val_main_v122 (F := Ideal) x0 x1 x2 x3 x4 x5 x6 x7 x8 x9 x10 x11 (ix2 r j) = Ideal.exp (val_main_v115 (F := Ideal) x0 x1 x2 x3 x4 x5 x6 x7 x8 x9 x10 x11 (ix2 r j) - top (fun k => val_main_v115 (F := Ideal) x0 x1 x2 x3 x4 x5 x6 x7 x8 x9 x10 x11 (ix2 r k))) := by
  refine (val_main_v122_apply (F := Ideal) x0 x1 x2 x3 x4 x5 x6 x7 x8 x9 x10 x11 (ix2 r j)).trans ?_
  rw [ref_shift]
  exact Ideal.hostUnary_exp_def _

/-- The sum of the row's two exponentials; the initial value is the word of +0.0, which is 0. -/
theorem ref_sum (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) (r : Fin 1048576) :
    val_main_v123 (F := Ideal) x0 x1 x2 x3 x4 x5 x6 x7 x8 x9 x10 x11 (ix1 r) = ∑ k : Fin 2, Ideal.exp (val_main_v115 (F := Ideal) x0 x1 x2 x3 x4 x5 x6 x7 x8 x9 x10 x11 (ix2 r k) - top (fun k => val_main_v115 (F := Ideal) x0 x1 x2 x3 x4 x5 x6 x7 x8 x9 x10 x11 (ix2 r k))) := by
  refine (val_main_v123_apply x0 x1 x2 x3 x4 x5 x6 x7 x8 x9 x10 x11 (ix1 r)).trans ?_
  rw [val_main_cst_5_apply, Ideal.ofBits_def, Ideal.ofBits_zero_f32, zero_add]
  refine Finset.sum_congr rfl fun k _ => ?_
  rw [idx_v123, ref_exp]

/-- Row `r` of the reference's result is `head` of row `r` of its state after the third circuit layer. -/
theorem ref_head (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) (r : Fin 1048576) (j : Fin 2) :
    val_main_v126 (F := Ideal) x0 x1 x2 x3 x4 x5 x6 x7 x8 x9 x10 x11 (ix2 r j)
      = head (fun j k => x8 (ix2 k j)) (fun j => x9 (ix1 j)) (fun j k => x10 (ix2 k j)) (fun j => x11 (ix1 j))
          (fun q => val_main_v106 (F := Ideal) x0 x1 x2 x3 x4 x5 x6 x7 (ix2 r q)) j := by
  refine (val_main_v126_apply (F := Ideal) x0 x1 x2 x3 x4 x5 x6 x7 x8 x9 x10 x11 (ix2 r j)).trans ?_
  rw [val_main_v125_apply, val_main_v124_apply, idx_v125, ref_sum, ref_exp]
  simp only [ref_logits, Ideal.hostDivf_def]
  unfold head softmax2
  with_reducible rfl

end Cert.Vqc.Ref

end
-- ==== Proof.RefNet.lean ====
/-
  The reference's result array as one function of the argument arrays.

  Row `r` of the reference's result is the output head of row `r` of its state after the third circuit layer, which is a
  circuit layer of the row after the second, and so on down to the classical front of row `r` of the input: the five
  row-level readings composed are the network on row `r`, entry by entry.
-/
import proofs.«113502_j9234179686801_1_alg».proof.Proof.RefRead
import proofs.«113502_j9234179686801_1_alg».proof.Proof.NetArray
import proofs.«113502_j9234179686801_1_alg».proof.Proof.RefEmbed
import proofs.«113502_j9234179686801_1_alg».proof.Proof.RefLayers
import proofs.«113502_j9234179686801_1_alg».proof.Proof.RefHead

noncomputable section

namespace Cert.Vqc.Ref

open Idealize.ShloMosaic Idealize.ShloMosaic.ValueIdx Cert.MlpLayer Cert.Vqc Cert.ReferenceIdeal Cert.ReferenceIdeal.Read

/-- The reference's result array is the network applied row by row to the argument arrays. -/
theorem ref_array (x0 : (⟨S1048576x8, .f32⟩ : BufTy).Contents (Elt Ideal)) (x1 : (⟨S8x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x8, .f32⟩ : BufTy).Contents (Elt Ideal)) (x6 : (⟨S8, .f32⟩ : BufTy).Contents (Elt Ideal)) (x7 : (⟨S3x8x3, .f32⟩ : BufTy).Contents (Elt Ideal)) (x8 : (⟨S8x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) :
    val_main_v126 (F := Ideal) x0 x1 x2 x3 x4 x5 x6 x7 x8 x9 x10 x11 = G x0 x1 x2 x3 x4 x5 x6 x7 x8 x9 x10 x11 := by
  funext i
  obtain ⟨r, j, rfl⟩ : ∃ (r : Fin 1048576) (j : Fin 2), i = ix2 r j := ⟨i 0, i 1, eq_ix2 i⟩
  rw [G_ix2, ref_head]
  unfold net
  refine congrArg (fun s => head (fun j k => x8 (ix2 k j)) (fun j => x9 (ix1 j)) (fun j k => x10 (ix2 k j)) (fun j => x11 (ix1 j)) s j) (funext fun q => ?_)
  rw [ref_layer2]
  refine congrFun (layer_congr rfl (funext fun q => ?_)) q
  rw [ref_layer1]
  refine congrFun (layer_congr rfl (funext fun q => ?_)) q
  rw [ref_layer0]
  refine congrFun (layer_congr rfl (funext fun q => ?_)) q
  exact ref_embed x0 x1 x2 x3 x4 x5 x6 r q

end Cert.Vqc.Ref

end
-- ==== Proof.lean ====
/-
  The certificate: a fused kernel for a small variational-circuit classifier against its jnp reference, on the extended reals.

  Both programs send every row of the input `[1048576, 8]` through the same network (Proof/Circuit.lean): three dense
  layers with rectifiers, a hyperbolic tangent and the word of π; three circuit layers, each a rotation
  `cos (sin (s + θ₀) + θ₁)` of every entry followed by a coupling of every entry but the last to its right neighbour; a
  rectified dense layer, a dense layer and a softmax over two logits.  They differ in how they get there.  The kernel
  works on blocks of 4096 rows, takes the matrix products into a zero accumulator after rounding the operands to a
  narrower format (the identity on the extended reals), finds the neighbour by a lane rotation and multiplies the
  coupling term of EVERY entry by a 0/1 mask; the reference works on the whole array, slices the first seven columns,
  adds the coupling there and concatenates the last column back.  On the extended reals `x · 1 = x`, `x · 0 = 0` and
  `u + 0 = u` hold without exception, so the masked form is the sliced one, entry by entry (`Cert.Vqc.couple_masked`),
  and no finiteness of the inputs is used.

  The kernel's side: what the body leaves in its output block at one row (Proof/KerEmbed.lean, KerLayers.lean,
  KerSoftmax.lean, composed in KerNet.lean), the 256 blocks as one array and the run read (KerArray.lean).  The
  reference's side: its operations read one at a time at an index (Proof/RefRead.lean), composed row by row
  (RefEmbed.lean, RefLayers.lean, RefHead.lean, RefNet.lean), and its run (RefRun.lean).  Both end at the one function
  `Cert.Vqc.G` of the argument arrays (NetArray.lean).  The frames of the two kernel programs are the generated ones; the
  reference's frame is its run with the result dropped; nothing was rewritten by the idealization, so `preserves` is `True`.
-/
import proofs.«113502_j9234179686801_1_alg».proof.Defs
import proofs.«113502_j9234179686801_1_alg».proof.Proof.Gen.Kernel
import proofs.«113502_j9234179686801_1_alg».proof.Proof.Gen.Kernel.Skeleton
import proofs.«113502_j9234179686801_1_alg».proof.Proof.Gen.Kernel.Launch
import proofs.«113502_j9234179686801_1_alg».proof.Proof.Gen.Kernel.Points
import proofs.«113502_j9234179686801_1_alg».proof.Proof.Gen.Kernel.Frame
import proofs.«113502_j9234179686801_1_alg».proof.Proof.Gen.KernelIdeal
import proofs.«113502_j9234179686801_1_alg».proof.Proof.Gen.KernelIdeal.Skeleton
import proofs.«113502_j9234179686801_1_alg».proof.Proof.Gen.KernelIdeal.Launch
import proofs.«113502_j9234179686801_1_alg».proof.Proof.Gen.KernelIdeal.Points
import proofs.«113502_j9234179686801_1_alg».proof.Proof.Gen.KernelIdeal.Frame
import proofs.«113502_j9234179686801_1_alg».proof.Proof.Gen.ReferenceIdeal
import proofs.«113502_j9234179686801_1_alg».proof.Proof.Gen.Pre_finite_inputs
import proofs.«113502_j9234179686801_1_alg».proof.Proof.Gen.KernelIdeal.Value
import proofs.«113502_j9234179686801_1_alg».proof.Proof.RefRead
import proofs.«113502_j9234179686801_1_alg».proof.Proof.RefRun
import proofs.«113502_j9234179686801_1_alg».proof.Proof.KerArray
import proofs.«113502_j9234179686801_1_alg».proof.Proof.RefNet
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the idealized kernel's result array and the reference's are the network
    applied row by row to the same argument arrays. -/
theorem algebraic : Cert.algebraic_KernelIdeal_ReferenceIdeal := by
  intro m ρ m' ρ' _ hagree
  refine ⟨fun c => Cert.Vqc.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.Vqc.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.Vqc.Ref.ref_array, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
